-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S800000x2 : Shape := ⟨2, ![800000, 2]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000x2 : S_.BroadcastsInDim S800000x2 (![] : Fin 0 → Fin S800000x2.rank)
  reducesTo_S800000x2_S_d0_1 : S800000x2.ReducesTo [0, 1] S_
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S64x64 .f32) (main_arg13 : FVec F S64 .f32) (main_arg14 : FVec F S64x1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_v63 main_v67

def fn_part2 {F : FTy → Type} [FloatOps F] (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_v48 main_v49 main_v50

def fn_part1 {F : FTy → Type} [FloatOps F] (main_arg5 : FVec F S64 .f32) (main_arg6 : FVec F S64x64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_v13 : IVec S_ 1) (main_v16 : IVec S131x64 1) : IVec S_ 1 :=
  let main_c_5 : IVec S_ 1 := constantI S_ 1 1#1
  let main_v17 : IVec S_ 1 := (fun x v => Host.reduce IntOp.andi x v reducesTo_S131x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x64 .f32) (main_arg1 : FVec F S50000x3 .f32) (main_arg2 : IVec S2x800000 32) (main_arg3 : FVec F S800000x2 .f32) (main_arg4 : FVec F S131x64 .f32) (main_arg5 : FVec F S64 .f32) (main_arg6 : FVec F S64x64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000x2 .f32 := Host.absf main_arg3
  let main_cst_2 : FVec F S_ .f32 := constant S_ .f32 0x7F800000#32
  let main_v10 : FVec F S800000x2 .f32 := broadcastInDim S800000x2 ![] bcast_S_S800000x2 main_cst_2
  let main_v11 : IVec S800000x2 1 := cmpf .olt main_v9 main_v10
  let main_c_3 : IVec S_ 1 := constantI S_ 1 1#1
  let main_v12 : IVec S_ 1 := (fun x v => Host.reduce IntOp.andi x v reducesTo_S800000x2_S_d0_1 h_S_) main_v11 main_c_3
  let main_v13 : IVec S_ 1 := andi main_v8 main_v12
  let main_v14 : FVec F S131x64 .f32 := Host.absf main_arg4
  let main_cst_4 : FVec F S_ .f32 := constant S_ .f32 0x7F800000#32
  let main_v15 : FVec F S131x64 .f32 := broadcastInDim S131x64 ![] bcast_S_S131x64 main_cst_4
  let main_v16 : IVec S131x64 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S800000x2 : Shape := ⟨2, ![800000, 2]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x3 : Shape := ⟨2, ![800000, 3]⟩
abbrev S800000x5 : Shape := ⟨2, ![800000, 5]⟩
abbrev S1x64 : Shape := ⟨2, ![1, 64]⟩
abbrev S2x64 : Shape := ⟨2, ![2, 64]⟩
abbrev S6400x64 : Shape := ⟨2, ![6400, 64]⟩
abbrev S6400x5 : Shape := ⟨2, ![6400, 5]⟩
abbrev S6400x3 : Shape := ⟨2, ![6400, 3]⟩
abbrev S6400x2 : Shape := ⟨2, ![6400, 2]⟩
abbrev S6400 : Shape := ⟨1, ![6400]⟩
abbrev S6400x1 : Shape := ⟨2, ![6400, 1]⟩
abbrev S800000x68 : Shape := ⟨2, ![800000, 68]⟩
abbrev S50000x68 : Shape := ⟨2, ![50000, 68]⟩
abbrev S5000x64 : Shape := ⟨2, ![5000, 64]⟩
abbrev S5000x68 : Shape := ⟨2, ![5000, 68]⟩
abbrev S5000x3 : Shape := ⟨2, ![5000, 3]⟩
abbrev S5000x1 : Shape := ⟨2, ![5000, 1]⟩
abbrev S5000x128 : Shape := ⟨2, ![5000, 128]⟩

abbrev nBuf : Space → Nat
  | .hbm => 79
  | .vmem => 34
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S2x800000, .i32⟩
  | .hbm, ⟨3, _⟩ => ⟨S800000x2, .f32⟩
  | .hbm, ⟨4, _⟩ => ⟨S131x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x1, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000x64, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .bf16⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x3, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x3, .f32⟩
  | .hbm, ⟨56, _⟩ => ⟨S800000x3, .f32⟩
  | .hbm, ⟨57, _⟩ => ⟨S800000x5, .f32⟩
  | .hbm, ⟨58, _⟩ => ⟨S64x64, .f32⟩
  | .hbm, ⟨59, _⟩ => ⟨S64x64, .f32⟩
  | .hbm, ⟨60, _⟩ => ⟨S1x64, .f32⟩
  | .hbm, ⟨61, _⟩ => ⟨S2x64, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S800000x64, .bf16⟩
  | .hbm, ⟨66, _⟩ => ⟨S800000x3, .f32⟩
  | .hbm, ⟨67, _⟩ => ⟨S800000x64, .f32⟩
  | .hbm, ⟨68, _⟩ => ⟨S_, .f32⟩
  | .hbm, ⟨69, _⟩ => ⟨S800000x1, .f32⟩
  | .hbm, ⟨70, _⟩ => ⟨S800000x68, .f32⟩
  | .hbm, ⟨71, _⟩ => ⟨S_, .f32⟩
  | .hbm, ⟨72, _⟩ => ⟨S50000x68, .f32⟩
  | .hbm, ⟨73, _⟩ => ⟨S800000x1, .i32⟩
  | .hbm, ⟨74, _⟩ => ⟨S50000x68, .f32⟩
  | .hbm, ⟨75, _⟩ => ⟨S1x64, .f32⟩
  | .hbm, ⟨76, _⟩ => ⟨S1x64, .f32⟩
  | .hbm, ⟨77, _⟩ => ⟨S50000x64, .f32⟩
  | .hbm, ⟨78, _⟩ => ⟨S50000x3, .f32⟩
  | .local _ .vmem, ⟨0, _⟩ => ⟨S6400x64, .bf16⟩
  | .local _ .vmem, ⟨1, _⟩ => ⟨S6400x64, .bf16⟩
  | .local _ .vmem, ⟨2, _⟩ => ⟨S6400x64, .bf16⟩
  | .local _ .vmem, ⟨3, _⟩ => ⟨S6400x64, .bf16⟩
  | .local _ .vmem, ⟨4, _⟩ => ⟨S6400x5, .f32⟩
  | .local _ .vmem, ⟨5, _⟩ => ⟨S6400x5, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S2x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x1, .f32⟩
  | .local _ .vmem, ⟨16, _⟩ => ⟨S6400x64, .bf16⟩
  | .local _ .vmem, ⟨17, _⟩ => ⟨S6400x64, .bf16⟩
  | .local _ .vmem, ⟨18, _⟩ => ⟨S6400x3, .f32⟩
  | .local _ .vmem, ⟨19, _⟩ => ⟨S6400x3, .f32⟩
  | .local _ .vmem, ⟨20, _⟩ => ⟨S5000x64, .f32⟩
  | .local _ .vmem, ⟨21, _⟩ => ⟨S5000x64, .f32⟩
  | .local _ .vmem, ⟨22, _⟩ => ⟨S5000x68, .f32⟩
  | .local _ .vmem, ⟨23, _⟩ => ⟨S5000x68, .f32⟩
  | .local _ .vmem, ⟨24, _⟩ => ⟨S5000x3, .f32⟩
  | .local _ .vmem, ⟨25, _⟩ => ⟨S5000x3, .f32⟩
  | .local _ .vmem, ⟨26, _⟩ => ⟨S128x64, .f32⟩
  | .local _ .vmem, ⟨27, _⟩ => ⟨S1x64, .f32⟩
  | .local _ .vmem, ⟨28, _⟩ => ⟨S64x64, .f32⟩
  | .local _ .vmem, ⟨29, _⟩ => ⟨S1x64, .f32⟩
  | .local _ .vmem, ⟨30, _⟩ => ⟨S5000x64, .f32⟩
  | .local _ .vmem, ⟨31, _⟩ => ⟨S5000x64, .f32⟩
  | .local _ .vmem, ⟨32, _⟩ => ⟨S5000x3, .f32⟩
  | .local _ .vmem, ⟨33, _⟩ => ⟨S5000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v43 : Ref sig .tc := ⟨.hbm, 67, rfl⟩
abbrev main_cst : Ref sig .tc := ⟨.hbm, 68, rfl⟩
abbrev main_v44 : Ref sig .tc := ⟨.hbm, 69, rfl⟩
abbrev main_v45 : Ref sig .tc := ⟨.hbm, 70, rfl⟩
abbrev main_cst_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51_0 : Ref sig .tc := ⟨.hbm, 77, rfl⟩
abbrev main_v51_1 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S6400x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S6400x3 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x68 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x3 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x3_S800000x2_S800000x5_d1 : Shape.Concatenates [S800000x3, S800000x2] S800000x5 1
  slices_S131x64_S64x64_0_0 : S131x64.Slices ![0, 0] S64x64
  slices_S131x64_S64x64_64_0 : S131x64.Slices ![64, 0] S64x64
  slices_S131x64_S1x64_128_0 : S131x64.Slices ![128, 0] S1x64
  slices_S131x64_S2x64_129_0 : S131x64.Slices ![129, 0] S2x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  inb_S6400x5_S6400x5_0_0 : ∀ a, (![0, 0] : Fin 2 → Nat) a + S6400x5.size a ≤ S6400x5.size a
  h_S6400x5 : 0 < S6400x5.numel
  shapeCasts_S6400x5_S6400x5 : S6400x5.ShapeCasts S6400x5
  slices_S6400x5_o0_0_S6400x3 : S6400x5.Slices ![0, 0] S6400x3
  slices_S6400x5_o0_3_S6400x2 : S6400x5.Slices ![0, 3] S6400x2
  reduces_S6400x3_S6400 : S6400x3.Reduces [1] S6400
  shapeCasts_S6400_S6400x1 : S6400.ShapeCasts S6400x1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S6400x1_S6400x64 : S6400x1.Broadcasts S6400x64
  broadcasts_S1x64_S6400x64 : S1x64.Broadcasts S6400x64
  inb_S2x64_S2x64_0_0 : ∀ a, (![0, 0] : Fin 2 → Nat) a + S2x64.size a ≤ S2x64.size a
  h_S2x64 : 0 < S2x64.numel
  shapeCasts_S2x64_S2x64 : S2x64.ShapeCasts S2x64
  slices_S6400x2_o0_0_S6400x1 : S6400x2.Slices ![0, 0] S6400x1
  slices_S2x64_o0_0_S1x64 : S2x64.Slices ![0, 0] S1x64
  slices_S6400x2_o0_1_S6400x1 : S6400x2.Slices ![0, 1] S6400x1
  slices_S2x64_o1_0_S1x64 : S2x64.Slices ![1, 0] S1x64
  inb_S64x1_S64x1_0_0 : ∀ a, (![0, 0] : Fin 2 → Nat) a + S64x1.size a ≤ S64x1.size a
  h_S64x1 : 0 < S64x1.numel
  broadcasts_S6400x1_S6400x3 : S6400x1.Broadcasts S6400x3
  packedbf16_S6400x64_S6400x64_0_0 : (Rect.unit (s := S6400x64) ![0, 0] S6400x64.size inb_S6400x64_S6400x64_0_0).PackedRows (EltTy.packing .bf16)
  inb_S6400x3_S6400x3_0_0 : ∀ a, (![0, 0] : Fin 2 → Nat) a + S6400x3.size a ≤ S6400x3.size a
  h_S6400x3 : 0 < S6400x3.numel
  bcast_S_S800000x1 : S_.BroadcastsInDim S800000x1 (![] : Fin 0 → Fin S800000x1.rank)
  concatenates_S800000x3_S800000x1_S800000x64_S800000x68_d1 : Shape.Concatenates [S800000x3, S800000x1, S800000x64] S800000x68 1
  bcast_S_S50000x68 : S_.BroadcastsInDim S50000x68 (![] : Fin 0 → Fin S50000x68.rank)
  inb_S5000x64_S5000x64_0_0 : ∀ a, (![0, 0] : Fin 2 → Nat) a + S5000x64.size a ≤ S5000x64.size a
  h_S5000x64 : 0 < S5000x64.numel
  inb_S5000x68_S5000x68_0_0 : ∀ a, (![0, 0] : Fin 2 → Nat) a + S5000x68.size a ≤ S5000x68.size a
  h_S5000x68 : 0 < S5000x68.numel
  shapeCasts_S5000x68_S5000x68 : S5000x68.ShapeCasts S5000x68
  slices_S5000x68_o0_0_S5000x3 : S5000x68.Slices ![0, 0] S5000x3
  slices_S5000x68_o0_3_S5000x1 : S5000x68.Slices ![0, 3] S5000x1
  slices_S5000x68_o0_4_S5000x64 : S5000x68.Slices ![0, 4] S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  broadcasts_S1x64_S5000x64 : S1x64.Broadcasts S5000x64
  inb_S5000x3_S5000x3_0_0 : ∀ a, (![0, 0] : Fin 2 → Nat) a + S5000x3.size a ≤ S5000x3.size a
  h_S5000x3 : 0 < S5000x3.numel
  broadcasts_S5000x1_S5000x3 : S5000x1.Broadcasts S5000x3
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S6400x64_S64x64_S6400x64_1_0_0_1_n_n_wf : DotDims.WF S6400x64 S64x64 S6400x64 [1] [0] [0] [1] [] []
  dot_S6400x64_S64x1_S6400x1_1_0_0_1_n_n_wf : DotDims.WF S6400x64 S64x1 S6400x1 [1] [0] [0] [1] [] []
  scatter_S50000x68_S800000x1_S800000x68_1_0_0_1_wf : ScatterDims.WF S50000x68 S800000x1 S800000x68 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S800000x64.size a
  hwx0_0 : ∀ i : grid0.Coords, EltTy.bits .bf16 = 32 ∨ (Rect.block (s := S800000x64) S6400x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S800000x64.size a
  hwx0_1 : ∀ i : grid0.Coords, EltTy.bits .bf16 = 32 ∨ (Rect.block (s := S800000x64) S6400x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x5.size a ≤ S800000x5.size a
  hwx0_2 : ∀ i : grid0.Coords, EltTy.bits .f32 = 32 ∨ (Rect.block (s := S800000x5) S6400x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x64.size a ≤ S2x64.size a
  hwx0_6 : ∀ i : grid0.Coords, EltTy.bits .f32 = 32 ∨ (Rect.block (s := S2x64) S2x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S64x1.size a
  hwx0_12 : ∀ i : grid0.Coords, EltTy.bits .f32 = 32 ∨ (Rect.block (s := S64x1) S64x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S6400x64.size a ≤ S800000x64.size a
  hwx0_13 : ∀ i : grid0.Coords, EltTy.bits .bf16 = 32 ∨ (Rect.block (s := S800000x64) S6400x64.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S6400x3.size a ≤ S800000x3.size a
  hwx0_14 : ∀ i : grid0.Coords, EltTy.bits .f32 = 32 ∨ (Rect.block (s := S800000x3) S6400x3.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x68.size a ≤ S50000x68.size a
  hwx1_1 : ∀ i : grid1.Coords, EltTy.bits .f32 = 32 ∨ (Rect.block (s := S50000x68) S5000x68.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x3.size a ≤ S50000x3.size a
  hwx1_2 : ∀ i : grid1.Coords, EltTy.bits .f32 = 32 ∨ (Rect.block (s := S50000x3) S5000x3.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x3.size a ≤ S50000x3.size a
  hwx1_8 : ∀ i : grid1.Coords, EltTy.bits .f32 = 32 ∨ (Rect.block (s := S50000x3) S5000x3.size (cc1_transform_8 i) (hinb1_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x64_S64x1_S6400x1_1_0_0_1_n_n : DotDims S6400x64 S64x1 S6400x1 where
  lhsContracting := [1]
  rhsContracting := [0]
  lhsNonContracting := [0]
  rhsNonContracting := [1]
  lhsBatch := []
  rhsBatch := []
  wf := dot_S6400x64_S64x1_S6400x1_1_0_0_1_n_n_wf
def scatter_S50000x68_S800000x1_S800000x68_1_0_0_1 : ScatterDims S50000x68 S800000x1 S800000x68 where
  updateWindowDims := [1]
  insertedWindowDims := [0]
  scatterDimsToOperandDims := [0]
  indexVectorDim := 1
  wf := scatter_S50000x68_S800000x1_S800000x68_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v11) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S6400x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S2x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v40) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v41) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S64x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v42_0) S6400x64.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v42_1) S6400x3.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S5000x68.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v51_1) S5000x3.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S800000x2 : Shape := ⟨2, ![800000, 2]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x131 : Shape := ⟨2, ![800000, 131]⟩
abbrev S1x64 : Shape := ⟨2, ![1, 64]⟩
abbrev S50000 : Shape := ⟨1, ![50000]⟩
abbrev S50000x1 : Shape := ⟨2, ![50000, 1]⟩
abbrev S50000x128 : Shape := ⟨2, ![50000, 128]⟩

abbrev nBuf : Space → Nat
  | .hbm => 152
  | .vmem => 0
  | .smem => 0
  | _ => 0

abbrev hbmTy0_0 (i : Nat) : BufTy := match i % 128 with
  | 0 => ⟨S50000x64, .f32⟩
  | 1 => ⟨S50000x3, .f32⟩
  | 2 => ⟨S2x800000, .i32⟩
  | 3 => ⟨S800000x2, .f32⟩
  | 4 => ⟨S131x64, .f32⟩
  | 5 => ⟨S64, .f32⟩
  | 6 => ⟨S64x64, .f32⟩
  | 7 => ⟨S64, .f32⟩
  | 8 => ⟨S128x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x1, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S800000x3, .f32⟩
  | 38 => ⟨S800000x3, .f32⟩
  | 39 => ⟨S_, .f32⟩
  | 40 => ⟨S800000, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x64, .f32⟩
  | 60 => ⟨S800000x131, .f32⟩
  | 61 => ⟨S800000x64, .f32⟩
  | 62 => ⟨S1x64, .f32⟩
  | 63 => ⟨S800000x64, .f32⟩
  | 64 => ⟨S800000x64, .f32⟩
  | 65 => ⟨S800000x64, .f32⟩
  | 66 => ⟨S800000x64, .f32⟩
  | 67 => ⟨S_, .f32⟩
  | 68 => ⟨S800000x64, .f32⟩
  | 69 => ⟨S800000x64, .f32⟩
  | 70 => ⟨S_, .f32⟩
  | 71 => ⟨S800000x64, .f32⟩
  | 72 => ⟨S800000x64, .f32⟩
  | 73 => ⟨S800000x64, .f32⟩
  | 74 => ⟨S800000x64, .f32⟩
  | 75 => ⟨S1x64, .f32⟩
  | 76 => ⟨S800000x64, .f32⟩
  | 77 => ⟨S800000x64, .f32⟩
  | 78 => ⟨S800000x64, .f32⟩
  | 79 => ⟨S800000x64, .f32⟩
  | 80 => ⟨S_, .f32⟩
  | 81 => ⟨S800000x64, .f32⟩
  | 82 => ⟨S800000x64, .f32⟩
  | 83 => ⟨S_, .f32⟩
  | 84 => ⟨S800000x64, .f32⟩
  | 85 => ⟨S800000x64, .f32⟩
  | 86 => ⟨S800000x64, .f32⟩
  | 87 => ⟨S800000x64, .f32⟩
  | 88 => ⟨S1x64, .f32⟩
  | 89 => ⟨S800000x64, .f32⟩
  | 90 => ⟨S800000x64, .f32⟩
  | 91 => ⟨S800000x64, .f32⟩
  | 92 => ⟨S800000x64, .f32⟩
  | 93 => ⟨S_, .f32⟩
  | 94 => ⟨S800000x64, .f32⟩
  | 95 => ⟨S800000x64, .f32⟩
  | 96 => ⟨S_, .f32⟩
  | 97 => ⟨S800000x64, .f32⟩
  | 98 => ⟨S800000x64, .f32⟩
  | 99 => ⟨S800000x64, .f32⟩
  | 100 => ⟨S800000x1, .f32⟩
  | 101 => ⟨S800000x3, .f32⟩
  | 102 => ⟨S800000x3, .f32⟩
  | 103 => ⟨S_, .f32⟩
  | 104 => ⟨S_, .f32⟩
  | 105 => ⟨S_, .f32⟩
  | 106 => ⟨S800000x3, .f32⟩
  | 107 => ⟨S800000x3, .f32⟩
  | 108 => ⟨S_, .f32⟩
  | 109 => ⟨S800000x3, .f32⟩
  | 110 => ⟨S800000x3, .f32⟩
  | 111 => ⟨S_, .f32⟩
  | 112 => ⟨S50000x3, .f32⟩
  | 113 => ⟨S800000x1, .i32⟩
  | 114 => ⟨S50000x3, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S_, .f32⟩
  | 123 => ⟨S50000, .f32⟩
  | 124 => ⟨S50000, .f32⟩
  | 125 => ⟨S50000x1, .f32⟩
  | 126 => ⟨S50000x3, .f32⟩
  | 127 => ⟨S50000x3, .f32⟩
  | _ => ⟨S50000x64, .f32⟩

abbrev hbmTy0_1 (i : Nat) : BufTy := match i % 128 with
  | 0 => ⟨S50000x3, .f32⟩
  | 1 => ⟨S_, .f32⟩
  | 2 => ⟨S50000x64, .f32⟩
  | 3 => ⟨S800000x1, .i32⟩
  | 4 => ⟨S50000x64, .f32⟩
  | 5 => ⟨S50000x128, .f32⟩
  | 6 => ⟨S50000x64, .f32⟩
  | 7 => ⟨S1x64, .f32⟩
  | 8 => ⟨S50000x64, .f32⟩
  | 9 => ⟨S50000x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S50000x64, .f32⟩
  | 20 => ⟨S1x64, .f32⟩
  | 21 => ⟨S50000x64, .f32⟩
  | 22 => ⟨S50000x64, .f32⟩
  | 23 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_call0_v5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_7 : Ref sig .tc := ⟨.hbm, 103, rfl⟩
abbrev main_cst_8 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_v55 : Ref sig .tc := ⟨.hbm, 110, rfl⟩
abbrev main_cst_9 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_10 : Ref sig .tc := ⟨.hbm, 115, rfl⟩
abbrev main_v59 : Ref sig .tc := ⟨.hbm, 116, rfl⟩
abbrev main_cst_11 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_cst_12 : Ref sig .tc := ⟨.hbm, 121, rfl⟩
abbrev main_call4_v0 : Ref sig .tc := ⟨.hbm, 122, rfl⟩
abbrev main_call4_v1 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_cst_13 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_call5_v0 : Ref sig .tc := ⟨.hbm, 138, rfl⟩
abbrev main_call5_v1 : Ref sig .tc := ⟨.hbm, 139, rfl⟩
abbrev main_call5_cst : Ref sig .tc := ⟨.hbm, 140, rfl⟩
abbrev main_call5_v2 : Ref sig .tc := ⟨.hbm, 141, rfl⟩
abbrev main_call5_v3 : Ref sig .tc := ⟨.hbm, 142, rfl⟩
abbrev main_call5_cst_0 : Ref sig .tc := ⟨.hbm, 143, rfl⟩
abbrev main_call5_v4 : Ref sig .tc := ⟨.hbm, 144, rfl⟩
abbrev main_call5_v5 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x64_S800000x64_S800000x1_S800000x2_S800000x131_d1 : Shape.Concatenates [S800000x64, S800000x64, S800000x1, S800000x2] S800000x131 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S800000x1_S800000x3_0_1 : S800000x1.BroadcastsInDim S800000x3 (![0, 1] : Fin 2 → Fin S800000x3.rank)
  bcast_S_S800000x3 : S_.BroadcastsInDim S800000x3 (![] : Fin 0 → Fin S800000x3.rank)
  bcast_S_S50000x3 : S_.BroadcastsInDim S50000x3 (![] : Fin 0 → Fin S50000x3.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x3_0_1 : S50000x1.BroadcastsInDim S50000x3 (![0, 1] : Fin 2 → Fin S50000x3.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x131_S131x64_S800000x64_1_0_0_1_n_n_wf : DotDims.WF S800000x131 S131x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1
  scatter_S50000_S800000x1_S800000_n_0_0_1_wf : ScatterDims.WF S50000 S800000x1 S800000 [] [0] [0] 1
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x131_S131x64_S800000x64_1_0_0_1_n_n : DotDims S800000x131 S131x64 S800000x64 where
  lhsContracting := [1]
  rhsContracting := [0]
  lhsNonContracting := [0]
  rhsNonContracting := [1]
  lhsBatch := []
  rhsBatch := []
  wf := dot_S800000x131_S131x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.Edge.lean ====
import proofs.«177907_j11751030522785_2_alg».proof.Proof.K.LaunchP
import proofs.«177907_j11751030522785_2_alg».proof.Proof.Gen.Kernel.Skeleton
import proofs.«177907_j11751030522785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The edge kernel's half of the frame

The edge kernel runs over 125 grid points. At point t it sees a block of 6400 edges: the two gathered
node-feature blocks (windows 0 and 1, 6400 x 64), the block of coordinate differences and edge attributes
(window 2, 6400 x 5), and ten small operands that do not depend on the point (windows 3 to 12: the four row
groups of the first edge weight matrix, its bias, the second edge weight matrix and bias, the two coordinate
weight matrices and the bias between them). It writes two blocks: the edge features (window 13, 6400 x 64)
and the clipped translations (window 14, 6400 x 3), each by one store of the whole block.

Everything here is stated at an arbitrary contents V of the core's buffers when the region is entered and at
an arbitrary float model F: the block of each window at a point, what the body leaves in the two output
buffers as a function of the thirteen input blocks, the body's triple, the proof data of the pipeline and
the body obligation at every point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t: the part of the window's array, as the region finds it, that the window's
    index map selects at t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds the window's block at every point, whether the block was
    fetched at that point or not: the windows that move with the point (0, 1, 2) are fetched everywhere; the
    resident ones (3 to 12) are fetched at the first point only, their index never moves afterwards, and the
    body leaves them as it found them. This holds for any proof data whose array is the entry contents (hA) and
    whose body leaves the block in place (hafter). No window is cut and none is ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

/-- a block of 6400 edges by 64 features (windows 0, 1 and 13) -/
abbrev rEdge64 : Rect S6400x64 := Rect.unit (s := S6400x64) ![0, 0] S6400x64.size inb_S6400x64_S6400x64_0_0
/-- a block of 6400 edges by the 3 coordinate differences and 2 attributes (window 2) -/
abbrev rEdge5 : Rect S6400x5 := Rect.unit (s := S6400x5) ![0, 0] S6400x5.size inb_S6400x5_S6400x5_0_0
/-- a block of 6400 edges by 3 coordinates (window 14) -/
abbrev rEdge3 : Rect S6400x3 := Rect.unit (s := S6400x3) ![0, 0] S6400x3.size inb_S6400x3_S6400x3_0_0
/-- a 64 x 64 weight matrix (windows 3, 4, 8, 10) -/
abbrev rW64 : Rect S64x64 := Rect.unit (s := S64x64) ![0, 0] S64x64.size inb_S64x64_S64x64_0_0
/-- one row of 64 (windows 5, 7, 9, 11) -/
abbrev rRow64 : Rect S1x64 := Rect.unit (s := S1x64) ![0, 0] S1x64.size inb_S1x64_S1x64_0_0
/-- the two attribute rows of the first weight matrix (window 6) -/
abbrev rRows2 : Rect S2x64 := Rect.unit (s := S2x64) ![0, 0] S2x64.size inb_S2x64_S2x64_0_0
/-- the 64 x 1 coordinate weight (window 12) -/
abbrev rCol64 : Rect S64x1 := Rect.unit (s := S64x1) ![0, 0] S64x1.size inb_S64x1_S64x1_0_0

/-! ## What the body leaves in each output window's buffer -/

/-- The edge features' buffer after the body, from the input blocks: its one store of the whole block. The stored
    value: the first edge layer's pre-activation without its bias (k0_pay3: the sum of the two feature products, the
    squared-distance term and the attribute term), then the bias and the activation, the second layer with its bias
    and activation, and the rounding to bf16 (k0_pay6). -/
def out0_13 (x0 x1 : Vec F S6400x64 .bf16) (x2 : Vec F S6400x5 .f32) (x3 x4 : Vec F S64x64 .f32) (x5 : Vec F S1x64 .f32)
    (x6 : Vec F S2x64 .f32) (x7 : Vec F S1x64 .f32) (x8 : Vec F S64x64 .f32) (x9 : Vec F S1x64 .f32) : Vec F S6400x64 .bf16 :=
  View.canon [⟨rEdge64, k0_pay6 (k0_pay3 (View.ld x0 rEdge64) (View.ld x1 rEdge64) (View.ld x2 rEdge5) (View.ld x3 rW64) (View.ld x4 rW64) (View.ld x5 rRow64) (View.ld x6 rRows2))
    (View.ld x7 rRow64) (View.ld x8 rW64) (View.ld x9 rRow64)⟩]

/-- The translations' buffer after the body, from the input blocks: its one store of the whole block. The stored
    value: the coordinate difference (k0_pay2) times the scalar the coordinate head gives for the edge's features,
    clipped to [-100, 100] (k0_pay5). -/
def out0_14 (x0 x1 : Vec F S6400x64 .bf16) (x2 : Vec F S6400x5 .f32) (x3 x4 : Vec F S64x64 .f32) (x5 : Vec F S1x64 .f32)
    (x6 : Vec F S2x64 .f32) (x7 : Vec F S1x64 .f32) (x8 : Vec F S64x64 .f32) (x9 : Vec F S1x64 .f32) (x10 : Vec F S64x64 .f32)
    (x11 : Vec F S1x64 .f32) (x12 : Vec F S64x1 .f32) : Vec F S6400x3 .f32 :=
  View.canon [⟨rEdge3, k0_pay5 (k0_pay2 (View.ld x2 rEdge5))
    (k0_pay3 (View.ld x0 rEdge64) (View.ld x1 rEdge64) (View.ld x2 rEdge5) (View.ld x3 rW64) (View.ld x4 rW64) (View.ld x5 rRow64) (View.ld x6 rRows2))
    (View.ld x7 rRow64) (View.ld x8 rW64) (View.ld x9 rRow64) (View.ld x10 rW64) (View.ld x11 rRow64) (View.ld x12 rCol64)⟩]

/-- One store of the whole block covers the block. -/
theorem cover0_13 (p0 : Vec F S6400x64 .bf16) (y : S6400x64.Idx) :
    ∃ pc ∈ ([⟨rEdge64, p0⟩] : List (View.Piece (Elt F) S6400x64 .bf16)), y ∈ pc.1.set :=
  View.cover_of_tiled [⟨rEdge64, p0⟩] S6400x64.size (by rfl) y

theorem cover0_14 (p0 : Vec F S6400x3 .f32) (y : S6400x3.Idx) :
    ∃ pc ∈ ([⟨rEdge3, p0⟩] : List (View.Piece (Elt F) S6400x3 .f32)), y ∈ pc.1.set :=
  View.cover_of_tiled [⟨rEdge3, p0⟩] S6400x3.size (by rfl) y

/-! ## The body's triple -/

set_option maxHeartbeats 1000000 in
/-- The kernel body on whole staging buffers, the thirteen inputs' holding xW and the two outputs' holding
    anything, runs to the continuation with the inputs' buffers as they were and the two outputs' holding
    out0_13 and out0_14 of the inputs. The body reads each input buffer whole, once; it reads each output buffer
    (the value is not used) and then overwrites it whole. -/
theorem sound_kernel0 (c : Dev nD) (E : Set ℕ) (i : grid0.Coords)
    (arg1 : Memref sig .tc .vmem S6400x64 .bf16) (harg1 : arg1.IsWhole) (arg2 : Memref sig .tc .vmem S6400x64 .bf16) (harg2 : arg2.IsWhole)
    (arg3 : Memref sig .tc .vmem S6400x5 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S2x64 .f32) (harg7 : arg7.IsWhole) (arg8 : Memref sig .tc .vmem S1x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S64x64 .f32) (harg11 : arg11.IsWhole) (arg12 : Memref sig .tc .vmem S1x64 .f32) (harg12 : arg12.IsWhole)
    (arg13 : Memref sig .tc .vmem S64x1 .f32) (harg13 : arg13.IsWhole) (arg14 : Memref sig .tc .vmem S6400x64 .bf16) (harg14 : arg14.IsWhole)
    (arg15 : Memref sig .tc .vmem S6400x3 .f32) (harg15 : arg15.IsWhole)
    (x0 x1 : Vec F S6400x64 .bf16) (x2 : Vec F S6400x5 .f32) (x3 x4 : Vec F S64x64 .f32) (x5 : Vec F S1x64 .f32)
    (x6 : Vec F S2x64 .f32) (x7 : Vec F S1x64 .f32) (x8 : Vec F S64x64 .f32) (x9 : Vec F S1x64 .f32) (x10 : Vec F S64x64 .f32)
    (x11 : Vec F S1x64 .f32) (x12 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12
            ∗ owns (c : Thread nD τ) arg14 fullShare (out0_13 x0 x1 x2 x3 x4 x5 x6 x7 x8 x9)
            ∗ owns (c : Thread nD τ) arg15 fullShare (out0_14 x0 x1 x2 x3 x4 x5 x6 x7 x8 x9 x10 x11 x12)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [cc0__edge_kernel_eq_skeleton]; unfold cc0__edge_kernel_skel
  simp only [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

/-! ## The pipeline's proof data -/

/-- The proof data of the edge pipeline on core c: the arrays as the region finds them; after the body at point t
    each input's buffer holds its block and the two outputs' hold out0_13 and out0_14 of the input blocks; the
    invariant is the part of the core's state the pipeline never touches; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t)
    | ⟨14, _⟩ => out0_14 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (iblk0 V c 10 t) (iblk0 V c 11 t) (iblk0 V c 12 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t =
    out0_13 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) := by dsimp only [dat0]
theorem after0_14 (c : Dev nD) (t : Fin cfg0.N) : (dat0 V c).after 14 t =
    out0_14 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-! ## The body obligation, at a generic point -/

/-- What the body is called with at point t: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9,
    before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11,
    after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation of the edge pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Node.lean ====
import proofs.«177907_j11751030522785_2_alg».proof.Proof.K.LaunchP
import proofs.«177907_j11751030522785_2_alg».proof.Proof.Gen.Kernel.Skeleton
import proofs.«177907_j11751030522785_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The node update (second pipelined region): what one grid point does to its staging buffers

The region walks ten grid points; point `t` holds rows `5000·t … 5000·t + 4999` of the three node arrays
(features, aggregated messages, coordinates) and the whole of the four parameter arrays (two weight matrices, two
bias rows), which do not move with the point. The body reads its seven input buffers and overwrites each of its two
output buffers with ONE store of the whole block:

* the new features: `h + (silu([h | agg[:, 4:68]] · W₁ + b₁) · W₂ + b₂)`, a function of six of the inputs;
* the new coordinates: `x + agg[:, 0:3] / max(1, agg[:, 3])`, a function of the aggregated messages and the coordinates.

Everything here is stated for an arbitrary number model `F` and for arbitrary contents `V` of the core's buffers at
the moment the region is entered; the arithmetic is never opened, only named (`k1_pay2`, `k1_pay3`).
-/

-- deciding that one whole-block rectangle tiles a block of 5000 rows recurses once per row
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`: the rows of its array (as the region finds it) that the point works on;
    for a parameter array, the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the node features' block): the buffer the body is handed at point `t` holds the window's block there — it is filled afresh at every point —
    for any proof data over the entry contents whose body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the aggregated messages' block): the buffer the body is handed at point `t` holds the window's block there — it is filled afresh at every point —
    for any proof data over the entry contents whose body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the coordinates' block): the buffer the body is handed at point `t` holds the window's block there — it is filled afresh at every point —
    for any proof data over the entry contents whose body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the first node weight matrix): the buffer the body is handed at point `t` holds the window's block there — the block is the whole array at every point, so a buffer filled once at the first point still holds it later —
    for any proof data over the entry contents whose body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the first node bias row): the buffer the body is handed at point `t` holds the window's block there — the block is the whole array at every point, so a buffer filled once at the first point still holds it later —
    for any proof data over the entry contents whose body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 (the second node weight matrix): the buffer the body is handed at point `t` holds the window's block there — the block is the whole array at every point, so a buffer filled once at the first point still holds it later —
    for any proof data over the entry contents whose body leaves the buffer as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6 (the second node bias row): the buffer the body is handed at point `t` holds the window's block there — the block is the whole array at every point, so a buffer filled once at the first point still holds it later —
    for any proof data over the entry contents whose body leaves the buffer as it found it. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of a buffer -/

abbrev r1_0 : Rect S5000x64 := Rect.unit (s := S5000x64) ![0, 0] S5000x64.size inb_S5000x64_S5000x64_0_0
abbrev r1_1 : Rect S5000x68 := Rect.unit (s := S5000x68) ![0, 0] S5000x68.size inb_S5000x68_S5000x68_0_0
abbrev r1_2 : Rect S5000x3 := Rect.unit (s := S5000x3) ![0, 0] S5000x3.size inb_S5000x3_S5000x3_0_0
abbrev r1_3 : Rect S128x64 := Rect.unit (s := S128x64) ![0, 0] S128x64.size inb_S128x64_S128x64_0_0
abbrev r1_4 : Rect S1x64 := Rect.unit (s := S1x64) ![0, 0] S1x64.size inb_S1x64_S1x64_0_0
abbrev r1_5 : Rect S64x64 := Rect.unit (s := S64x64) ![0, 0] S64x64.size inb_S64x64_S64x64_0_0

/-! ## What the body leaves in each output buffer -/

/-- The new-features buffer after the body, from the six input blocks it depends on: its one whole-block store,
    of the residual update `k1_pay2`. -/
def out1_7 (y0 : Vec F S5000x64 .f32) (y1 : Vec F S5000x68 .f32) (y3 : Vec F S128x64 .f32) (y4 : Vec F S1x64 .f32) (y5 : Vec F S64x64 .f32) (y6 : Vec F S1x64 .f32) : Vec F S5000x64 .f32 :=
  View.canon [⟨r1_0, k1_pay2 (View.ld y0 r1_0) (View.ld y1 r1_1) (View.ld y3 r1_3) (View.ld y4 r1_4) (View.ld y5 r1_5) (View.ld y6 r1_4)⟩]

/-- The new-coordinates buffer after the body, from the aggregated messages and the coordinates: its one whole-block
    store, of the normalised translation added to the coordinates, `k1_pay3`. -/
def out1_8 (y1 : Vec F S5000x68 .f32) (y2 : Vec F S5000x3 .f32) : Vec F S5000x3 .f32 :=
  View.canon [⟨r1_2, k1_pay3 (View.ld y1 r1_1) (View.ld y2 r1_2)⟩]

/-- One store of the whole block covers the block. -/
theorem cover1_7 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-- One store of the whole block covers the block. -/
theorem cover1_8 (p0 : Vec F S5000x3 .f32) (y : S5000x3.Idx) :
    ∃ pc ∈ ([⟨r1_2, p0⟩] : List (View.Piece (Elt F) S5000x3 .f32)), y ∈ pc.1.set :=
  View.cover_of_tiled [⟨r1_2, p0⟩] S5000x3.size (by rfl) y

/-! ## The body's triple -/

set_option maxHeartbeats 1000000 in
/-- The body on nine whole buffers — the seven inputs at contents `x0 … x6`, the two outputs at anything — runs to
    a state where the inputs are as they were and the outputs hold `out1_7` and `out1_8` of the inputs. Each output
    buffer is read once before it is overwritten; what that read returns is not used. -/
theorem sound_kernel1 (c : Dev nD) (E : Set ℕ) (i : grid1.Coords) (arg1 : Memref sig .tc .vmem S5000x64 .f32) (harg1 : arg1.IsWhole) (arg2 : Memref sig .tc .vmem S5000x68 .f32) (harg2 : arg2.IsWhole) (arg3 : Memref sig .tc .vmem S5000x3 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x3 .f32) (harg9 : arg9.IsWhole)
    (x0 : Vec F S5000x64 .f32) (x1 : Vec F S5000x68 .f32) (x2 : Vec F S5000x3 .f32) (x3 : Vec F S128x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x3 x4 x5 x6) ∗ owns (c : Thread nD τ) arg9 fullShare (out1_8 x1 x2)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The pipeline's proof data -/

/-- The proof data of the node region on core `c`: the arrays as the region finds them; after the body at point `t`
    every input buffer still at its block and the two output buffers at `out1_7` / `out1_8` of the input blocks; the
    invariant "the buffers outside the region and the generator register are untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 3 t) (iblk1 V c 4 t) (iblk1 V c 5 t) (iblk1 V c 6 t)
    | ⟨8, _⟩ => out1_8 (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 1 t) (iblk1 V c 2 t) := by dsimp only [dat1]

/-- Each input buffer the body is handed holds its window's block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, the core's debts, and the nine current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the input buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program on one TensorCore: the host operations before the first kernel, the edge kernel's
  pipeline over its 125 blocks of 6400 edges, the host operations between the kernels (the fused scatter-add), and the
  node kernel's pipeline over its 10 blocks of 5000 nodes.  The contents of every buffer are followed from boundary to
  boundary: a stretch of host operations applies them in order; a kernel leaves each of its arrays at what its
  write-backs fold to (an input array as it was entered) and every other buffer untouched.  At the end every buffer
  that outlives the kernels is read back at the last boundary's contents, so one statement gives both the frame
  (no argument array is ever written) and the two result arrays as functions of the launch memory.
-/
import proofs.«177907_j11751030522785_2_alg».proof.Proof.K.Edge
import proofs.«177907_j11751030522785_2_alg».proof.Proof.K.Node
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.GenP

variable {F : FTy → Type} [FloatOps F]

local notation "𝕄" => MT nD τ sig Unit (Elt F) ℕ (UR sig nD τ) ℕ

variable (m : (ℓ : Loc nD τ sig) → Buf (Elt F) ℓ)

/-! ## What the host stretches write -/

/-- The references the host operations before the edge kernel write: their own results. -/
abbrev hostOps0_W : List (Ref sig .tc) := [main_v0, main_v1, main_v2, main_v3, main_v4, main_c, main_v5, main_v6, main_c_0, main_v7, main_v8, main_v9, main_v10, main_v11, main_c_1, main_v12, main_v13, main_c_2, main_v14, main_v15, main_v16, main_v17, main_v18, main_c_3, main_v19, main_v20, main_c_4, main_v21, main_v22, main_v23, main_v24, main_v25, main_c_5, main_v26, main_v27, main_c_6, main_v28, main_v29, main_v30, main_v31, main_v32, main_v33, main_v34, main_v35, main_v36, main_v37, main_v38, main_v39, main_v40, main_v41]
/-- The references the host operations between the kernels write. -/
abbrev hostOps1_W : List (Ref sig .tc) := [main_v43, main_cst, main_v44, main_v45, main_cst_7, main_v46, main_v47, main_v48, main_v49, main_v50]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The buffers' contents at each boundary -/

/-- At launch. -/
abbrev W0 : Dev nD → Valuation τ sig (Elt F) := fun c b => m (c, b)
/-- After the host operations before the edge kernel. -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- After the edge kernel: each of its arrays at what its write-backs fold to, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- A buffer the edge kernel only reads (or does not touch) leaves it as entered. -/
theorem W2_keep (c : Dev nD) (b : Ref sig .tc) (hin : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (U1 m) c).arrAt_in w (hin w rfl) _).trans (A_eq0 (U1 m) c w))
  · exact W2_of_ne m c b fun w e => h ⟨w, e⟩

/-- After the host operations between the kernels. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the node kernel. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
theorem W4_keep (c : Dev nD) (b : Ref sig .tc) (hin : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((dat1 (U3 m) c).arrAt_in w (hin w rfl) _).trans (A_eq1 (U3 m) c w))
  · exact W4_of_ne m c b fun w e => h ⟨w, e⟩

/-- A buffer that no host operation writes and no kernel writes back ends holding its launch contents. -/
theorem W4_launch (c : Dev nD) (b : Ref sig .tc) (h0 : b ∉ hostOps0_W) (h1 : b ∉ hostOps1_W)
    (hin0 : ∀ w, Pipeline.arrRef spec0 w = b → (cfg0.win w).isOut = false)
    (hin1 : ∀ w, Pipeline.arrRef spec1 w = b → (cfg1.win w).isOut = false) :
    W4 m c (Proc.devRef .tc b) = m ((c : Thread nD τ).loc b) :=
  (W4_keep m c b hin1).trans <| (StableHlo.after_of_writes_sub hostOps1 _ hostOps1_writes h1).trans <|
    (W2_keep m c b hin0).trans <| (StableHlo.after_of_writes_sub hostOps0 _ hostOps0_writes h0).trans rfl

/-! ## The proof data family and what rides along -/

abbrev adm : (p : Fin 2) → (pcfgs (F := F) p).Adm := fun p => (cfgs p).toPCfg_adm
/-- Each pipeline's proof data at the contents its kernel is entered from. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two kernels as segments -/

set_option backward.isDefEq.respectTransparency.types false in
/-- The edge kernel's pipeline between the contents `W1` and `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node kernel's pipeline between the contents `W3` and `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution from the memory `m` terminates without a fault, and every buffer that outlives the
    kernels ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- A buffer that outlives the kernels, as the run leaves it. -/
theorem run_read (ρ : Dev nD → PrngReg) :
    θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W4 m c (Proc.devRef .tc b)) :=
  (θ_run defs _ _).mono (fun _ h c b hb => h c _ (mem_uc b hb)) (run_all m ρ)

/-- The frame: every execution terminates without a fault and no argument array is changed (no host operation
    writes one, and a kernel that receives one only reads it). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c main_arg0 (by decide)).trans (W4_launch m c main_arg0 (by decide) (by decide) (by decide) (by decide)),
    (h c main_arg1 (by decide)).trans (W4_launch m c main_arg1 (by decide) (by decide) (by decide) (by decide)),
    (h c main_arg2 (by decide)).trans (W4_launch m c main_arg2 (by decide) (by decide) (by decide) (by decide)),
    (h c main_arg3 (by decide)).trans (W4_launch m c main_arg3 (by decide) (by decide) (by decide) (by decide)),
    (h c main_arg4 (by decide)).trans (W4_launch m c main_arg4 (by decide) (by decide) (by decide) (by decide)),
    (h c main_arg5 (by decide)).trans (W4_launch m c main_arg5 (by decide) (by decide) (by decide) (by decide)),
    (h c main_arg6 (by decide)).trans (W4_launch m c main_arg6 (by decide) (by decide) (by decide) (by decide)),
    (h c main_arg7 (by decide)).trans (W4_launch m c main_arg7 (by decide) (by decide) (by decide) (by decide)),
    (h c main_arg8 (by decide)).trans (W4_launch m c main_arg8 (by decide) (by decide) (by decide) (by decide)),
    (h c main_arg9 (by decide)).trans (W4_launch m c main_arg9 (by decide) (by decide) (by decide) (by decide)),
    (h c main_arg10 (by decide)).trans (W4_launch m c main_arg10 (by decide) (by decide) (by decide) (by decide)),
    (h c main_arg11 (by decide)).trans (W4_launch m c main_arg11 (by decide) (by decide) (by decide) (by decide)),
    (h c main_arg12 (by decide)).trans (W4_launch m c main_arg12 (by decide) (by decide) (by decide) (by decide)),
    (h c main_arg13 (by decide)).trans (W4_launch m c main_arg13 (by decide) (by decide) (by decide) (by decide)),
    (h c main_arg14 (by decide)).trans (W4_launch m c main_arg14 (by decide) (by decide) (by decide) (by decide))⟩) (run_read m ρ)

end Cert.Kernel.Hand

end
-- ==== Proof.KI.Edge.lean ====
import proofs.«177907_j11751030522785_2_alg».proof.Proof.KI.LaunchP
import proofs.«177907_j11751030522785_2_alg».proof.Proof.Gen.KernelIdeal.Skeleton
import proofs.«177907_j11751030522785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The edge kernel's half of the frame

The edge kernel runs over 125 grid points. At point t it sees a block of 6400 edges: the two gathered
node-feature blocks (windows 0 and 1, 6400 x 64), the block of coordinate differences and edge attributes
(window 2, 6400 x 5), and ten small operands that do not depend on the point (windows 3 to 12: the four row
groups of the first edge weight matrix, its bias, the second edge weight matrix and bias, the two coordinate
weight matrices and the bias between them). It writes two blocks: the edge features (window 13, 6400 x 64)
and the clipped translations (window 14, 6400 x 3), each by one store of the whole block.

Everything here is stated at an arbitrary contents V of the core's buffers when the region is entered and at
an arbitrary float model F: the block of each window at a point, what the body leaves in the two output
buffers as a function of the thirteen input blocks, the body's triple, the proof data of the pipeline and
the body obligation at every point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t: the part of the window's array, as the region finds it, that the window's
    index map selects at t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds the window's block at every point, whether the block was
    fetched at that point or not: the windows that move with the point (0, 1, 2) are fetched everywhere; the
    resident ones (3 to 12) are fetched at the first point only, their index never moves afterwards, and the
    body leaves them as it found them. This holds for any proof data whose array is the entry contents (hA) and
    whose body leaves the block in place (hafter). No window is cut and none is ever idle. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

theorem before0_12_of {c : Dev nD} (dat : Dat τ (Elt F) Unit ℕ (UR sig nD τ) ℕ cfg0 c) (hA : dat.A 12 = V c (Pipeline.arrRef spec0 12))
    (hafter : ∀ t, dat.after 12 t = iblk0 V c 12 t) (t : Fin cfg0.N) (d) : dat.before 12 t d = iblk0 V c 12 t :=
  (dat.before_in_eq_fetched 12 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

/-- a block of 6400 edges by 64 features (windows 0, 1 and 13) -/
abbrev rEdge64 : Rect S6400x64 := Rect.unit (s := S6400x64) ![0, 0] S6400x64.size inb_S6400x64_S6400x64_0_0
/-- a block of 6400 edges by the 3 coordinate differences and 2 attributes (window 2) -/
abbrev rEdge5 : Rect S6400x5 := Rect.unit (s := S6400x5) ![0, 0] S6400x5.size inb_S6400x5_S6400x5_0_0
/-- a block of 6400 edges by 3 coordinates (window 14) -/
abbrev rEdge3 : Rect S6400x3 := Rect.unit (s := S6400x3) ![0, 0] S6400x3.size inb_S6400x3_S6400x3_0_0
/-- a 64 x 64 weight matrix (windows 3, 4, 8, 10) -/
abbrev rW64 : Rect S64x64 := Rect.unit (s := S64x64) ![0, 0] S64x64.size inb_S64x64_S64x64_0_0
/-- one row of 64 (windows 5, 7, 9, 11) -/
abbrev rRow64 : Rect S1x64 := Rect.unit (s := S1x64) ![0, 0] S1x64.size inb_S1x64_S1x64_0_0
/-- the two attribute rows of the first weight matrix (window 6) -/
abbrev rRows2 : Rect S2x64 := Rect.unit (s := S2x64) ![0, 0] S2x64.size inb_S2x64_S2x64_0_0
/-- the 64 x 1 coordinate weight (window 12) -/
abbrev rCol64 : Rect S64x1 := Rect.unit (s := S64x1) ![0, 0] S64x1.size inb_S64x1_S64x1_0_0

/-! ## What the body leaves in each output window's buffer -/

/-- The edge features' buffer after the body, from the input blocks: its one store of the whole block. The stored
    value: the first edge layer's pre-activation without its bias (k0_pay3: the sum of the two feature products, the
    squared-distance term and the attribute term), then the bias and the activation, the second layer with its bias
    and activation, and the rounding to bf16 (k0_pay6). -/
def out0_13 (x0 x1 : Vec F S6400x64 .bf16) (x2 : Vec F S6400x5 .f32) (x3 x4 : Vec F S64x64 .f32) (x5 : Vec F S1x64 .f32)
    (x6 : Vec F S2x64 .f32) (x7 : Vec F S1x64 .f32) (x8 : Vec F S64x64 .f32) (x9 : Vec F S1x64 .f32) : Vec F S6400x64 .bf16 :=
  View.canon [⟨rEdge64, k0_pay6 (k0_pay3 (View.ld x0 rEdge64) (View.ld x1 rEdge64) (View.ld x2 rEdge5) (View.ld x3 rW64) (View.ld x4 rW64) (View.ld x5 rRow64) (View.ld x6 rRows2))
    (View.ld x7 rRow64) (View.ld x8 rW64) (View.ld x9 rRow64)⟩]

/-- The translations' buffer after the body, from the input blocks: its one store of the whole block. The stored
    value: the coordinate difference (k0_pay2) times the scalar the coordinate head gives for the edge's features,
    clipped to [-100, 100] (k0_pay5). -/
def out0_14 (x0 x1 : Vec F S6400x64 .bf16) (x2 : Vec F S6400x5 .f32) (x3 x4 : Vec F S64x64 .f32) (x5 : Vec F S1x64 .f32)
    (x6 : Vec F S2x64 .f32) (x7 : Vec F S1x64 .f32) (x8 : Vec F S64x64 .f32) (x9 : Vec F S1x64 .f32) (x10 : Vec F S64x64 .f32)
    (x11 : Vec F S1x64 .f32) (x12 : Vec F S64x1 .f32) : Vec F S6400x3 .f32 :=
  View.canon [⟨rEdge3, k0_pay5 (k0_pay2 (View.ld x2 rEdge5))
    (k0_pay3 (View.ld x0 rEdge64) (View.ld x1 rEdge64) (View.ld x2 rEdge5) (View.ld x3 rW64) (View.ld x4 rW64) (View.ld x5 rRow64) (View.ld x6 rRows2))
    (View.ld x7 rRow64) (View.ld x8 rW64) (View.ld x9 rRow64) (View.ld x10 rW64) (View.ld x11 rRow64) (View.ld x12 rCol64)⟩]

/-- One store of the whole block covers the block. -/
theorem cover0_13 (p0 : Vec F S6400x64 .bf16) (y : S6400x64.Idx) :
    ∃ pc ∈ ([⟨rEdge64, p0⟩] : List (View.Piece (Elt F) S6400x64 .bf16)), y ∈ pc.1.set :=
  View.cover_of_tiled [⟨rEdge64, p0⟩] S6400x64.size (by rfl) y

theorem cover0_14 (p0 : Vec F S6400x3 .f32) (y : S6400x3.Idx) :
    ∃ pc ∈ ([⟨rEdge3, p0⟩] : List (View.Piece (Elt F) S6400x3 .f32)), y ∈ pc.1.set :=
  View.cover_of_tiled [⟨rEdge3, p0⟩] S6400x3.size (by rfl) y

/-! ## The body's triple -/

set_option maxHeartbeats 1000000 in
/-- The kernel body on whole staging buffers, the thirteen inputs' holding xW and the two outputs' holding
    anything, runs to the continuation with the inputs' buffers as they were and the two outputs' holding
    out0_13 and out0_14 of the inputs. The body reads each input buffer whole, once; it reads each output buffer
    (the value is not used) and then overwrites it whole. -/
theorem sound_kernel0 (c : Dev nD) (E : Set ℕ) (i : grid0.Coords)
    (arg1 : Memref sig .tc .vmem S6400x64 .bf16) (harg1 : arg1.IsWhole) (arg2 : Memref sig .tc .vmem S6400x64 .bf16) (harg2 : arg2.IsWhole)
    (arg3 : Memref sig .tc .vmem S6400x5 .f32) (harg3 : arg3.IsWhole) (arg4 : Memref sig .tc .vmem S64x64 .f32) (harg4 : arg4.IsWhole)
    (arg5 : Memref sig .tc .vmem S64x64 .f32) (harg5 : arg5.IsWhole) (arg6 : Memref sig .tc .vmem S1x64 .f32) (harg6 : arg6.IsWhole)
    (arg7 : Memref sig .tc .vmem S2x64 .f32) (harg7 : arg7.IsWhole) (arg8 : Memref sig .tc .vmem S1x64 .f32) (harg8 : arg8.IsWhole)
    (arg9 : Memref sig .tc .vmem S64x64 .f32) (harg9 : arg9.IsWhole) (arg10 : Memref sig .tc .vmem S1x64 .f32) (harg10 : arg10.IsWhole)
    (arg11 : Memref sig .tc .vmem S64x64 .f32) (harg11 : arg11.IsWhole) (arg12 : Memref sig .tc .vmem S1x64 .f32) (harg12 : arg12.IsWhole)
    (arg13 : Memref sig .tc .vmem S64x1 .f32) (harg13 : arg13.IsWhole) (arg14 : Memref sig .tc .vmem S6400x64 .bf16) (harg14 : arg14.IsWhole)
    (arg15 : Memref sig .tc .vmem S6400x3 .f32) (harg15 : arg15.IsWhole)
    (x0 x1 : Vec F S6400x64 .bf16) (x2 : Vec F S6400x5 .f32) (x3 x4 : Vec F S64x64 .f32) (x5 : Vec F S1x64 .f32)
    (x6 : Vec F S2x64 .f32) (x7 : Vec F S1x64 .f32) (x8 : Vec F S64x64 .f32) (x9 : Vec F S1x64 .f32) (x10 : Vec F S64x64 .f32)
    (x11 : Vec F S1x64 .f32) (x12 : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ owns (c : Thread nD τ) arg11 fullShare x10 ∗ owns (c : Thread nD τ) arg12 fullShare x11
        ∗ owns (c : Thread nD τ) arg13 fullShare x12
        ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare x10 ∗ owns (c : Thread nD τ) arg12 fullShare x11
            ∗ owns (c : Thread nD τ) arg13 fullShare x12
            ∗ owns (c : Thread nD τ) arg14 fullShare (out0_13 x0 x1 x2 x3 x4 x5 x6 x7 x8 x9)
            ∗ owns (c : Thread nD τ) arg15 fullShare (out0_14 x0 x1 x2 x3 x4 x5 x6 x7 x8 x9 x10 x11 x12)) -∗ K ⟨⟩))
      ⊢ wp frame (wpE (defs₀ (F := F)) Variants.none c none) E
          (cc0__edge_kernel i arg1 harg1 arg2 harg2 arg3 harg3 arg4 harg4 arg5 harg5 arg6 harg6 arg7 harg7 arg8 harg8 arg9 harg9
            arg10 harg10 arg11 harg11 arg12 harg12 arg13 harg13 arg14 harg14 arg15 harg15) K := by
  simp only [cc0__edge_kernel_eq_skeleton]; unfold cc0__edge_kernel_skel
  simp only [k0_part1_eq_skeleton, k0_part2_eq_skeleton]
  unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover0_13 _)
  iexists _; isplitr
  swap; · iexact H14
  ipureintro
  exact View.read_writes_eq_canon _ _ _ (cover0_14 _)

/-! ## The pipeline's proof data -/

/-- The proof data of the edge pipeline on core c: the arrays as the region finds them; after the body at point t
    each input's buffer holds its block and the two outputs' hold out0_13 and out0_14 of the input blocks; the
    invariant is the part of the core's state the pipeline never touches; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => iblk0 V c 12 t
    | ⟨13, _⟩ => out0_13 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t)
    | ⟨14, _⟩ => out0_14 (iblk0 V c 0 t) (iblk0 V c 1 t) (iblk0 V c 2 t) (iblk0 V c 3 t) (iblk0 V c 4 t) (iblk0 V c 5 t) (iblk0 V c 6 t)
        (iblk0 V c 7 t) (iblk0 V c 8 t) (iblk0 V c 9 t) (iblk0 V c 10 t) (iblk0 V c 11 t) (iblk0 V c 12 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = iblk0 V c 12 t := by dsimp only [dat0]
theorem after0_13 (c : Dev nD) (t : Fin cfg0.N) : (dat0 V c).after 13 t =
    out0_13 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) := by dsimp only [dat0]
theorem after0_14 (c : Dev nD) (t : Fin cfg0.N) : (dat0 V c).after 14 t =
    out0_14 (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t) := by dsimp only [dat0]

/-! Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d
theorem before0_12 (c : Dev nD) (t : Fin cfg0.N) (d) : (dat0 V c).before 12 t d = iblk0 V c 12 t :=
  before0_12_of V (dat0 V c) (A_eq0 V c 12) (after0_12 V c) t d

/-! ## The body obligation, at a generic point -/

/-- What the body is called with at point t: the invariant, what the core owes, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9,
    before0_10, before0_11, before0_12]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11,
    after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
    ⟨%d10, H10⟩, ⟨%d11, H11⟩, ⟨%d12, H12⟩, ⟨%d13, H13⟩, ⟨%d14, H14⟩⟩
  iapply (sound_kernel0 c Set.univ _ _ _ _ _ _ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) (iblk0 V c 11 t) (iblk0 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation of the edge pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Node.lean ====
import proofs.«177907_j11751030522785_2_alg».proof.Proof.KI.LaunchP
import proofs.«177907_j11751030522785_2_alg».proof.Proof.Gen.KernelIdeal.Skeleton
import proofs.«177907_j11751030522785_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The node update (second pipelined region): what one grid point does to its staging buffers

The region walks ten grid points; point `t` holds rows `5000·t … 5000·t + 4999` of the three node arrays
(features, aggregated messages, coordinates) and the whole of the four parameter arrays (two weight matrices, two
bias rows), which do not move with the point. The body reads its seven input buffers and overwrites each of its two
output buffers with ONE store of the whole block:

* the new features: `h + (silu([h | agg[:, 4:68]] · W₁ + b₁) · W₂ + b₂)`, a function of six of the inputs;
* the new coordinates: `x + agg[:, 0:3] / max(1, agg[:, 3])`, a function of the aggregated messages and the coordinates.

Everything here is stated for an arbitrary number model `F` and for arbitrary contents `V` of the core's buffers at
the moment the region is entered; the arithmetic is never opened, only named (`k1_pay2`, `k1_pay3`).
-/

-- deciding that one whole-block rectangle tiles a block of 5000 rows recurses once per row
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`: the rows of its array (as the region finds it) that the point works on;
    for a parameter array, the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the node features' block): the buffer the body is handed at point `t` holds the window's block there — it is filled afresh at every point —
    for any proof data over the entry contents whose body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the aggregated messages' block): the buffer the body is handed at point `t` holds the window's block there — it is filled afresh at every point —
    for any proof data over the entry contents whose body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the coordinates' block): the buffer the body is handed at point `t` holds the window's block there — it is filled afresh at every point —
    for any proof data over the entry contents whose body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the first node weight matrix): the buffer the body is handed at point `t` holds the window's block there — the block is the whole array at every point, so a buffer filled once at the first point still holds it later —
    for any proof data over the entry contents whose body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the first node bias row): the buffer the body is handed at point `t` holds the window's block there — the block is the whole array at every point, so a buffer filled once at the first point still holds it later —
    for any proof data over the entry contents whose body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 (the second node weight matrix): the buffer the body is handed at point `t` holds the window's block there — the block is the whole array at every point, so a buffer filled once at the first point still holds it later —
    for any proof data over the entry contents whose body leaves the buffer as it found it. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6 (the second node bias row): the buffer the body is handed at point `t` holds the window's block there — the block is the whole array at every point, so a buffer filled once at the first point still holds it later —
    for any proof data over the entry contents whose body leaves the buffer as it found it. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of a buffer -/

abbrev r1_0 : Rect S5000x64 := Rect.unit (s := S5000x64) ![0, 0] S5000x64.size inb_S5000x64_S5000x64_0_0
abbrev r1_1 : Rect S5000x68 := Rect.unit (s := S5000x68) ![0, 0] S5000x68.size inb_S5000x68_S5000x68_0_0
abbrev r1_2 : Rect S5000x3 := Rect.unit (s := S5000x3) ![0, 0] S5000x3.size inb_S5000x3_S5000x3_0_0
abbrev r1_3 : Rect S128x64 := Rect.unit (s := S128x64) ![0, 0] S128x64.size inb_S128x64_S128x64_0_0
abbrev r1_4 : Rect S1x64 := Rect.unit (s := S1x64) ![0, 0] S1x64.size inb_S1x64_S1x64_0_0
abbrev r1_5 : Rect S64x64 := Rect.unit (s := S64x64) ![0, 0] S64x64.size inb_S64x64_S64x64_0_0

/-! ## What the body leaves in each output buffer -/

/-- The new-features buffer after the body, from the six input blocks it depends on: its one whole-block store,
    of the residual update `k1_pay2`. -/
def out1_7 (y0 : Vec F S5000x64 .f32) (y1 : Vec F S5000x68 .f32) (y3 : Vec F S128x64 .f32) (y4 : Vec F S1x64 .f32) (y5 : Vec F S64x64 .f32) (y6 : Vec F S1x64 .f32) : Vec F S5000x64 .f32 :=
  View.canon [⟨r1_0, k1_pay2 (View.ld y0 r1_0) (View.ld y1 r1_1) (View.ld y3 r1_3) (View.ld y4 r1_4) (View.ld y5 r1_5) (View.ld y6 r1_4)⟩]

/-- The new-coordinates buffer after the body, from the aggregated messages and the coordinates: its one whole-block
    store, of the normalised translation added to the coordinates, `k1_pay3`. -/
def out1_8 (y1 : Vec F S5000x68 .f32) (y2 : Vec F S5000x3 .f32) : Vec F S5000x3 .f32 :=
  View.canon [⟨r1_2, k1_pay3 (View.ld y1 r1_1) (View.ld y2 r1_2)⟩]

/-- One store of the whole block covers the block. -/
theorem cover1_7 (p0 : Vec F S5000x64 .f32) (y : S5000x64.Idx) :
    ∃ pc ∈ ([⟨r1_0, p0⟩] : List (View.Piece (Elt F) S5000x64 .f32)), y ∈ pc.1.set :=
  View.cover_of_tiled [⟨r1_0, p0⟩] S5000x64.size (by rfl) y

/-- One store of the whole block covers the block. -/
theorem cover1_8 (p0 : Vec F S5000x3 .f32) (y : S5000x3.Idx) :
    ∃ pc ∈ ([⟨r1_2, p0⟩] : List (View.Piece (Elt F) S5000x3 .f32)), y ∈ pc.1.set :=
  View.cover_of_tiled [⟨r1_2, p0⟩] S5000x3.size (by rfl) y

/-! ## The body's triple -/

set_option maxHeartbeats 1000000 in
/-- The body on nine whole buffers — the seven inputs at contents `x0 … x6`, the two outputs at anything — runs to
    a state where the inputs are as they were and the outputs hold `out1_7` and `out1_8` of the inputs. Each output
    buffer is read once before it is overwritten; what that read returns is not used. -/
theorem sound_kernel1 (c : Dev nD) (E : Set ℕ) (i : grid1.Coords) (arg1 : Memref sig .tc .vmem S5000x64 .f32) (harg1 : arg1.IsWhole) (arg2 : Memref sig .tc .vmem S5000x68 .f32) (harg2 : arg2.IsWhole) (arg3 : Memref sig .tc .vmem S5000x3 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S5000x64 .f32) (harg8 : arg8.IsWhole) (arg9 : Memref sig .tc .vmem S5000x3 .f32) (harg9 : arg9.IsWhole)
    (x0 : Vec F S5000x64 .f32) (x1 : Vec F S5000x68 .f32) (x2 : Vec F S5000x3 .f32) (x3 : Vec F S128x64 .f32) (x4 : Vec F S1x64 .f32) (x5 : Vec F S64x64 .f32) (x6 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out1_7 x0 x1 x3 x4 x5 x6) ∗ owns (c : Thread nD τ) arg9 fullShare (out1_8 x1 x2)) -∗ K ⟨⟩))
      ⊢ wp frame (wpE (defs₀ (F := F)) Variants.none c none) E (cc1__node_kernel i arg1 harg1 arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1_7 _)
  iexists _; isplitr
  swap; · iexact H8
  ipureintro
  exact View.read_writes_eq_canon _ _ _ (cover1_8 _)

/-! ## The pipeline's proof data -/

/-- The proof data of the node region on core `c`: the arrays as the region finds them; after the body at point `t`
    every input buffer still at its block and the two output buffers at `out1_7` / `out1_8` of the input blocks; the
    invariant "the buffers outside the region and the generator register are untouched"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 3 t) (iblk1 V c 4 t) (iblk1 V c 5 t) (iblk1 V c 6 t)
    | ⟨8, _⟩ => out1_8 (iblk1 V c 1 t) (iblk1 V c 2 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 3 t) (iblk1 V c 4 t) (iblk1 V c 5 t) (iblk1 V c 6 t) := by dsimp only [dat1]
theorem after1_8 (c : Dev nD) (t : Fin cfg1.N) : (dat1 V c).after 8 t = out1_8 (iblk1 V c 1 t) (iblk1 V c 2 t) := by dsimp only [dat1]

/-- Each input buffer the body is handed holds its window's block, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`: the invariant, the core's debts, and the nine current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the input buffers hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program on one TensorCore: the host operations before the first kernel, the edge kernel's
  pipeline over its 125 blocks of 6400 edges, the host operations between the kernels (the fused scatter-add), and the
  node kernel's pipeline over its 10 blocks of 5000 nodes.  The contents of every buffer are followed from boundary to
  boundary: a stretch of host operations applies them in order; a kernel leaves each of its arrays at what its
  write-backs fold to (an input array as it was entered) and every other buffer untouched.  At the end every buffer
  that outlives the kernels is read back at the last boundary's contents, so one statement gives both the frame
  (no argument array is ever written) and the two result arrays as functions of the launch memory.
-/
import proofs.«177907_j11751030522785_2_alg».proof.Proof.KI.Edge
import proofs.«177907_j11751030522785_2_alg».proof.Proof.KI.Node
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ)

/-! ## What the host stretches write -/

/-- The references the host operations before the edge kernel write: their own results. -/
abbrev hostOps0_W : List (Ref sig .tc) := [main_v0, main_v1, main_v2, main_v3, main_v4, main_c, main_v5, main_v6, main_c_0, main_v7, main_v8, main_v9, main_v10, main_v11, main_c_1, main_v12, main_v13, main_c_2, main_v14, main_v15, main_v16, main_v17, main_v18, main_c_3, main_v19, main_v20, main_c_4, main_v21, main_v22, main_v23, main_v24, main_v25, main_c_5, main_v26, main_v27, main_c_6, main_v28, main_v29, main_v30, main_v31, main_v32, main_v33, main_v34, main_v35, main_v36, main_v37, main_v38, main_v39, main_v40, main_v41]
/-- The references the host operations between the kernels write. -/
abbrev hostOps1_W : List (Ref sig .tc) := [main_v43, main_cst, main_v44, main_v45, main_cst_7, main_v46, main_v47, main_v48, main_v49, main_v50]
theorem hostOps0_writes : (hostOps0 : List (HloOp τ sig (Elt F))).Forall fun op => op.writes ⊆ (hostOps0_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, StableHlo.nary_writes, Finset.singleton_subset_iff, List.mem_toFinset]; exact List.mem_map_of_mem (by decide))
/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## The buffers' contents at each boundary -/

/-- At launch. -/
abbrev W0 : Dev nD → Valuation τ sig (Elt F) := fun c b => m (c, b)
/-- After the host operations before the edge kernel. -/
abbrev W1 : Dev nD → Valuation τ sig (Elt F) := fun c => StableHlo.after hostOps0 (W0 m c)
/-- The same, read at the TensorCore's references. -/
abbrev U1 : (c : Dev nD) → (b : Ref sig .tc) → Buf (Elt F) ((c : Thread nD τ).loc b) := fun c b => W1 m c b
/-- After the edge kernel: each of its arrays at what its write-backs fold to, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)
/-- A buffer the edge kernel only reads (or does not touch) leaves it as entered. -/
theorem W2_keep (c : Dev nD) (b : Ref sig .tc) (hin : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    exact (W2_arr m c w).trans (((dat0 (U1 m) c).arrAt_in w (hin w rfl) _).trans (A_eq0 (U1 m) c w))
  · exact W2_of_ne m c b fun w e => h ⟨w, e⟩

/-- After the host operations between the kernels. -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- After the node kernel. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)
theorem W4_keep (c : Dev nD) (b : Ref sig .tc) (hin : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    exact (W4_arr m c w).trans (((dat1 (U3 m) c).arrAt_in w (hin w rfl) _).trans (A_eq1 (U3 m) c w))
  · exact W4_of_ne m c b fun w e => h ⟨w, e⟩

/-- A buffer that no host operation writes and no kernel writes back ends holding its launch contents. -/
theorem W4_launch (c : Dev nD) (b : Ref sig .tc) (h0 : b ∉ hostOps0_W) (h1 : b ∉ hostOps1_W)
    (hin0 : ∀ w, Pipeline.arrRef spec0 w = b → (cfg0.win w).isOut = false)
    (hin1 : ∀ w, Pipeline.arrRef spec1 w = b → (cfg1.win w).isOut = false) :
    W4 m c (Proc.devRef .tc b) = m ((c : Thread nD τ).loc b) :=
  (W4_keep m c b hin1).trans <| (StableHlo.after_of_writes_sub hostOps1 _ hostOps1_writes h1).trans <|
    (W2_keep m c b hin0).trans <| (StableHlo.after_of_writes_sub hostOps0 _ hostOps0_writes h0).trans rfl

/-! ## The proof data family and what rides along -/

abbrev adm : (p : Fin 2) → (pcfgs (F := F) p).Adm := fun p => (cfgs p).toPCfg_adm
/-- Each pipeline's proof data at the contents its kernel is entered from. -/
def pdats : (p : Fin 2) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
abbrev 𝒱₀ : Variants := Variants.none
abbrev L : GSem nD τ sig → Finset Unit := fun _ => ∅
abbrev lv : GSem nD τ sig → Unit → ℕ := fun _ _ => 0
/-- Beside the buffers: the core's generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The two kernels as segments -/

set_option backward.isDefEq.respectTransparency.types false in
/-- The edge kernel's pipeline between the contents `W1` and `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node kernel's pipeline between the contents `W3` and `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

set_option backward.isDefEq.respectTransparency.types false in
/-- Every weakly fair execution from the memory `m` terminates without a fault, and every buffer that outlives the
    kernels ends at the last boundary's contents. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- A buffer that outlives the kernels, as the run leaves it. -/
theorem run_read (ρ : Dev nD → PrngReg) :
    θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W4 m c (Proc.devRef .tc b)) :=
  (θ_run defs _ _).mono (fun _ h c b hb => h c _ (mem_uc b hb)) (run_all m ρ)

/-- The frame: every execution terminates without a fault and no argument array is changed (no host operation
    writes one, and a kernel that receives one only reads it). -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c main_arg0 (by decide)).trans (W4_launch m c main_arg0 (by decide) (by decide) (by decide) (by decide)),
    (h c main_arg1 (by decide)).trans (W4_launch m c main_arg1 (by decide) (by decide) (by decide) (by decide)),
    (h c main_arg2 (by decide)).trans (W4_launch m c main_arg2 (by decide) (by decide) (by decide) (by decide)),
    (h c main_arg3 (by decide)).trans (W4_launch m c main_arg3 (by decide) (by decide) (by decide) (by decide)),
    (h c main_arg4 (by decide)).trans (W4_launch m c main_arg4 (by decide) (by decide) (by decide) (by decide)),
    (h c main_arg5 (by decide)).trans (W4_launch m c main_arg5 (by decide) (by decide) (by decide) (by decide)),
    (h c main_arg6 (by decide)).trans (W4_launch m c main_arg6 (by decide) (by decide) (by decide) (by decide)),
    (h c main_arg7 (by decide)).trans (W4_launch m c main_arg7 (by decide) (by decide) (by decide) (by decide)),
    (h c main_arg8 (by decide)).trans (W4_launch m c main_arg8 (by decide) (by decide) (by decide) (by decide)),
    (h c main_arg9 (by decide)).trans (W4_launch m c main_arg9 (by decide) (by decide) (by decide) (by decide)),
    (h c main_arg10 (by decide)).trans (W4_launch m c main_arg10 (by decide) (by decide) (by decide) (by decide)),
    (h c main_arg11 (by decide)).trans (W4_launch m c main_arg11 (by decide) (by decide) (by decide) (by decide)),
    (h c main_arg12 (by decide)).trans (W4_launch m c main_arg12 (by decide) (by decide) (by decide) (by decide)),
    (h c main_arg13 (by decide)).trans (W4_launch m c main_arg13 (by decide) (by decide) (by decide) (by decide)),
    (h c main_arg14 (by decide)).trans (W4_launch m c main_arg14 (by decide) (by decide) (by decide) (by decide))⟩) (run_read m ρ)

end Cert.KernelIdeal.Hand

end
-- ==== Proof.Val.Blocks.lean ====
/-
  Where each window's block sits in its array.  The edge kernel walks its 125 grid points over blocks of 6400 rows of
  the edge arrays, the node kernel its 10 points over blocks of 5000 rows of the node arrays; the weight and bias
  windows are the whole array at every point.  So a moving block's entry (p, k) at point t is the array's entry
  (rows·t + p, k), a resident block's entry is the array's entry at the same coordinates, and the blocks of an output
  window cover its array: row r lies in the block of point r / rows.
-/
import proofs.«177907_j11751030522785_2_alg».proof.Proof.Gen.KernelIdeal
import proofs.«177907_j11751030522785_2_alg».proof.Proof.Gen.KernelIdeal.Points
import Idealize.ShloMosaic.Lib.Pipeline.Value
import Idealize.ShloMosaic.Lib.ValueIdx

noncomputable section

namespace Cert.Val

open Idealize.ShloMosaic Idealize.ShloMosaic.ValueIdx Idealize.SL.Sem Cert.KernelIdeal Cert.KernelIdeal.Gen

theorem N0 : grid0.N = 125 := by decide
theorem N1 : grid1.N = 10 := by decide
theorem lt0 (t : Fin cfg0.N) : t.val < 125 := by have h := t.isLt; have e : cfg0.N = 125 := N0; omega
theorem lt1 (t : Fin cfg1.N) : t.val < 10 := by have h := t.isLt; have e : cfg1.N = 10 := N1; omega

/-- The edge kernel's moving windows sit at block `t` of the row axis. -/
theorem idx0_move : ∀ t : Fin cfg0.N,
    win0_0.index t (0 : Fin 2) = t.val ∧ win0_0.index t (1 : Fin 2) = 0 ∧
    win0_1.index t (0 : Fin 2) = t.val ∧ win0_1.index t (1 : Fin 2) = 0 ∧
    win0_2.index t (0 : Fin 2) = t.val ∧ win0_2.index t (1 : Fin 2) = 0 ∧
    win0_13.index t (0 : Fin 2) = t.val ∧ win0_13.index t (1 : Fin 2) = 0 ∧
    win0_14.index t (0 : Fin 2) = t.val ∧ win0_14.index t (1 : Fin 2) = 0 :=
  (by decide +kernel : ∀ t : Fin grid0.N, _)
/-- Its weight and bias windows sit at the only block. -/
theorem idx0_res : ∀ t : Fin cfg0.N,
    win0_3.index t (0 : Fin 2) = 0 ∧ win0_3.index t (1 : Fin 2) = 0 ∧
    win0_4.index t (0 : Fin 2) = 0 ∧ win0_4.index t (1 : Fin 2) = 0 ∧
    win0_5.index t (0 : Fin 2) = 0 ∧ win0_5.index t (1 : Fin 2) = 0 ∧
    win0_6.index t (0 : Fin 2) = 0 ∧ win0_6.index t (1 : Fin 2) = 0 ∧
    win0_7.index t (0 : Fin 2) = 0 ∧ win0_7.index t (1 : Fin 2) = 0 ∧
    win0_8.index t (0 : Fin 2) = 0 ∧ win0_8.index t (1 : Fin 2) = 0 ∧
    win0_9.index t (0 : Fin 2) = 0 ∧ win0_9.index t (1 : Fin 2) = 0 ∧
    win0_10.index t (0 : Fin 2) = 0 ∧ win0_10.index t (1 : Fin 2) = 0 ∧
    win0_11.index t (0 : Fin 2) = 0 ∧ win0_11.index t (1 : Fin 2) = 0 ∧
    win0_12.index t (0 : Fin 2) = 0 ∧ win0_12.index t (1 : Fin 2) = 0 :=
  (by decide +kernel : ∀ t : Fin grid0.N, _)
/-- The node kernel's moving windows sit at block `t` of the row axis. -/
theorem idx1_move : ∀ t : Fin cfg1.N,
    win1_0.index t (0 : Fin 2) = t.val ∧ win1_0.index t (1 : Fin 2) = 0 ∧
    win1_1.index t (0 : Fin 2) = t.val ∧ win1_1.index t (1 : Fin 2) = 0 ∧
    win1_2.index t (0 : Fin 2) = t.val ∧ win1_2.index t (1 : Fin 2) = 0 ∧
    win1_7.index t (0 : Fin 2) = t.val ∧ win1_7.index t (1 : Fin 2) = 0 ∧
    win1_8.index t (0 : Fin 2) = t.val ∧ win1_8.index t (1 : Fin 2) = 0 :=
  (by decide +kernel : ∀ t : Fin grid1.N, _)
theorem idx1_res : ∀ t : Fin cfg1.N,
    win1_3.index t (0 : Fin 2) = 0 ∧ win1_3.index t (1 : Fin 2) = 0 ∧
    win1_4.index t (0 : Fin 2) = 0 ∧ win1_4.index t (1 : Fin 2) = 0 ∧
    win1_5.index t (0 : Fin 2) = 0 ∧ win1_5.index t (1 : Fin 2) = 0 ∧
    win1_6.index t (0 : Fin 2) = 0 ∧ win1_6.index t (1 : Fin 2) = 0 :=
  (by decide +kernel : ∀ t : Fin grid1.N, _)

/-! ## A block read at an entry -/

theorem read0_0 (t : Fin cfg0.N) (p : Fin 6400) (k : Fin 64) (X : S800000x64.Idx → EReal) (h : 6400 * t.val + p.val < 800000) :
    ((cfg0.win 0).blk t).view.read (Elt Ideal) X (ix2 p k) = X (ix2 ⟨6400 * t.val + p.val, h⟩ k) := by
  show X (((cfg0.win 0).blk t).view.emb (ix2 p k)) = _
  refine congrArg X (funext fun a => Fin.ext ?_)
  obtain ⟨e0, e1, -, -, -, -, -, -, -, -⟩ := idx0_move t
  match a with
  | ⟨0, _⟩ => show win0_0.index t (0 : Fin 2) * 6400 + 1 * p.val = 6400 * t.val + p.val; omega
  | ⟨1, _⟩ => show win0_0.index t (1 : Fin 2) * 64 + 1 * k.val = k.val; omega
theorem read0_1 (t : Fin cfg0.N) (p : Fin 6400) (k : Fin 64) (X : S800000x64.Idx → EReal) (h : 6400 * t.val + p.val < 800000) :
    ((cfg0.win 1).blk t).view.read (Elt Ideal) X (ix2 p k) = X (ix2 ⟨6400 * t.val + p.val, h⟩ k) := by
  show X (((cfg0.win 1).blk t).view.emb (ix2 p k)) = _
  refine congrArg X (funext fun a => Fin.ext ?_)
  obtain ⟨-, -, e0, e1, -, -, -, -, -, -⟩ := idx0_move t
  match a with
  | ⟨0, _⟩ => show win0_1.index t (0 : Fin 2) * 6400 + 1 * p.val = 6400 * t.val + p.val; omega
  | ⟨1, _⟩ => show win0_1.index t (1 : Fin 2) * 64 + 1 * k.val = k.val; omega
theorem read0_2 (t : Fin cfg0.N) (p : Fin 6400) (k : Fin 5) (X : S800000x5.Idx → EReal) (h : 6400 * t.val + p.val < 800000) :
    ((cfg0.win 2).blk t).view.read (Elt Ideal) X (ix2 p k) = X (ix2 ⟨6400 * t.val + p.val, h⟩ k) := by
  show X (((cfg0.win 2).blk t).view.emb (ix2 p k)) = _
  refine congrArg X (funext fun a => Fin.ext ?_)
  obtain ⟨-, -, -, -, e0, e1, -, -, -, -⟩ := idx0_move t
  match a with
  | ⟨0, _⟩ => show win0_2.index t (0 : Fin 2) * 6400 + 1 * p.val = 6400 * t.val + p.val; omega
  | ⟨1, _⟩ => show win0_2.index t (1 : Fin 2) * 5 + 1 * k.val = k.val; omega
theorem read0_13 (t : Fin cfg0.N) (p : Fin 6400) (k : Fin 64) (X : S800000x64.Idx → EReal) (h : 6400 * t.val + p.val < 800000) :
    ((cfg0.win 13).blk t).view.read (Elt Ideal) X (ix2 p k) = X (ix2 ⟨6400 * t.val + p.val, h⟩ k) := by
  show X (((cfg0.win 13).blk t).view.emb (ix2 p k)) = _
  refine congrArg X (funext fun a => Fin.ext ?_)
  obtain ⟨-, -, -, -, -, -, e0, e1, -, -⟩ := idx0_move t
  match a with
  | ⟨0, _⟩ => show win0_13.index t (0 : Fin 2) * 6400 + 1 * p.val = 6400 * t.val + p.val; omega
  | ⟨1, _⟩ => show win0_13.index t (1 : Fin 2) * 64 + 1 * k.val = k.val; omega
theorem read0_14 (t : Fin cfg0.N) (p : Fin 6400) (k : Fin 3) (X : S800000x3.Idx → EReal) (h : 6400 * t.val + p.val < 800000) :
    ((cfg0.win 14).blk t).view.read (Elt Ideal) X (ix2 p k) = X (ix2 ⟨6400 * t.val + p.val, h⟩ k) := by
  show X (((cfg0.win 14).blk t).view.emb (ix2 p k)) = _
  refine congrArg X (funext fun a => Fin.ext ?_)
  obtain ⟨-, -, -, -, -, -, -, -, e0, e1⟩ := idx0_move t
  match a with
  | ⟨0, _⟩ => show win0_14.index t (0 : Fin 2) * 6400 + 1 * p.val = 6400 * t.val + p.val; omega
  | ⟨1, _⟩ => show win0_14.index t (1 : Fin 2) * 3 + 1 * k.val = k.val; omega
theorem read0_3 (t : Fin cfg0.N) (p : Fin 64) (k : Fin 64) (X : S64x64.Idx → EReal) :
    ((cfg0.win 3).blk t).view.read (Elt Ideal) X (ix2 p k) = X (ix2 p k) := by
  show X (((cfg0.win 3).blk t).view.emb (ix2 p k)) = _
  refine congrArg X (funext fun a => Fin.ext ?_)
  obtain ⟨e0, e1, -, -, -, -, -, -, -, -, -, -, -, -, -, -, -, -, -, -⟩ := idx0_res t
  match a with
  | ⟨0, _⟩ => show win0_3.index t (0 : Fin 2) * 64 + 1 * p.val = p.val; omega
  | ⟨1, _⟩ => show win0_3.index t (1 : Fin 2) * 64 + 1 * k.val = k.val; omega
theorem read0_4 (t : Fin cfg0.N) (p : Fin 64) (k : Fin 64) (X : S64x64.Idx → EReal) :
    ((cfg0.win 4).blk t).view.read (Elt Ideal) X (ix2 p k) = X (ix2 p k) := by
  show X (((cfg0.win 4).blk t).view.emb (ix2 p k)) = _
  refine congrArg X (funext fun a => Fin.ext ?_)
  obtain ⟨-, -, e0, e1, -, -, -, -, -, -, -, -, -, -, -, -, -, -, -, -⟩ := idx0_res t
  match a with
  | ⟨0, _⟩ => show win0_4.index t (0 : Fin 2) * 64 + 1 * p.val = p.val; omega
  | ⟨1, _⟩ => show win0_4.index t (1 : Fin 2) * 64 + 1 * k.val = k.val; omega
theorem read0_5 (t : Fin cfg0.N) (p : Fin 1) (k : Fin 64) (X : S1x64.Idx → EReal) :
    ((cfg0.win 5).blk t).view.read (Elt Ideal) X (ix2 p k) = X (ix2 p k) := by
  show X (((cfg0.win 5).blk t).view.emb (ix2 p k)) = _
  refine congrArg X (funext fun a => Fin.ext ?_)
  obtain ⟨-, -, -, -, e0, e1, -, -, -, -, -, -, -, -, -, -, -, -, -, -⟩ := idx0_res t
  match a with
  | ⟨0, _⟩ => show win0_5.index t (0 : Fin 2) * 1 + 1 * p.val = p.val; omega
  | ⟨1, _⟩ => show win0_5.index t (1 : Fin 2) * 64 + 1 * k.val = k.val; omega
theorem read0_6 (t : Fin cfg0.N) (p : Fin 2) (k : Fin 64) (X : S2x64.Idx → EReal) :
    ((cfg0.win 6).blk t).view.read (Elt Ideal) X (ix2 p k) = X (ix2 p k) := by
  show X (((cfg0.win 6).blk t).view.emb (ix2 p k)) = _
  refine congrArg X (funext fun a => Fin.ext ?_)
  obtain ⟨-, -, -, -, -, -, e0, e1, -, -, -, -, -, -, -, -, -, -, -, -⟩ := idx0_res t
  match a with
  | ⟨0, _⟩ => show win0_6.index t (0 : Fin 2) * 2 + 1 * p.val = p.val; omega
  | ⟨1, _⟩ => show win0_6.index t (1 : Fin 2) * 64 + 1 * k.val = k.val; omega
theorem read0_7 (t : Fin cfg0.N) (p : Fin 1) (k : Fin 64) (X : S1x64.Idx → EReal) :
    ((cfg0.win 7).blk t).view.read (Elt Ideal) X (ix2 p k) = X (ix2 p k) := by
  show X (((cfg0.win 7).blk t).view.emb (ix2 p k)) = _
  refine congrArg X (funext fun a => Fin.ext ?_)
  obtain ⟨-, -, -, -, -, -, -, -, e0, e1, -, -, -, -, -, -, -, -, -, -⟩ := idx0_res t
  match a with
  | ⟨0, _⟩ => show win0_7.index t (0 : Fin 2) * 1 + 1 * p.val = p.val; omega
  | ⟨1, _⟩ => show win0_7.index t (1 : Fin 2) * 64 + 1 * k.val = k.val; omega
theorem read0_8 (t : Fin cfg0.N) (p : Fin 64) (k : Fin 64) (X : S64x64.Idx → EReal) :
    ((cfg0.win 8).blk t).view.read (Elt Ideal) X (ix2 p k) = X (ix2 p k) := by
  show X (((cfg0.win 8).blk t).view.emb (ix2 p k)) = _
  refine congrArg X (funext fun a => Fin.ext ?_)
  obtain ⟨-, -, -, -, -, -, -, -, -, -, e0, e1, -, -, -, -, -, -, -, -⟩ := idx0_res t
  match a with
  | ⟨0, _⟩ => show win0_8.index t (0 : Fin 2) * 64 + 1 * p.val = p.val; omega
  | ⟨1, _⟩ => show win0_8.index t (1 : Fin 2) * 64 + 1 * k.val = k.val; omega
theorem read0_9 (t : Fin cfg0.N) (p : Fin 1) (k : Fin 64) (X : S1x64.Idx → EReal) :
    ((cfg0.win 9).blk t).view.read (Elt Ideal) X (ix2 p k) = X (ix2 p k) := by
  show X (((cfg0.win 9).blk t).view.emb (ix2 p k)) = _
  refine congrArg X (funext fun a => Fin.ext ?_)
  obtain ⟨-, -, -, -, -, -, -, -, -, -, -, -, e0, e1, -, -, -, -, -, -⟩ := idx0_res t
  match a with
  | ⟨0, _⟩ => show win0_9.index t (0 : Fin 2) * 1 + 1 * p.val = p.val; omega
  | ⟨1, _⟩ => show win0_9.index t (1 : Fin 2) * 64 + 1 * k.val = k.val; omega
theorem read0_10 (t : Fin cfg0.N) (p : Fin 64) (k : Fin 64) (X : S64x64.Idx → EReal) :
    ((cfg0.win 10).blk t).view.read (Elt Ideal) X (ix2 p k) = X (ix2 p k) := by
  show X (((cfg0.win 10).blk t).view.emb (ix2 p k)) = _
  refine congrArg X (funext fun a => Fin.ext ?_)
  obtain ⟨-, -, -, -, -, -, -, -, -, -, -, -, -, -, e0, e1, -, -, -, -⟩ := idx0_res t
  match a with
  | ⟨0, _⟩ => show win0_10.index t (0 : Fin 2) * 64 + 1 * p.val = p.val; omega
  | ⟨1, _⟩ => show win0_10.index t (1 : Fin 2) * 64 + 1 * k.val = k.val; omega
theorem read0_11 (t : Fin cfg0.N) (p : Fin 1) (k : Fin 64) (X : S1x64.Idx → EReal) :
    ((cfg0.win 11).blk t).view.read (Elt Ideal) X (ix2 p k) = X (ix2 p k) := by
  show X (((cfg0.win 11).blk t).view.emb (ix2 p k)) = _
  refine congrArg X (funext fun a => Fin.ext ?_)
  obtain ⟨-, -, -, -, -, -, -, -, -, -, -, -, -, -, -, -, e0, e1, -, -⟩ := idx0_res t
  match a with
  | ⟨0, _⟩ => show win0_11.index t (0 : Fin 2) * 1 + 1 * p.val = p.val; omega
  | ⟨1, _⟩ => show win0_11.index t (1 : Fin 2) * 64 + 1 * k.val = k.val; omega
theorem read0_12 (t : Fin cfg0.N) (p : Fin 64) (k : Fin 1) (X : S64x1.Idx → EReal) :
    ((cfg0.win 12).blk t).view.read (Elt Ideal) X (ix2 p k) = X (ix2 p k) := by
  show X (((cfg0.win 12).blk t).view.emb (ix2 p k)) = _
  refine congrArg X (funext fun a => Fin.ext ?_)
  obtain ⟨-, -, -, -, -, -, -, -, -, -, -, -, -, -, -, -, -, -, e0, e1⟩ := idx0_res t
  match a with
  | ⟨0, _⟩ => show win0_12.index t (0 : Fin 2) * 64 + 1 * p.val = p.val; omega
  | ⟨1, _⟩ => show win0_12.index t (1 : Fin 2) * 1 + 1 * k.val = k.val; omega
theorem read1_0 (t : Fin cfg1.N) (p : Fin 5000) (k : Fin 64) (X : S50000x64.Idx → EReal) (h : 5000 * t.val + p.val < 50000) :
    ((cfg1.win 0).blk t).view.read (Elt Ideal) X (ix2 p k) = X (ix2 ⟨5000 * t.val + p.val, h⟩ k) := by
  show X (((cfg1.win 0).blk t).view.emb (ix2 p k)) = _
  refine congrArg X (funext fun a => Fin.ext ?_)
  obtain ⟨e0, e1, -, -, -, -, -, -, -, -⟩ := idx1_move t
  match a with
  | ⟨0, _⟩ => show win1_0.index t (0 : Fin 2) * 5000 + 1 * p.val = 5000 * t.val + p.val; omega
  | ⟨1, _⟩ => show win1_0.index t (1 : Fin 2) * 64 + 1 * k.val = k.val; omega
theorem read1_1 (t : Fin cfg1.N) (p : Fin 5000) (k : Fin 68) (X : S50000x68.Idx → EReal) (h : 5000 * t.val + p.val < 50000) :
    ((cfg1.win 1).blk t).view.read (Elt Ideal) X (ix2 p k) = X (ix2 ⟨5000 * t.val + p.val, h⟩ k) := by
  show X (((cfg1.win 1).blk t).view.emb (ix2 p k)) = _
  refine congrArg X (funext fun a => Fin.ext ?_)
  obtain ⟨-, -, e0, e1, -, -, -, -, -, -⟩ := idx1_move t
  match a with
  | ⟨0, _⟩ => show win1_1.index t (0 : Fin 2) * 5000 + 1 * p.val = 5000 * t.val + p.val; omega
  | ⟨1, _⟩ => show win1_1.index t (1 : Fin 2) * 68 + 1 * k.val = k.val; omega
theorem read1_2 (t : Fin cfg1.N) (p : Fin 5000) (k : Fin 3) (X : S50000x3.Idx → EReal) (h : 5000 * t.val + p.val < 50000) :
    ((cfg1.win 2).blk t).view.read (Elt Ideal) X (ix2 p k) = X (ix2 ⟨5000 * t.val + p.val, h⟩ k) := by
  show X (((cfg1.win 2).blk t).view.emb (ix2 p k)) = _
  refine congrArg X (funext fun a => Fin.ext ?_)
  obtain ⟨-, -, -, -, e0, e1, -, -, -, -⟩ := idx1_move t
  match a with
  | ⟨0, _⟩ => show win1_2.index t (0 : Fin 2) * 5000 + 1 * p.val = 5000 * t.val + p.val; omega
  | ⟨1, _⟩ => show win1_2.index t (1 : Fin 2) * 3 + 1 * k.val = k.val; omega
theorem read1_7 (t : Fin cfg1.N) (p : Fin 5000) (k : Fin 64) (X : S50000x64.Idx → EReal) (h : 5000 * t.val + p.val < 50000) :
    ((cfg1.win 7).blk t).view.read (Elt Ideal) X (ix2 p k) = X (ix2 ⟨5000 * t.val + p.val, h⟩ k) := by
  show X (((cfg1.win 7).blk t).view.emb (ix2 p k)) = _
  refine congrArg X (funext fun a => Fin.ext ?_)
  obtain ⟨-, -, -, -, -, -, e0, e1, -, -⟩ := idx1_move t
  match a with
  | ⟨0, _⟩ => show win1_7.index t (0 : Fin 2) * 5000 + 1 * p.val = 5000 * t.val + p.val; omega
  | ⟨1, _⟩ => show win1_7.index t (1 : Fin 2) * 64 + 1 * k.val = k.val; omega
theorem read1_8 (t : Fin cfg1.N) (p : Fin 5000) (k : Fin 3) (X : S50000x3.Idx → EReal) (h : 5000 * t.val + p.val < 50000) :
    ((cfg1.win 8).blk t).view.read (Elt Ideal) X (ix2 p k) = X (ix2 ⟨5000 * t.val + p.val, h⟩ k) := by
  show X (((cfg1.win 8).blk t).view.emb (ix2 p k)) = _
  refine congrArg X (funext fun a => Fin.ext ?_)
  obtain ⟨-, -, -, -, -, -, -, -, e0, e1⟩ := idx1_move t
  match a with
  | ⟨0, _⟩ => show win1_8.index t (0 : Fin 2) * 5000 + 1 * p.val = 5000 * t.val + p.val; omega
  | ⟨1, _⟩ => show win1_8.index t (1 : Fin 2) * 3 + 1 * k.val = k.val; omega
theorem read1_3 (t : Fin cfg1.N) (p : Fin 128) (k : Fin 64) (X : S128x64.Idx → EReal) :
    ((cfg1.win 3).blk t).view.read (Elt Ideal) X (ix2 p k) = X (ix2 p k) := by
  show X (((cfg1.win 3).blk t).view.emb (ix2 p k)) = _
  refine congrArg X (funext fun a => Fin.ext ?_)
  obtain ⟨e0, e1, -, -, -, -, -, -⟩ := idx1_res t
  match a with
  | ⟨0, _⟩ => show win1_3.index t (0 : Fin 2) * 128 + 1 * p.val = p.val; omega
  | ⟨1, _⟩ => show win1_3.index t (1 : Fin 2) * 64 + 1 * k.val = k.val; omega
theorem read1_4 (t : Fin cfg1.N) (p : Fin 1) (k : Fin 64) (X : S1x64.Idx → EReal) :
    ((cfg1.win 4).blk t).view.read (Elt Ideal) X (ix2 p k) = X (ix2 p k) := by
  show X (((cfg1.win 4).blk t).view.emb (ix2 p k)) = _
  refine congrArg X (funext fun a => Fin.ext ?_)
  obtain ⟨-, -, e0, e1, -, -, -, -⟩ := idx1_res t
  match a with
  | ⟨0, _⟩ => show win1_4.index t (0 : Fin 2) * 1 + 1 * p.val = p.val; omega
  | ⟨1, _⟩ => show win1_4.index t (1 : Fin 2) * 64 + 1 * k.val = k.val; omega
theorem read1_5 (t : Fin cfg1.N) (p : Fin 64) (k : Fin 64) (X : S64x64.Idx → EReal) :
    ((cfg1.win 5).blk t).view.read (Elt Ideal) X (ix2 p k) = X (ix2 p k) := by
  show X (((cfg1.win 5).blk t).view.emb (ix2 p k)) = _
  refine congrArg X (funext fun a => Fin.ext ?_)
  obtain ⟨-, -, -, -, e0, e1, -, -⟩ := idx1_res t
  match a with
  | ⟨0, _⟩ => show win1_5.index t (0 : Fin 2) * 64 + 1 * p.val = p.val; omega
  | ⟨1, _⟩ => show win1_5.index t (1 : Fin 2) * 64 + 1 * k.val = k.val; omega
theorem read1_6 (t : Fin cfg1.N) (p : Fin 1) (k : Fin 64) (X : S1x64.Idx → EReal) :
    ((cfg1.win 6).blk t).view.read (Elt Ideal) X (ix2 p k) = X (ix2 p k) := by
  show X (((cfg1.win 6).blk t).view.emb (ix2 p k)) = _
  refine congrArg X (funext fun a => Fin.ext ?_)
  obtain ⟨-, -, -, -, -, -, e0, e1⟩ := idx1_res t
  match a with
  | ⟨0, _⟩ => show win1_6.index t (0 : Fin 2) * 1 + 1 * p.val = p.val; omega
  | ⟨1, _⟩ => show win1_6.index t (1 : Fin 2) * 64 + 1 * k.val = k.val; omega

/-! ## The output windows' blocks cover their arrays -/

/-- An index of window 13's array lies in point `t`'s block exactly when its row is one of the block's rows. -/
theorem mem_blk0_13 (t : Fin cfg0.N) (i : S800000x64.Idx) :
    i ∈ ((cfg0.win 13).blk t).view.set ↔ ∀ a : Fin 2, win0_13.index t a * S6400x64.size a ≤ (i a).val ∧ (i a).val < win0_13.index t a * S6400x64.size a + S6400x64.size a := by
  show i ∈ ((View.whole main_v42_0).slice (win0_13.rect t)).set ↔ _
  rw [View.set_slice_whole, Rect.mem_set_unit]
  exact Iff.rfl
/-- Every index of the array lies in the block of the point its row falls in, and that point writes back. -/
theorem cover0_13 (i : S800000x64.Idx) : ∃ t : Fin cfg0.N, (cfg0.win 13).flush t = true ∧ i ∈ ((cfg0.win 13).blk t).view.set := by
  have hi0 : (i 0).val < 800000 := (i 0).isLt
  have hi1 : (i 1).val < 64 := (i 1).isLt
  have hN : cfg0.N = 125 := N0
  refine ⟨⟨(i 0).val / 6400, by rw [hN]; omega⟩, flush0_13 _, ?_⟩
  rw [mem_blk0_13]
  obtain ⟨-, -, -, -, -, -, e0, e1, -, -⟩ := idx0_move ⟨(i 0).val / 6400, by rw [hN]; omega⟩
  intro a
  match a with
  | ⟨0, _⟩ => show win0_13.index _ (0 : Fin 2) * 6400 ≤ (i 0).val ∧ (i 0).val < win0_13.index _ (0 : Fin 2) * 6400 + 6400; rw [e0]; show (i 0).val / 6400 * 6400 ≤ (i 0).val ∧ (i 0).val < (i 0).val / 6400 * 6400 + 6400; omega
  | ⟨1, _⟩ => show win0_13.index _ (1 : Fin 2) * 64 ≤ (i 1).val ∧ (i 1).val < win0_13.index _ (1 : Fin 2) * 64 + 64; rw [e1]; omega

/-- An index of window 14's array lies in point `t`'s block exactly when its row is one of the block's rows. -/
theorem mem_blk0_14 (t : Fin cfg0.N) (i : S800000x3.Idx) :
    i ∈ ((cfg0.win 14).blk t).view.set ↔ ∀ a : Fin 2, win0_14.index t a * S6400x3.size a ≤ (i a).val ∧ (i a).val < win0_14.index t a * S6400x3.size a + S6400x3.size a := by
  show i ∈ ((View.whole main_v42_1).slice (win0_14.rect t)).set ↔ _
  rw [View.set_slice_whole, Rect.mem_set_unit]
  exact Iff.rfl
/-- Every index of the array lies in the block of the point its row falls in, and that point writes back. -/
theorem cover0_14 (i : S800000x3.Idx) : ∃ t : Fin cfg0.N, (cfg0.win 14).flush t = true ∧ i ∈ ((cfg0.win 14).blk t).view.set := by
  have hi0 : (i 0).val < 800000 := (i 0).isLt
  have hi1 : (i 1).val < 3 := (i 1).isLt
  have hN : cfg0.N = 125 := N0
  refine ⟨⟨(i 0).val / 6400, by rw [hN]; omega⟩, flush0_14 _, ?_⟩
  rw [mem_blk0_14]
  obtain ⟨-, -, -, -, -, -, -, -, e0, e1⟩ := idx0_move ⟨(i 0).val / 6400, by rw [hN]; omega⟩
  intro a
  match a with
  | ⟨0, _⟩ => show win0_14.index _ (0 : Fin 2) * 6400 ≤ (i 0).val ∧ (i 0).val < win0_14.index _ (0 : Fin 2) * 6400 + 6400; rw [e0]; show (i 0).val / 6400 * 6400 ≤ (i 0).val ∧ (i 0).val < (i 0).val / 6400 * 6400 + 6400; omega
  | ⟨1, _⟩ => show win0_14.index _ (1 : Fin 2) * 3 ≤ (i 1).val ∧ (i 1).val < win0_14.index _ (1 : Fin 2) * 3 + 3; rw [e1]; omega

/-- An index of window 7's array lies in point `t`'s block exactly when its row is one of the block's rows. -/
theorem mem_blk1_7 (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v51_0).slice (win1_7.rect t)).set ↔ _
  rw [View.set_slice_whole, Rect.mem_set_unit]
  exact Iff.rfl
/-- Every index of the array lies in the block of the point its row falls in, and that point writes back. -/
theorem cover1_7 (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N1
  refine ⟨⟨(i 0).val / 5000, by rw [hN]; omega⟩, flush1_7 _, ?_⟩
  rw [mem_blk1_7]
  obtain ⟨-, -, -, -, -, -, e0, e1, -, -⟩ := idx1_move ⟨(i 0).val / 5000, by rw [hN]; omega⟩
  intro a
  match a with
  | ⟨0, _⟩ => show win1_7.index _ (0 : Fin 2) * 5000 ≤ (i 0).val ∧ (i 0).val < win1_7.index _ (0 : Fin 2) * 5000 + 5000; rw [e0]; show (i 0).val / 5000 * 5000 ≤ (i 0).val ∧ (i 0).val < (i 0).val / 5000 * 5000 + 5000; omega
  | ⟨1, _⟩ => show win1_7.index _ (1 : Fin 2) * 64 ≤ (i 1).val ∧ (i 1).val < win1_7.index _ (1 : Fin 2) * 64 + 64; rw [e1]; omega

/-- An index of window 8's array lies in point `t`'s block exactly when its row is one of the block's rows. -/
theorem mem_blk1_8 (t : Fin cfg1.N) (i : S50000x3.Idx) :
    i ∈ ((cfg1.win 8).blk t).view.set ↔ ∀ a : Fin 2, win1_8.index t a * S5000x3.size a ≤ (i a).val ∧ (i a).val < win1_8.index t a * S5000x3.size a + S5000x3.size a := by
  show i ∈ ((View.whole main_v51_1).slice (win1_8.rect t)).set ↔ _
  rw [View.set_slice_whole, Rect.mem_set_unit]
  exact Iff.rfl
/-- Every index of the array lies in the block of the point its row falls in, and that point writes back. -/
theorem cover1_8 (i : S50000x3.Idx) : ∃ t : Fin cfg1.N, (cfg1.win 8).flush t = true ∧ i ∈ ((cfg1.win 8).blk t).view.set := by
  have hi0 : (i 0).val < 50000 := (i 0).isLt
  have hi1 : (i 1).val < 3 := (i 1).isLt
  have hN : cfg1.N = 10 := N1
  refine ⟨⟨(i 0).val / 5000, by rw [hN]; omega⟩, flush1_8 _, ?_⟩
  rw [mem_blk1_8]
  obtain ⟨-, -, -, -, -, -, -, -, e0, e1⟩ := idx1_move ⟨(i 0).val / 5000, by rw [hN]; omega⟩
  intro a
  match a with
  | ⟨0, _⟩ => show win1_8.index _ (0 : Fin 2) * 5000 ≤ (i 0).val ∧ (i 0).val < win1_8.index _ (0 : Fin 2) * 5000 + 5000; rw [e0]; show (i 0).val / 5000 * 5000 ≤ (i 0).val ∧ (i 0).val < (i 0).val / 5000 * 5000 + 5000; omega
  | ⟨1, _⟩ => show win1_8.index _ (1 : Fin 2) * 3 ≤ (i 1).val ∧ (i 1).val < win1_8.index _ (1 : Fin 2) * 3 + 3; rw [e1]; omega

end Cert.Val

end
-- ==== Proof.Val.Stages.lean ====
/-
  What the host operations before the edge kernel leave in each array the kernel reads, as functions of the argument
  arrays.  The gathered node features and the coordinate differences are the reference's own stages: both programs
  normalise the edge indices with the same integer operations and gather with the same dimension numbers, and rounding
  the features to a narrower format before the gather is the identity on extended reals.  The remaining operands are
  rows of the first edge weight matrix, the bias vectors laid out as rows, and argument arrays themselves.
-/
import proofs.«177907_j11751030522785_2_alg».proof.Proof.KI.LaunchP
import proofs.«177907_j11751030522785_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

noncomputable section

namespace Cert.Val

open Idealize.ShloMosaic Idealize.ShloMosaic.TcCoe Idealize.ShloMosaic.ValueIdx Idealize.SL.Sem Idealize.ShloMosaic.StableHlo
open Cert.KernelIdeal Cert.KernelIdeal.Gen Cert.KernelIdeal.GenP

variable (m : (ℓ : Loc nD τ sig) → Buf (Elt Ideal) ℓ) (c : Dev nD)

/-- The buffers when the edge kernel is entered. -/
abbrev H0 : Valuation τ sig (Elt Ideal) := StableHlo.after (hostOps0 (F := Ideal)) (fun b => m (c, b))

abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)
abbrev A10 := m ((c.tc : Thread nD τ).loc main_arg10)
abbrev A11 := m ((c.tc : Thread nD τ).loc main_arg11)
abbrev A12 := m ((c.tc : Thread nD τ).loc main_arg12)
abbrev A13 := m ((c.tc : Thread nD τ).loc main_arg13)
abbrev A14 := m ((c.tc : Thread nD τ).loc main_arg14)

/-! ## The arrays -/

/-- The raw row indices of the edges. -/
theorem stage_v1 : H0 m c (Proc.devRef .tc main_v1) = Cert.ReferenceIdeal.Read.val_main_v1 (F := Ideal) (A2 m c) := by
  after_results_simp
  rfl
/-- The node features gathered at the edges' rows. -/
theorem stage_v11 : H0 m c (Proc.devRef .tc main_v11) = Cert.ReferenceIdeal.Read.val_main_v28 (F := Ideal) (A0 m c) (A2 m c) := by
  after_results_simp
  rfl
/-- The node features gathered at the edges' columns. -/
theorem stage_v18 : H0 m c (Proc.devRef .tc main_v18) = Cert.ReferenceIdeal.Read.val_main_v35 (F := Ideal) (A0 m c) (A2 m c) := by
  after_results_simp
  rfl
/-- The coordinate differences beside the edge attributes. -/
theorem stage_v34 : H0 m c (Proc.devRef .tc main_v34)
    = concatenate S800000x5 1 [⟨S800000x3, Cert.ReferenceIdeal.Read.val_main_v18 (F := Ideal) (A1 m c) (A2 m c)⟩, ⟨S800000x2, A3 m c⟩] concatenates_S800000x3_S800000x2_S800000x5_d1 := by
  after_results_simp
  rfl
theorem stage_v35 : H0 m c (Proc.devRef .tc main_v35) = extractStridedSlice S64x64 ![0, 0] (A4 m c) slices_S131x64_S64x64_0_0 := by
  after_results_simp
theorem stage_v36 : H0 m c (Proc.devRef .tc main_v36) = extractStridedSlice S64x64 ![64, 0] (A4 m c) slices_S131x64_S64x64_64_0 := by
  after_results_simp
theorem stage_v37 : H0 m c (Proc.devRef .tc main_v37) = extractStridedSlice S1x64 ![128, 0] (A4 m c) slices_S131x64_S1x64_128_0 := by
  after_results_simp
theorem stage_v38 : H0 m c (Proc.devRef .tc main_v38) = extractStridedSlice S2x64 ![129, 0] (A4 m c) slices_S131x64_S2x64_129_0 := by
  after_results_simp
theorem stage_v39 : H0 m c (Proc.devRef .tc main_v39) = shapeCast S1x64 (A5 m c) shapeCasts_S64_S1x64 := by
  after_results_simp
  rfl
theorem stage_v40 : H0 m c (Proc.devRef .tc main_v40) = shapeCast S1x64 (A7 m c) shapeCasts_S64_S1x64 := by
  after_results_simp
  rfl
theorem stage_v41 : H0 m c (Proc.devRef .tc main_v41) = shapeCast S1x64 (A13 m c) shapeCasts_S64_S1x64 := by
  after_results_simp
  rfl
theorem stage_arg6 : H0 m c (Proc.devRef .tc main_arg6) = A6 m c := by after_results_simp
theorem stage_arg12 : H0 m c (Proc.devRef .tc main_arg12) = A12 m c := by after_results_simp
theorem stage_arg14 : H0 m c (Proc.devRef .tc main_arg14) = A14 m c := by after_results_simp

/-! ## The same, entry by entry -/

theorem in_v34_diff (e : Fin 800000) (k : Fin 3) :
    H0 m c (Proc.devRef .tc main_v34) (ix2 e (⟨k.val, by omega⟩ : Fin 5))
      = Cert.ReferenceIdeal.Read.val_main_v18 (F := Ideal) (A1 m c) (A2 m c) (ix2 e k) :=
  (congrFun (stage_v34 m c) _).trans
    (concatenate_pair_apply_left (t := S800000x5) (s₁ := S800000x3) (s₂ := S800000x2) (1 : Fin 2)
      (Cert.ReferenceIdeal.Read.val_main_v18 (F := Ideal) (A1 m c) (A2 m c)) (A3 m c) concatenates_S800000x3_S800000x2_S800000x5_d1
      (ix2 e (⟨k.val, by omega⟩ : Fin 5)) rfl (ix2 e k)
      (fun b => by match b with | ⟨0, _⟩ => rfl | ⟨1, _⟩ => rfl))
theorem in_v34_attr (e : Fin 800000) (k : Fin 2) :
    H0 m c (Proc.devRef .tc main_v34) (ix2 e (⟨3 + k.val, by omega⟩ : Fin 5)) = A3 m c (ix2 e k) :=
  (congrFun (stage_v34 m c) _).trans
    (concatenate_pair_apply_right (t := S800000x5) (s₁ := S800000x3) (s₂ := S800000x2) (1 : Fin 2)
      (Cert.ReferenceIdeal.Read.val_main_v18 (F := Ideal) (A1 m c) (A2 m c)) (A3 m c) concatenates_S800000x3_S800000x2_S800000x5_d1
      (ix2 e (⟨3 + k.val, by omega⟩ : Fin 5)) rfl rfl (ix2 e k)
      (fun b hb => by match b with | ⟨0, _⟩ => rfl | ⟨1, _⟩ => exact absurd rfl hb)
      (by show k.val + 3 = 3 + k.val; omega))
theorem in_v35 (k j : Fin 64) : H0 m c (Proc.devRef .tc main_v35) (ix2 k j) = A4 m c (ix2 (⟨k.val, by omega⟩ : Fin 131) j) :=
  (congrFun (stage_v35 m c) _).trans
    (extractStridedSlice_apply ![0, 0] _ slices_S131x64_S64x64_0_0 (ix2 k j) (ix2 (⟨k.val, by omega⟩ : Fin 131) j)
      (fun a => by match a with | ⟨0, _⟩ => (show k.val = 0 + k.val; omega) | ⟨1, _⟩ => (show j.val = 0 + j.val; omega)))
theorem in_v36 (k j : Fin 64) : H0 m c (Proc.devRef .tc main_v36) (ix2 k j) = A4 m c (ix2 (⟨64 + k.val, by omega⟩ : Fin 131) j) :=
  (congrFun (stage_v36 m c) _).trans
    (extractStridedSlice_apply ![64, 0] _ slices_S131x64_S64x64_64_0 (ix2 k j) (ix2 (⟨64 + k.val, by omega⟩ : Fin 131) j)
      (fun a => by match a with | ⟨0, _⟩ => rfl | ⟨1, _⟩ => (show j.val = 0 + j.val; omega)))
theorem in_v37 (j : Fin 64) : H0 m c (Proc.devRef .tc main_v37) (ix2 (0 : Fin 1) j) = A4 m c (ix2 (⟨128, by omega⟩ : Fin 131) j) :=
  (congrFun (stage_v37 m c) _).trans
    (extractStridedSlice_apply ![128, 0] _ slices_S131x64_S1x64_128_0 (ix2 (0 : Fin 1) j) (ix2 (⟨128, by omega⟩ : Fin 131) j)
      (fun a => by match a with | ⟨0, _⟩ => rfl | ⟨1, _⟩ => (show j.val = 0 + j.val; omega)))
theorem in_v38 (r : Fin 2) (j : Fin 64) : H0 m c (Proc.devRef .tc main_v38) (ix2 r j) = A4 m c (ix2 (⟨129 + r.val, by omega⟩ : Fin 131) j) :=
  (congrFun (stage_v38 m c) _).trans
    (extractStridedSlice_apply ![129, 0] _ slices_S131x64_S2x64_129_0 (ix2 r j) (ix2 (⟨129 + r.val, by omega⟩ : Fin 131) j)
      (fun a => by match a with | ⟨0, _⟩ => rfl | ⟨1, _⟩ => (show j.val = 0 + j.val; omega)))
theorem in_v39 (j : Fin 64) : H0 m c (Proc.devRef .tc main_v39) (ix2 (0 : Fin 1) j) = A5 m c (ix1 j) :=
  (congrFun (stage_v39 m c) _).trans (shapeCast_a_1a_apply _ shapeCasts_S64_S1x64 0 j)
theorem in_v40 (j : Fin 64) : H0 m c (Proc.devRef .tc main_v40) (ix2 (0 : Fin 1) j) = A7 m c (ix1 j) :=
  (congrFun (stage_v40 m c) _).trans (shapeCast_a_1a_apply _ shapeCasts_S64_S1x64 0 j)
theorem in_v41 (j : Fin 64) : H0 m c (Proc.devRef .tc main_v41) (ix2 (0 : Fin 1) j) = A13 m c (ix1 j) :=
  (congrFun (stage_v41 m c) _).trans (shapeCast_a_1a_apply _ shapeCasts_S64_S1x64 0 j)

end Cert.Val

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Val.EdgeSpec.lean ====
/-
  The arithmetic the edge stage's two sides share, over the extended reals, with no program in sight.

  * silu x = x · logistic x. The kernel multiplies a value by the matrix unit's logistic of it; the host writes
    x · (1 / (1 + exp (−x))) with the constant one given by its f32 word. Both are this one function.
  * A sum over 131 terms read as 64 + 64 + 1 + 2: the first dense layer contracts the concatenation
    [h_row | h_col | ‖d‖² | edge_attr] against a 131-row weight, and the kernel takes the four bands separately.
    Only commutativity and associativity of + are used, so no finiteness is needed.
-/
import Idealize.ShloMosaic.PureOps.Ideal.Laws
import Idealize.ShloMosaic.Lib.IdealHost

noncomputable section

namespace Cert.Val

open Idealize.ShloMosaic

/-- silu x = x · logistic x on the extended reals. -/
def silu (x : EReal) : EReal := x * Ideal.logistic x

/-- The kernel's spelling: the value times the logistic of the value. -/
theorem silu_kernel (x : Ideal .f32) : FloatOps.mulf x (FloatOps.logistic x) = silu x := rfl

/-- The host's spelling: x · (1 / (1 + exp (−x))), the two ones given by the f32 word of 1. -/
theorem silu_host (x : Ideal .f32) :
    FloatOps.mulf x (FloatOps.hostDivf (FloatOps.ofBits .f32 0x3F800000#32)
      (FloatOps.addf (FloatOps.ofBits .f32 0x3F800000#32) (FloatOps.hostUnary .exp (FloatOps.hostNegf x)))) = silu x := by
  show x * Ideal.div (Ideal.ofBits .f32 0x3F800000#32) (Ideal.ofBits .f32 0x3F800000#32 + Ideal.exp (-x)) = silu x
  rw [Ideal.ofBits_one_f32]
  rfl

/-- A sum of 131 terms as the bands 0..63, 64..127, 128 and 129..130. -/
theorem sum_split_131 {M : Type*} [AddCommMonoid M] (f : Fin 131 → M) :
    ∑ k : Fin 131, f k
      = (((∑ k : Fin 64, f ⟨k.val, by omega⟩) + ∑ k : Fin 64, f ⟨64 + k.val, by omega⟩) + f ⟨128, by omega⟩)
        + (f ⟨129, by omega⟩ + f ⟨130, by omega⟩) := by
  have h128 : ∑ k : Fin 128, f ⟨k.val, by omega⟩
      = (∑ k : Fin 64, f ⟨k.val, by omega⟩) + ∑ k : Fin 64, f ⟨64 + k.val, by omega⟩ :=
    (Fin.sum_univ_add (a := 64) (b := 64) (fun k : Fin (64 + 64) => f ⟨k.val, by omega⟩)).trans
      (congrArg₂ (· + ·) (Finset.sum_congr rfl fun k _ => congrArg f (Fin.ext rfl))
        (Finset.sum_congr rfl fun k _ => congrArg f (Fin.ext rfl)))
  rw [Fin.sum_univ_castSucc, Fin.sum_univ_castSucc, Fin.sum_univ_castSucc, add_assoc (_ + _) _ _]
  refine congrArg₂ (· + ·) (congrArg₂ (· + ·) ?_ (congrArg f (Fin.ext rfl)))
    (congrArg₂ (· + ·) (congrArg f (Fin.ext rfl)) (congrArg f (Fin.ext rfl)))
  exact (Finset.sum_congr rfl fun k _ => congrArg f (Fin.ext rfl)).trans h128

end Cert.Val

end
-- ==== Proof.Val.EdgeRowK.lean ====
/-
  The edge body's arithmetic, one row at a time, at the ideal values.

  A block of 6400 edges goes through three dense layers and a clamp. Read at row p:
    pre1(p, j)      = Σ_{k<64} hrow(p,k)·Wa(k,j) + Σ_{k<64} hcol(p,k)·Wb(k,j) + (Σ_{k<3} d(p,k)²)·wr(j)
                      + (ea(p,0)·we(0,j) + ea(p,1)·we(1,j))                       (the bias is added in the next part)
    e(p, j)         = silu (pre1(p,j) + b1(j))
    edge_feat(p, j) = silu (Σ_k e(p,k)·W2(k,j) + b2(j))
    c1(p, j)        = silu (Σ_k edge_feat(p,k)·Wc1(k,j) + bc1(j))
    scale(p)        = Σ_k c1(p,k)·Wc2(k,0)
    trans(p, c)     = min(hi, max(lo, d(p,c)·scale(p)))
  Changes of float format are the identity on extended reals; a product into the zero accumulator is the plain sum over
  the contracted axis; a row [1,64] laid over 6400 rows reads its one row; a column [6400,1] laid over the columns reads
  its row. Every statement is at an explicit index (row p, column j) over variables for the loaded blocks.
-/
import proofs.«177907_j11751030522785_2_alg».proof.Proof.Gen.KernelIdeal.Skeleton
import proofs.«177907_j11751030522785_2_alg».proof.Proof.LibMatmulSum
import proofs.«177907_j11751030522785_2_alg».proof.Proof.LibKeepdims
import proofs.«177907_j11751030522785_2_alg».proof.Proof.Val.EdgeSpec
import Idealize.ShloMosaic.Lib.ValueLayout
import Idealize.ShloMosaic.Lib.ValueIdx
import Idealize.ShloMosaic.Lib.Pipeline.Value
import Idealize.ShloMosaic.PureOps.Ideal.Laws

noncomputable section

namespace Cert.Val

open Idealize.ShloMosaic Idealize.ShloMosaic.ValueIdx Cert.KernelIdeal Cert.KernelIdeal.Gen

/-! ## The two products' index facts -/

/-- [6400,64] × [64,64]: one contracted axis of extent 64, left axis 1 against right axis 0. -/
theorem plain_64x64 : Cert.LibMatmulSum.Plain dot_S6400x64_S64x64_S6400x64_1_0_0_1_n_n where
  rank := rfl
  size := rfl
  l0 := fun i q => by
    unfold DotDims.lhsIdx
    rw [dif_neg (show ¬(0 : Fin S6400x64.rank) ∈ dot_S6400x64_S64x64_S6400x64_1_0_0_1_n_n.lhsBatch by decide),
      dif_pos (show (0 : Fin S6400x64.rank) ∈ dot_S6400x64_S64x64_S6400x64_1_0_0_1_n_n.lhsNonContracting by decide)]
    rfl
  l1 := fun i q => dot_S6400x64_S64x64_S6400x64_1_0_0_1_n_n.lhsIdx_val_of_single rfl i q
  r0 := fun i q => dot_S6400x64_S64x64_S6400x64_1_0_0_1_n_n.rhsIdx_val_of_single rfl i q
  r1 := fun i q => by
    unfold DotDims.rhsIdx
    rw [dif_neg (show ¬(1 : Fin S64x64.rank) ∈ dot_S6400x64_S64x64_S6400x64_1_0_0_1_n_n.rhsBatch by decide),
      dif_pos (show (1 : Fin S64x64.rank) ∈ dot_S6400x64_S64x64_S6400x64_1_0_0_1_n_n.rhsNonContracting by decide)]
    rfl

/-- [6400,64] × [64,1]: the same with one result column. -/
theorem plain_64x1 : Cert.LibMatmulSum.Plain dot_S6400x64_S64x1_S6400x1_1_0_0_1_n_n where
  rank := rfl
  size := rfl
  l0 := fun i q => by
    unfold DotDims.lhsIdx
    rw [dif_neg (show ¬(0 : Fin S6400x64.rank) ∈ dot_S6400x64_S64x1_S6400x1_1_0_0_1_n_n.lhsBatch by decide),
      dif_pos (show (0 : Fin S6400x64.rank) ∈ dot_S6400x64_S64x1_S6400x1_1_0_0_1_n_n.lhsNonContracting by decide)]
    rfl
  l1 := fun i q => dot_S6400x64_S64x1_S6400x1_1_0_0_1_n_n.lhsIdx_val_of_single rfl i q
  r0 := fun i q => dot_S6400x64_S64x1_S6400x1_1_0_0_1_n_n.rhsIdx_val_of_single rfl i q
  r1 := fun i q => by
    unfold DotDims.rhsIdx
    rw [dif_neg (show ¬(1 : Fin S64x1.rank) ∈ dot_S6400x64_S64x1_S6400x1_1_0_0_1_n_n.rhsBatch by decide),
      dif_pos (show (1 : Fin S64x1.rank) ∈ dot_S6400x64_S64x1_S6400x1_1_0_0_1_n_n.rhsNonContracting by decide)]
    rfl

/-! ## The non-pointwise operations at (p, j) -/

/-- A 64-wide product into the zero accumulator, at (p, j). -/
theorem mm64_at {φ₁ φ₂ : FTy} (l : FVec Ideal S6400x64 φ₁) (r : FVec Ideal S64x64 φ₂) (p : Fin 6400) (j : Fin 64) :
    matmul dot_S6400x64_S64x64_S6400x64_1_0_0_1_n_n none l r (constant S6400x64 .f32 0x00000000#32) (ix2 p j)
      = ∑ k : Fin 64, l (ix2 p k) * r (ix2 k j) :=
  Cert.LibMatmulSum.matmul_zero_at plain_64x64 none l r p j

/-- The one-column product into the zero accumulator, at (p, 0). -/
theorem mm1_at {φ₁ φ₂ : FTy} (l : FVec Ideal S6400x64 φ₁) (r : FVec Ideal S64x1 φ₂) (p : Fin 6400) (u : Fin 1) :
    matmul dot_S6400x64_S64x1_S6400x1_1_0_0_1_n_n none l r (constant S6400x1 .f32 0x00000000#32) (ix2 p u)
      = ∑ k : Fin 64, l (ix2 p k) * r (ix2 k u) :=
  Cert.LibMatmulSum.matmul_zero_at plain_64x1 none l r p u

/-- A bias row laid over the 6400 rows reads its one row. -/
theorem row_at (b : FVec Ideal S1x64 .f32) (p : Fin 6400) (j : Fin 64) :
    broadcastTo S6400x64 (shapeCast S1x64 b shapeCasts_S1x64_S1x64) broadcasts_S1x64_S6400x64 (ix2 p j)
      = b (ix2 (0 : Fin 1) j) := by
  rw [shapeCast_self]
  exact broadcastTo_1b_ab_apply b broadcasts_S1x64_S6400x64 p j

/-- The logistic at an index. -/
theorem logistic_at {s : Shape} {φ : FTy} (a : FVec Ideal s φ) (i : s.Idx) : logistic a i = Ideal.logistic (a i) := rfl

/-- The cast of the [6400,5] block to its own shape is the block. -/
theorem pay1_eq (x2 : FVec Ideal S6400x5 .f32) : k0_pay1 (F := Ideal) x2 = x2 :=
  shapeCast_self x2 shapeCasts_S6400x5_S6400x5

/-- The coordinate differences are the block's first three columns. -/
theorem pay2_at (x2 : FVec Ideal S6400x5 .f32) (p : Fin 6400) (c : Fin 3) :
    k0_pay2 (F := Ideal) x2 (ix2 p c) = x2 (ix2 p ⟨c.val, by omega⟩) := by
  unfold k0_pay2
  rw [pay1_eq]
  exact slice2_axis1_apply 0 x2 slices_S6400x5_o0_0_S6400x3 p c ⟨c.val, by omega⟩ (Nat.zero_add _).symm

/-- A lane sum over the three coordinates, at row p. -/
theorem lanesum_at (v : FVec Ideal S6400x3 .f32) (p : Fin 6400) :
    multiReduction .add [1] S6400 v 0x00000000#32 reduces_S6400x3_S6400 (.inl rfl) rfl (ix1 p) = ∑ k : Fin 3, v (ix2 p k) := by
  refine (Ideal.multiReduction_add_single v 0x00000000#32 reduces_S6400x3_S6400 (.inl rfl) rfl (ix1 p)).trans ?_
  exact Finset.sum_congr rfl fun k _ => congrArg v (funext fun a => Fin.ext (by match a with | ⟨0, _⟩ => rfl | ⟨1, _⟩ => rfl))

/-- A length-6400 vector kept as a column and laid over 64 columns reads its entry p. -/
theorem col_at (v : FVec Ideal S6400 .f32) (p : Fin 6400) (j : Fin 64) :
    broadcastTo S6400x64 (shapeCast S6400x1 v shapeCasts_S6400_S6400x1) broadcasts_S6400x1_S6400x64 (ix2 p j) = v (ix1 p) :=
  (broadcastTo_a1_ab_apply _ broadcasts_S6400x1_S6400x64 p j).trans (shapeCast_a_a1_apply v shapeCasts_S6400_S6400x1 p 0)

/-- The squared length of the coordinate difference, laid over the 64 columns. -/
theorem radial_at (x2 : FVec Ideal S6400x5 .f32) (p : Fin 6400) (j : Fin 64) :
    broadcastTo S6400x64 (shapeCast S6400x1 (multiReduction .add [1] S6400 (mulf (k0_pay2 (F := Ideal) x2) (k0_pay2 (F := Ideal) x2))
        0x00000000#32 reduces_S6400x3_S6400 (.inl rfl) rfl) shapeCasts_S6400_S6400x1) broadcasts_S6400x1_S6400x64 (ix2 p j)
      = ∑ k : Fin 3, x2 (ix2 p ⟨k.val, by omega⟩) * x2 (ix2 p ⟨k.val, by omega⟩) := by
  refine (col_at _ p j).trans ?_
  refine (lanesum_at _ p).trans ?_
  exact Finset.sum_congr rfl fun k _ => by rw [mulf_apply, pay2_at]

/-- The first edge attribute (column 3 of the block), laid over the 64 columns. -/
theorem ea0_at (x2 : FVec Ideal S6400x5 .f32) (p : Fin 6400) (j : Fin 64) :
    broadcastTo S6400x64 (extractStridedSlice S6400x1 ![0, 0]
        (extractStridedSlice S6400x2 ![0, 3] (k0_pay1 (F := Ideal) x2) slices_S6400x5_o0_3_S6400x2) slices_S6400x2_o0_0_S6400x1)
        broadcasts_S6400x1_S6400x64 (ix2 p j)
      = x2 (ix2 p ⟨3, by omega⟩) := by
  rw [pay1_eq]
  refine (broadcastTo_a1_ab_apply _ broadcasts_S6400x1_S6400x64 p j).trans ?_
  refine (slice2_axis1_apply 0 _ slices_S6400x2_o0_0_S6400x1 p (0 : Fin 1) (0 : Fin 2) rfl).trans ?_
  exact slice2_axis1_apply 3 x2 slices_S6400x5_o0_3_S6400x2 p (0 : Fin 2) ⟨3, by omega⟩ rfl

/-- The second edge attribute (column 4 of the block), laid over the 64 columns. -/
theorem ea1_at (x2 : FVec Ideal S6400x5 .f32) (p : Fin 6400) (j : Fin 64) :
    broadcastTo S6400x64 (extractStridedSlice S6400x1 ![0, 1]
        (extractStridedSlice S6400x2 ![0, 3] (k0_pay1 (F := Ideal) x2) slices_S6400x5_o0_3_S6400x2) slices_S6400x2_o0_1_S6400x1)
        broadcasts_S6400x1_S6400x64 (ix2 p j)
      = x2 (ix2 p ⟨4, by omega⟩) := by
  rw [pay1_eq]
  refine (broadcastTo_a1_ab_apply _ broadcasts_S6400x1_S6400x64 p j).trans ?_
  refine (slice2_axis1_apply 1 _ slices_S6400x2_o0_1_S6400x1 p (0 : Fin 1) (1 : Fin 2) rfl).trans ?_
  exact slice2_axis1_apply 3 x2 slices_S6400x5_o0_3_S6400x2 p (1 : Fin 2) ⟨4, by omega⟩ rfl

/-- The first edge-attribute weight row, laid over the 6400 rows. -/
theorem we0_at (x6 : FVec Ideal S2x64 .f32) (p : Fin 6400) (j : Fin 64) :
    broadcastTo S6400x64 (extractStridedSlice S1x64 ![0, 0] (shapeCast S2x64 x6 shapeCasts_S2x64_S2x64) slices_S2x64_o0_0_S1x64)
        broadcasts_S1x64_S6400x64 (ix2 p j)
      = x6 (ix2 (0 : Fin 2) j) := by
  rw [shapeCast_self]
  refine (broadcastTo_1b_ab_apply _ broadcasts_S1x64_S6400x64 p j).trans ?_
  exact slice2_axis0_apply 0 x6 slices_S2x64_o0_0_S1x64 (0 : Fin 1) j (0 : Fin 2) rfl

/-- The second edge-attribute weight row, laid over the 6400 rows. -/
theorem we1_at (x6 : FVec Ideal S2x64 .f32) (p : Fin 6400) (j : Fin 64) :
    broadcastTo S6400x64 (extractStridedSlice S1x64 ![1, 0] (shapeCast S2x64 x6 shapeCasts_S2x64_S2x64) slices_S2x64_o1_0_S1x64)
        broadcasts_S1x64_S6400x64 (ix2 p j)
      = x6 (ix2 (1 : Fin 2) j) := by
  rw [shapeCast_self]
  refine (broadcastTo_1b_ab_apply _ broadcasts_S1x64_S6400x64 p j).trans ?_
  exact slice2_axis0_apply 1 x6 slices_S2x64_o1_0_S1x64 (0 : Fin 1) j (1 : Fin 2) rfl

/-- The per-edge scale column laid over the three coordinates. -/
theorem scale_at (v : FVec Ideal S6400x1 .f32) (p : Fin 6400) (c : Fin 3) :
    broadcastTo S6400x3 v broadcasts_S6400x1_S6400x3 (ix2 p c) = v (ix2 p (0 : Fin 1)) :=
  broadcastTo_a1_ab_apply v broadcasts_S6400x1_S6400x3 p c

/-! ## The payloads at (p, j) -/

/-- The first layer before its bias: the four bands of the 131-wide contraction. -/
theorem pay3_at (x0 x1 : FVec Ideal S6400x64 .bf16) (x2 : FVec Ideal S6400x5 .f32) (x3 x4 : FVec Ideal S64x64 .f32)
    (x5 : FVec Ideal S1x64 .f32) (x6 : FVec Ideal S2x64 .f32) (p : Fin 6400) (j : Fin 64) :
    k0_pay3 (F := Ideal) x0 x1 x2 x3 x4 x5 x6 (ix2 p j)
      = (((∑ k : Fin 64, x0 (ix2 p k) * x3 (ix2 k j)) + ∑ k : Fin 64, x1 (ix2 p k) * x4 (ix2 k j))
          + (∑ k : Fin 3, x2 (ix2 p ⟨k.val, by omega⟩) * x2 (ix2 p ⟨k.val, by omega⟩)) * x5 (ix2 (0 : Fin 1) j))
        + (x2 (ix2 p ⟨3, by omega⟩) * x6 (ix2 (0 : Fin 2) j) + x2 (ix2 p ⟨4, by omega⟩) * x6 (ix2 (1 : Fin 2) j)) := by
  unfold k0_pay3
  simp only [addf_apply, mulf_apply, mm64_at, truncf_apply, row_at, ea0_at, ea1_at, we0_at, we1_at]
  simp only [shapeCast_self]
  exact congrArg (fun t => (∑ k : Fin 64, x0 (ix2 p k) * x3 (ix2 k j)) + (∑ k : Fin 64, x1 (ix2 p k) * x4 (ix2 k j))
      + t * x5 (ix2 (0 : Fin 1) j)
      + (x2 (ix2 p ⟨3, by omega⟩) * x6 (ix2 (0 : Fin 2) j) + x2 (ix2 p ⟨4, by omega⟩) * x6 (ix2 (1 : Fin 2) j)))
    (radial_at x2 p j)

/-- The second layer's output from the first layer's pre-bias value. -/
theorem pay4_at (v39 : FVec Ideal S6400x64 .f32) (x7 : FVec Ideal S1x64 .f32) (x8 : FVec Ideal S64x64 .f32)
    (x9 : FVec Ideal S1x64 .f32) (p : Fin 6400) (j : Fin 64) :
    k0_pay4 (F := Ideal) v39 x7 x8 x9 (ix2 p j)
      = silu ((∑ k : Fin 64, silu (v39 (ix2 p k) + x7 (ix2 (0 : Fin 1) k)) * x8 (ix2 k j)) + x9 (ix2 (0 : Fin 1) j)) := by
  unfold k0_pay4
  simp only [addf_apply, mulf_apply, logistic_at, mm64_at, truncf_apply, row_at]
  rfl

/-- The stored edge feature is the second layer's output (the narrowing is the identity on extended reals). -/
theorem pay6_at (v39 : FVec Ideal S6400x64 .f32) (x7 : FVec Ideal S1x64 .f32) (x8 : FVec Ideal S64x64 .f32)
    (x9 : FVec Ideal S1x64 .f32) (i : S6400x64.Idx) :
    k0_pay6 (F := Ideal) v39 x7 x8 x9 i = k0_pay4 (F := Ideal) v39 x7 x8 x9 i := rfl

/-- The clamped translation from the coordinate difference and the second layer's output. -/
theorem pay5_at (v6 : FVec Ideal S6400x3 .f32) (v39 : FVec Ideal S6400x64 .f32) (x7 : FVec Ideal S1x64 .f32)
    (x8 : FVec Ideal S64x64 .f32) (x9 : FVec Ideal S1x64 .f32) (x10 : FVec Ideal S64x64 .f32) (x11 : FVec Ideal S1x64 .f32)
    (x12 : FVec Ideal S64x1 .f32) (p : Fin 6400) (c : Fin 3) :
    k0_pay5 (F := Ideal) v6 v39 x7 x8 x9 x10 x11 x12 (ix2 p c)
      = min (FloatOps.ofBits (F := Ideal) .f32 0x42C80000#32) (max (FloatOps.ofBits (F := Ideal) .f32 0xC2C80000#32)
          (v6 (ix2 p c) * ∑ k : Fin 64,
            silu ((∑ k' : Fin 64, k0_pay4 (F := Ideal) v39 x7 x8 x9 (ix2 p k') * x10 (ix2 k' k)) + x11 (ix2 (0 : Fin 1) k))
              * x12 (ix2 k (0 : Fin 1)))) := by
  unfold k0_pay5
  simp only [minimumf_apply, maximumf_apply, broadcast_apply, addf_apply, mulf_apply, logistic_at, scale_at, mm1_at, mm64_at,
    truncf_apply, row_at]
  rfl

end Cert.Val

end
-- ==== Proof.Val.EdgeRowR.lean ====
/-
  The reference's edge stages, one edge at a time, at the ideal values.

  The reference concatenates [h_row | h_col | ‖d‖² | edge_attr] into 131 columns and contracts it with the 131-row
  weight; read at edge e and column j, with the sum taken band by band (64 + 64 + 1 + 2), that is
    Σ_{k<64} h_row(e,k)·W(k,j) + Σ_{k<64} h_col(e,k)·W(64+k,j) + (Σ_{k<3} d(e,k)²)·W(128,j)
      + (ea(e,0)·W(129,j) + ea(e,1)·W(130,j)),
  then the bias, silu, and two more dense layers with silu, the one-column product, and the clamp of d·scale.
  A concatenation is read at an index in the piece whose span holds the column; a bias vector laid out as a row and
  repeated down the rows reads its entry j; the host's silu is x · (1 / (1 + exp (−x))).
-/
import proofs.«177907_j11751030522785_2_alg».proof.Proof.Gen.ReferenceIdeal.Read
import proofs.«177907_j11751030522785_2_alg».proof.Proof.Val.EdgeSpec
import Idealize.ShloMosaic.Lib.ValueIdx
import Idealize.ShloMosaic.Lib.Pipeline.Value
import Idealize.ShloMosaic.PureOps.Ideal.Laws

noncomputable section

namespace Cert.Val

open Idealize.ShloMosaic Idealize.ShloMosaic.ValueIdx Cert.ReferenceIdeal Cert.ReferenceIdeal.Gen Cert.ReferenceIdeal.Read

/-! ## The concatenation [h_row | h_col | ‖d‖² | edge_attr] at a column of each band -/

theorem ref_cat_hrow (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (e : Fin 800000) (k : Fin 64) :
    val_main_v36 (F := Ideal) a0 a1 a2 a3 (ix2 e ⟨k.val, by omega⟩) = val_main_v28 (F := Ideal) a0 a2 (ix2 e k) := by
  unfold val_main_v36
  exact concatenate_apply_piece (1 : Fin S800000x131.rank) [⟨S800000x64, val_main_v28 (F := Ideal) a0 a2⟩, ⟨S800000x64, val_main_v35 (F := Ideal) a0 a2⟩, ⟨S800000x1, val_main_v21 (F := Ideal) a1 a2⟩, ⟨S800000x2, a3⟩] concatenates_S800000x64_S800000x64_S800000x1_S800000x2_S800000x131_d1 (ix2 e ⟨k.val, by omega⟩)
    0 (by show (0 : Nat) < 4; decide) S800000x64 (val_main_v28 (F := Ideal) a0 a2) rfl rfl 0 rfl (ix2 e k) (fun b hb => by match b with | ⟨0, _⟩ => rfl | ⟨1, _⟩ => exact absurd rfl hb) (Nat.zero_add _)

theorem ref_cat_hcol (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (e : Fin 800000) (k : Fin 64) :
    val_main_v36 (F := Ideal) a0 a1 a2 a3 (ix2 e ⟨64 + k.val, by omega⟩) = val_main_v35 (F := Ideal) a0 a2 (ix2 e k) := by
  unfold val_main_v36
  exact concatenate_apply_piece (1 : Fin S800000x131.rank) [⟨S800000x64, val_main_v28 (F := Ideal) a0 a2⟩, ⟨S800000x64, val_main_v35 (F := Ideal) a0 a2⟩, ⟨S800000x1, val_main_v21 (F := Ideal) a1 a2⟩, ⟨S800000x2, a3⟩] concatenates_S800000x64_S800000x64_S800000x1_S800000x2_S800000x131_d1 (ix2 e ⟨64 + k.val, by omega⟩)
    1 (by show (1 : Nat) < 4; decide) S800000x64 (val_main_v35 (F := Ideal) a0 a2) rfl rfl 64 rfl (ix2 e k) (fun b hb => by match b with | ⟨0, _⟩ => rfl | ⟨1, _⟩ => exact absurd rfl hb) rfl

theorem ref_cat_radial (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (e : Fin 800000) :
    val_main_v36 (F := Ideal) a0 a1 a2 a3 (ix2 e ⟨128, by omega⟩) = val_main_v21 (F := Ideal) a1 a2 (ix2 e (0 : Fin 1)) := by
  unfold val_main_v36
  exact concatenate_apply_piece (1 : Fin S800000x131.rank) [⟨S800000x64, val_main_v28 (F := Ideal) a0 a2⟩, ⟨S800000x64, val_main_v35 (F := Ideal) a0 a2⟩, ⟨S800000x1, val_main_v21 (F := Ideal) a1 a2⟩, ⟨S800000x2, a3⟩] concatenates_S800000x64_S800000x64_S800000x1_S800000x2_S800000x131_d1 (ix2 e ⟨128, by omega⟩)
    2 (by show (2 : Nat) < 4; decide) S800000x1 (val_main_v21 (F := Ideal) a1 a2) rfl rfl 128 rfl (ix2 e (0 : Fin 1)) (fun b hb => by match b with | ⟨0, _⟩ => rfl | ⟨1, _⟩ => exact absurd rfl hb) rfl

theorem ref_cat_ea (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (e : Fin 800000) (r : Fin 2) :
    val_main_v36 (F := Ideal) a0 a1 a2 a3 (ix2 e ⟨129 + r.val, by omega⟩) = a3 (ix2 e r) := by
  unfold val_main_v36
  exact concatenate_apply_piece (1 : Fin S800000x131.rank) [⟨S800000x64, val_main_v28 (F := Ideal) a0 a2⟩, ⟨S800000x64, val_main_v35 (F := Ideal) a0 a2⟩, ⟨S800000x1, val_main_v21 (F := Ideal) a1 a2⟩, ⟨S800000x2, a3⟩] concatenates_S800000x64_S800000x64_S800000x1_S800000x2_S800000x131_d1 (ix2 e ⟨129 + r.val, by omega⟩)
    3 (by show (3 : Nat) < 4; decide) S800000x2 a3 rfl rfl 129 rfl (ix2 e r) (fun b hb => by match b with | ⟨0, _⟩ => rfl | ⟨1, _⟩ => exact absurd rfl hb) rfl

/-- The squared length of the coordinate difference, kept as a column. -/
theorem ref_radial (a1 : (⟨S50000x3, .f32⟩ : BufTy).Contents (Elt Ideal)) (a2 : (⟨S2x800000, .i32⟩ : BufTy).Contents (Elt Ideal))
    (e : Fin 800000) (u : Fin 1) :
    val_main_v21 (F := Ideal) a1 a2 (ix2 e u)
      = ∑ k : Fin 3, val_main_v18 (F := Ideal) a1 a2 (ix2 e k) * val_main_v18 (F := Ideal) a1 a2 (ix2 e k) := by
  rw [val_main_v21_apply, val_main_v20_apply, val_main_cst_apply]
  show Ideal.ofBits .f32 0x00000000#32 + _ = _
  rw [Ideal.ofBits_zero_f32, zero_add]
  refine Finset.sum_congr rfl fun k _ => ?_
  rw [val_main_v19_apply]
  exact congrArg (fun i => val_main_v18 (F := Ideal) a1 a2 i * val_main_v18 (F := Ideal) a1 a2 i)
    (show idx_main_v20 (idx_main_v21 (ix2 e u)) k = ix2 e k from funext fun a => Fin.ext (by match a with | ⟨0, _⟩ => rfl | ⟨1, _⟩ => rfl))

/-! ## A bias vector laid out as a row and repeated down the rows -/

theorem ref_bias39 (a5 : (⟨S64, .f32⟩ : BufTy).Contents (Elt Ideal)) (e : Fin 800000) (j : Fin 64) :
    val_main_v39 (F := Ideal) a5 (ix2 e j) = a5 (ix1 j) := by
  rw [val_main_v39_apply, val_main_v38_apply]
  exact congrArg a5 (funext fun a => Fin.ext (by match a with | ⟨0, _⟩ => rfl))

theorem ref_bias44 (a7 : (⟨S64, .f32⟩ : BufTy).Contents (Elt Ideal)) (e : Fin 800000) (j : Fin 64) :
    val_main_v44 (F := Ideal) a7 (ix2 e j) = a7 (ix1 j) := by
  rw [val_main_v44_apply, val_main_v43_apply]
  exact congrArg a7 (funext fun a => Fin.ext (by match a with | ⟨0, _⟩ => rfl))

theorem ref_bias49 (a13 : (⟨S64, .f32⟩ : BufTy).Contents (Elt Ideal)) (e : Fin 800000) (j : Fin 64) :
    val_main_v49 (F := Ideal) a13 (ix2 e j) = a13 (ix1 j) := by
  rw [val_main_v49_apply, val_main_v48_apply]
  exact congrArg a13 (funext fun a => Fin.ext (by match a with | ⟨0, _⟩ => rfl))

/-! ## The first layer before silu -/

/-- Stage %40 at (e, j): the four bands of the 131-wide contraction, and the bias. -/
theorem ref_pre1 (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (a4 : (⟨S131x64, .f32⟩ : BufTy).Contents (Elt Ideal)) (a5 : (⟨S64, .f32⟩ : BufTy).Contents (Elt Ideal)) (e : Fin 800000) (j : Fin 64) :
    val_main_v40 (F := Ideal) a0 a1 a2 a3 a4 a5 (ix2 e j)
      = ((((∑ k : Fin 64, val_main_v28 (F := Ideal) a0 a2 (ix2 e k) * a4 (ix2 ⟨k.val, by omega⟩ j))
            + ∑ k : Fin 64, val_main_v35 (F := Ideal) a0 a2 (ix2 e k) * a4 (ix2 ⟨64 + k.val, by omega⟩ j))
          + (∑ k : Fin 3, val_main_v18 (F := Ideal) a1 a2 (ix2 e k) * val_main_v18 (F := Ideal) a1 a2 (ix2 e k))
              * a4 (ix2 ⟨128, by omega⟩ j))
        + (a3 (ix2 e (0 : Fin 2)) * a4 (ix2 ⟨129, by omega⟩ j) + a3 (ix2 e (1 : Fin 2)) * a4 (ix2 ⟨130, by omega⟩ j)))
        + a5 (ix1 j) := by
  rw [val_main_v40_apply, val_main_v37_apply, ref_bias39]
  have hsum : (∑ k : Fin 131, val_main_v36 (F := Ideal) a0 a1 a2 a3 (lidx_main_v37 (ix2 e j) k) * a4 (ridx_main_v37 (ix2 e j) k))
      = ∑ k : Fin 131, val_main_v36 (F := Ideal) a0 a1 a2 a3 (ix2 e k) * a4 (ix2 k j) :=
    Finset.sum_congr rfl fun k _ => congrArg₂ (· * ·)
      (congrArg (val_main_v36 (F := Ideal) a0 a1 a2 a3) (funext fun a => Fin.ext (by match a with | ⟨0, _⟩ => rfl | ⟨1, _⟩ => rfl)))
      (congrArg a4 (funext fun a => Fin.ext (by match a with | ⟨0, _⟩ => rfl | ⟨1, _⟩ => rfl)))
  rw [hsum, sum_split_131]
  have e0 : val_main_v36 (F := Ideal) a0 a1 a2 a3 (ix2 e ⟨129, by omega⟩) = a3 (ix2 e (0 : Fin 2)) := ref_cat_ea a0 a1 a2 a3 e 0
  have e1 : val_main_v36 (F := Ideal) a0 a1 a2 a3 (ix2 e ⟨130, by omega⟩) = a3 (ix2 e (1 : Fin 2)) := ref_cat_ea a0 a1 a2 a3 e 1
  simp only [ref_cat_hrow, ref_cat_hcol, ref_cat_radial, ref_radial, e0, e1]
  rfl

/-- The host's silu of stage %40, at an index. -/
theorem ref_silu41 (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (a4 : (⟨S131x64, .f32⟩ : BufTy).Contents (Elt Ideal)) (a5 : (⟨S64, .f32⟩ : BufTy).Contents (Elt Ideal)) (i : S800000x64.Idx) :
    val_main_v41 (F := Ideal) a0 a1 a2 a3 a4 a5 i = silu (val_main_v40 (F := Ideal) a0 a1 a2 a3 a4 a5 i) := by
  rw [val_main_v41_apply, val_main_call0_v5_apply, val_main_call0_v4_apply, val_main_call0_cst_0_apply,
    val_main_call0_v3_apply, val_main_call0_v2_apply, val_main_call0_cst_apply, val_main_call0_v1_apply,
    val_main_call0_v0_apply]
  exact silu_host _

/-! ## The second layer -/

/-- Stage %45 at (e, j). -/
theorem ref_pre2 (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (a4 : (⟨S131x64, .f32⟩ : BufTy).Contents (Elt Ideal)) (a5 : (⟨S64, .f32⟩ : BufTy).Contents (Elt Ideal)) (a6 : (⟨S64x64, .f32⟩ : BufTy).Contents (Elt Ideal)) (a7 : (⟨S64, .f32⟩ : BufTy).Contents (Elt Ideal)) (e : Fin 800000) (j : Fin 64) :
    val_main_v45 (F := Ideal) a0 a1 a2 a3 a4 a5 a6 a7 (ix2 e j)
      = (∑ k : Fin 64, val_main_v41 (F := Ideal) a0 a1 a2 a3 a4 a5 (ix2 e k) * a6 (ix2 k j)) + a7 (ix1 j) := by
  rw [val_main_v45_apply, val_main_v42_apply, ref_bias44]
  exact congrArg (· + a7 (ix1 j)) (Finset.sum_congr rfl fun k _ => congrArg₂ (· * ·)
    (congrArg (val_main_v41 (F := Ideal) a0 a1 a2 a3 a4 a5) (funext fun a => Fin.ext (by match a with | ⟨0, _⟩ => rfl | ⟨1, _⟩ => rfl)))
    (congrArg a6 (funext fun a => Fin.ext (by match a with | ⟨0, _⟩ => rfl | ⟨1, _⟩ => rfl))))

/-- The host's silu of stage %45, at an index. -/
theorem ref_silu46 (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (a4 : (⟨S131x64, .f32⟩ : BufTy).Contents (Elt Ideal)) (a5 : (⟨S64, .f32⟩ : BufTy).Contents (Elt Ideal)) (a6 : (⟨S64x64, .f32⟩ : BufTy).Contents (Elt Ideal)) (a7 : (⟨S64, .f32⟩ : BufTy).Contents (Elt Ideal)) (i : S800000x64.Idx) :
    val_main_v46 (F := Ideal) a0 a1 a2 a3 a4 a5 a6 a7 i = silu (val_main_v45 (F := Ideal) a0 a1 a2 a3 a4 a5 a6 a7 i) := by
  rw [val_main_v46_apply, val_main_call1_v5_apply, val_main_call1_v4_apply, val_main_call1_cst_0_apply,
    val_main_call1_v3_apply, val_main_call1_v2_apply, val_main_call1_cst_apply, val_main_call1_v1_apply,
    val_main_call1_v0_apply]
  exact silu_host _

/-! ## The coordinate head -/

/-- Stage %50 at (e, j). -/
theorem ref_pre3 (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (a4 : (⟨S131x64, .f32⟩ : BufTy).Contents (Elt Ideal)) (a5 : (⟨S64, .f32⟩ : BufTy).Contents (Elt Ideal)) (a6 : (⟨S64x64, .f32⟩ : BufTy).Contents (Elt Ideal)) (a7 : (⟨S64, .f32⟩ : BufTy).Contents (Elt Ideal)) (a12 : (⟨S64x64, .f32⟩ : BufTy).Contents (Elt Ideal)) (a13 : (⟨S64, .f32⟩ : BufTy).Contents (Elt Ideal)) (e : Fin 800000) (j : Fin 64) :
    val_main_v50 (F := Ideal) a0 a1 a2 a3 a4 a5 a6 a7 a12 a13 (ix2 e j)
      = (∑ k : Fin 64, val_main_v46 (F := Ideal) a0 a1 a2 a3 a4 a5 a6 a7 (ix2 e k) * a12 (ix2 k j)) + a13 (ix1 j) := by
  rw [val_main_v50_apply, val_main_v47_apply, ref_bias49]
  exact congrArg (· + a13 (ix1 j)) (Finset.sum_congr rfl fun k _ => congrArg₂ (· * ·)
    (congrArg (val_main_v46 (F := Ideal) a0 a1 a2 a3 a4 a5 a6 a7) (funext fun a => Fin.ext (by match a with | ⟨0, _⟩ => rfl | ⟨1, _⟩ => rfl)))
    (congrArg a12 (funext fun a => Fin.ext (by match a with | ⟨0, _⟩ => rfl | ⟨1, _⟩ => rfl))))

/-- The host's silu of stage %50, at an index. -/
theorem ref_silu51 (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (a4 : (⟨S131x64, .f32⟩ : BufTy).Contents (Elt Ideal)) (a5 : (⟨S64, .f32⟩ : BufTy).Contents (Elt Ideal)) (a6 : (⟨S64x64, .f32⟩ : BufTy).Contents (Elt Ideal)) (a7 : (⟨S64, .f32⟩ : BufTy).Contents (Elt Ideal)) (a12 : (⟨S64x64, .f32⟩ : BufTy).Contents (Elt Ideal)) (a13 : (⟨S64, .f32⟩ : BufTy).Contents (Elt Ideal)) (i : S800000x64.Idx) :
    val_main_v51 (F := Ideal) a0 a1 a2 a3 a4 a5 a6 a7 a12 a13 i = silu (val_main_v50 (F := Ideal) a0 a1 a2 a3 a4 a5 a6 a7 a12 a13 i) := by
  rw [val_main_v51_apply, val_main_call2_v5_apply, val_main_call2_v4_apply, val_main_call2_cst_0_apply,
    val_main_call2_v3_apply, val_main_call2_v2_apply, val_main_call2_cst_apply, val_main_call2_v1_apply,
    val_main_call2_v0_apply]
  exact silu_host _

/-- Stage %55 at (e, c): the coordinate difference times the per-edge scale, clamped between the two literal words. -/
theorem ref_trans (a0 : (⟨S50000x64, .f32⟩ : BufTy).Contents (Elt Ideal)) (a1 : (⟨S50000x3, .f32⟩ : BufTy).Contents (Elt Ideal)) (a2 : (⟨S2x800000, .i32⟩ : BufTy).Contents (Elt Ideal)) (a3 : (⟨S800000x2, .f32⟩ : BufTy).Contents (Elt Ideal)) (a4 : (⟨S131x64, .f32⟩ : BufTy).Contents (Elt Ideal)) (a5 : (⟨S64, .f32⟩ : BufTy).Contents (Elt Ideal)) (a6 : (⟨S64x64, .f32⟩ : BufTy).Contents (Elt Ideal)) (a7 : (⟨S64, .f32⟩ : BufTy).Contents (Elt Ideal)) (a12 : (⟨S64x64, .f32⟩ : BufTy).Contents (Elt Ideal)) (a13 : (⟨S64, .f32⟩ : BufTy).Contents (Elt Ideal)) (a14 : (⟨S64x1, .f32⟩ : BufTy).Contents (Elt Ideal)) (e : Fin 800000) (c : Fin 3) :
    val_main_v55 (F := Ideal) a0 a1 a2 a3 a4 a5 a6 a7 a12 a13 a14 (ix2 e c)
      = min (FloatOps.ofBits (F := Ideal) .f32 0x42C80000#32) (max (FloatOps.ofBits (F := Ideal) .f32 0xC2C80000#32)
          (val_main_v18 (F := Ideal) a1 a2 (ix2 e c)
            * ∑ k : Fin 64, val_main_v51 (F := Ideal) a0 a1 a2 a3 a4 a5 a6 a7 a12 a13 (ix2 e k) * a14 (ix2 k (0 : Fin 1)))) := by
  rw [val_main_v55_apply, val_main_call3_v4_apply, val_main_call3_v3_apply, val_main_cst_8_apply, val_main_call3_v2_apply,
    val_main_call3_v1_apply, val_main_call3_v0_apply, val_main_cst_7_apply, val_main_v54_apply, val_main_v53_apply,
    val_main_v52_apply]
  exact congrArg (fun t => min (FloatOps.ofBits (F := Ideal) .f32 0x42C80000#32) (max (FloatOps.ofBits (F := Ideal) .f32 0xC2C80000#32)
      (val_main_v18 (F := Ideal) a1 a2 (ix2 e c) * t)))
    (Finset.sum_congr rfl fun k _ => congrArg₂ (· * ·)
      (congrArg (val_main_v51 (F := Ideal) a0 a1 a2 a3 a4 a5 a6 a7 a12 a13) (funext fun a => Fin.ext (by match a with | ⟨0, _⟩ => rfl | ⟨1, _⟩ => rfl)))
      (congrArg a14 (funext fun a => Fin.ext (by match a with | ⟨0, _⟩ => rfl | ⟨1, _⟩ => rfl))))

end Cert.Val

end
-- ==== Proof.Val.EdgeRow.lean ====
/-
  One row of the edge kernel's two stored blocks against the reference's stages at the corresponding edge.

  Row p of a block of 6400 edges is edge e of the whole graph: its gathered node features, coordinate difference and
  edge attribute are the reference's at e, and the resident weight blocks are the reference's weights (the first layer's
  131 rows cut into the bands 0..63, 64..127, 128 and 129..130). Then, layer by layer,
    pre1 + b1        is the reference's first dense layer         (the 131-wide sum taken band by band),
    silu of it       is the reference's silu,
    edge_feat        is the second layer with silu,
    c1, scale, trans the coordinate head: a third layer with silu, the one-column product, and the clamp of d · scale.
  Each layer's sum over the previous layer is rewritten term by term; no distributivity or cancellation is used.
-/
import proofs.«177907_j11751030522785_2_alg».proof.Proof.Val.EdgeRowK
import proofs.«177907_j11751030522785_2_alg».proof.Proof.Val.EdgeRowR

noncomputable section

namespace Cert.Val

open Idealize.ShloMosaic Idealize.ShloMosaic.ValueIdx Cert.ReferenceIdeal

/-- The first dense layer with its bias, at (p, j), is the reference's stage %40 at (e, j). -/
theorem pre1_row (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal))
    (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal))
    (x0 x1 : FVec Ideal Cert.KernelIdeal.S6400x64 .bf16) (x2 : FVec Ideal Cert.KernelIdeal.S6400x5 .f32) (x3 x4 : FVec Ideal Cert.KernelIdeal.S64x64 .f32)
    (x5 : FVec Ideal Cert.KernelIdeal.S1x64 .f32) (x6 : FVec Ideal Cert.KernelIdeal.S2x64 .f32) (x7 : FVec Ideal Cert.KernelIdeal.S1x64 .f32)
    (p : Fin 6400) (e : Fin 800000)
    (h0 : ∀ k : Fin 64, x0 (ix2 p k) = Read.val_main_v28 (F := Ideal) a0 a2 (ix2 e k))
    (h1 : ∀ k : Fin 64, x1 (ix2 p k) = Read.val_main_v35 (F := Ideal) a0 a2 (ix2 e k))
    (h2d : ∀ k : Fin 3, x2 (ix2 p ⟨k.val, by omega⟩) = Read.val_main_v18 (F := Ideal) a1 a2 (ix2 e k))
    (h2a : ∀ k : Fin 2, x2 (ix2 p ⟨3 + k.val, by omega⟩) = a3 (ix2 e k))
    (h3 : ∀ k j : Fin 64, x3 (ix2 k j) = a4 (ix2 ⟨k.val, by omega⟩ j))
    (h4 : ∀ k j : Fin 64, x4 (ix2 k j) = a4 (ix2 ⟨64 + k.val, by omega⟩ j))
    (h5 : ∀ j : Fin 64, x5 (ix2 (0 : Fin 1) j) = a4 (ix2 ⟨128, by omega⟩ j))
    (h6 : ∀ (r : Fin 2) (j : Fin 64), x6 (ix2 r j) = a4 (ix2 ⟨129 + r.val, by omega⟩ j))
    (h7 : ∀ j : Fin 64, x7 (ix2 (0 : Fin 1) j) = a5 (ix1 j)) (j : Fin 64) :
    Cert.KernelIdeal.Gen.k0_pay3 x0 x1 x2 x3 x4 x5 x6 (F := Ideal) (ix2 p j) + x7 (ix2 (0 : Fin 1) j)
      = Read.val_main_v40 (F := Ideal) a0 a1 a2 a3 a4 a5 (ix2 e j) := by
  rw [pay3_at, ref_pre1]
  have e3 : x2 (ix2 p ⟨3, by omega⟩) = a3 (ix2 e (0 : Fin 2)) := h2a 0
  have e4 : x2 (ix2 p ⟨4, by omega⟩) = a3 (ix2 e (1 : Fin 2)) := h2a 1
  have w0 : x6 (ix2 (0 : Fin 2) j) = a4 (ix2 ⟨129, by omega⟩ j) := h6 0 j
  have w1 : x6 (ix2 (1 : Fin 2) j) = a4 (ix2 ⟨130, by omega⟩ j) := h6 1 j
  rw [e3, e4, w0, w1, h5 j, h7 j]
  simp only [h0, h1, h2d, h3, h4]

/-- silu of the first layer, at (p, k), is the reference's stage %41 at (e, k). -/
theorem e_row (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal))
    (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal))
    (x0 x1 : FVec Ideal Cert.KernelIdeal.S6400x64 .bf16) (x2 : FVec Ideal Cert.KernelIdeal.S6400x5 .f32) (x3 x4 : FVec Ideal Cert.KernelIdeal.S64x64 .f32)
    (x5 : FVec Ideal Cert.KernelIdeal.S1x64 .f32) (x6 : FVec Ideal Cert.KernelIdeal.S2x64 .f32) (x7 : FVec Ideal Cert.KernelIdeal.S1x64 .f32)
    (p : Fin 6400) (e : Fin 800000)
    (h0 : ∀ k : Fin 64, x0 (ix2 p k) = Read.val_main_v28 (F := Ideal) a0 a2 (ix2 e k))
    (h1 : ∀ k : Fin 64, x1 (ix2 p k) = Read.val_main_v35 (F := Ideal) a0 a2 (ix2 e k))
    (h2d : ∀ k : Fin 3, x2 (ix2 p ⟨k.val, by omega⟩) = Read.val_main_v18 (F := Ideal) a1 a2 (ix2 e k))
    (h2a : ∀ k : Fin 2, x2 (ix2 p ⟨3 + k.val, by omega⟩) = a3 (ix2 e k))
    (h3 : ∀ k j : Fin 64, x3 (ix2 k j) = a4 (ix2 ⟨k.val, by omega⟩ j))
    (h4 : ∀ k j : Fin 64, x4 (ix2 k j) = a4 (ix2 ⟨64 + k.val, by omega⟩ j))
    (h5 : ∀ j : Fin 64, x5 (ix2 (0 : Fin 1) j) = a4 (ix2 ⟨128, by omega⟩ j))
    (h6 : ∀ (r : Fin 2) (j : Fin 64), x6 (ix2 r j) = a4 (ix2 ⟨129 + r.val, by omega⟩ j))
    (h7 : ∀ j : Fin 64, x7 (ix2 (0 : Fin 1) j) = a5 (ix1 j)) (k : Fin 64) :
    silu (Cert.KernelIdeal.Gen.k0_pay3 x0 x1 x2 x3 x4 x5 x6 (F := Ideal) (ix2 p k) + x7 (ix2 (0 : Fin 1) k))
      = Read.val_main_v41 (F := Ideal) a0 a1 a2 a3 a4 a5 (ix2 e k) := by
  rw [ref_silu41, pre1_row a0 a1 a2 a3 a4 a5 x0 x1 x2 x3 x4 x5 x6 x7 p e h0 h1 h2d h2a h3 h4 h5 h6 h7 k]

/-- The second layer with silu, at (p, j), is the reference's stage %46 at (e, j). -/
theorem feat_row (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal))
    (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal))
    (x0 x1 : FVec Ideal Cert.KernelIdeal.S6400x64 .bf16) (x2 : FVec Ideal Cert.KernelIdeal.S6400x5 .f32) (x3 x4 : FVec Ideal Cert.KernelIdeal.S64x64 .f32)
    (x5 : FVec Ideal Cert.KernelIdeal.S1x64 .f32) (x6 : FVec Ideal Cert.KernelIdeal.S2x64 .f32) (x7 : FVec Ideal Cert.KernelIdeal.S1x64 .f32) (x8 : FVec Ideal Cert.KernelIdeal.S64x64 .f32) (x9 : FVec Ideal Cert.KernelIdeal.S1x64 .f32)
    (p : Fin 6400) (e : Fin 800000)
    (h0 : ∀ k : Fin 64, x0 (ix2 p k) = Read.val_main_v28 (F := Ideal) a0 a2 (ix2 e k))
    (h1 : ∀ k : Fin 64, x1 (ix2 p k) = Read.val_main_v35 (F := Ideal) a0 a2 (ix2 e k))
    (h2d : ∀ k : Fin 3, x2 (ix2 p ⟨k.val, by omega⟩) = Read.val_main_v18 (F := Ideal) a1 a2 (ix2 e k))
    (h2a : ∀ k : Fin 2, x2 (ix2 p ⟨3 + k.val, by omega⟩) = a3 (ix2 e k))
    (h3 : ∀ k j : Fin 64, x3 (ix2 k j) = a4 (ix2 ⟨k.val, by omega⟩ j))
    (h4 : ∀ k j : Fin 64, x4 (ix2 k j) = a4 (ix2 ⟨64 + k.val, by omega⟩ j))
    (h5 : ∀ j : Fin 64, x5 (ix2 (0 : Fin 1) j) = a4 (ix2 ⟨128, by omega⟩ j))
    (h6 : ∀ (r : Fin 2) (j : Fin 64), x6 (ix2 r j) = a4 (ix2 ⟨129 + r.val, by omega⟩ j))
    (h7 : ∀ j : Fin 64, x7 (ix2 (0 : Fin 1) j) = a5 (ix1 j))
    (h8 : ∀ k j : Fin 64, x8 (ix2 k j) = a6 (ix2 k j)) (h9 : ∀ j : Fin 64, x9 (ix2 (0 : Fin 1) j) = a7 (ix1 j)) (j : Fin 64) :
    Cert.KernelIdeal.Gen.k0_pay4 (F := Ideal) (Cert.KernelIdeal.Gen.k0_pay3 x0 x1 x2 x3 x4 x5 x6) x7 x8 x9 (ix2 p j)
      = Read.val_main_v46 (F := Ideal) a0 a1 a2 a3 a4 a5 a6 a7 (ix2 e j) := by
  rw [pay4_at, ref_silu46, ref_pre2, h9 j]
  simp only [e_row a0 a1 a2 a3 a4 a5 x0 x1 x2 x3 x4 x5 x6 x7 p e h0 h1 h2d h2a h3 h4 h5 h6 h7, h8]

/-- The stored edge feature of row p is the reference's edge feature of edge e. -/
theorem edge_feat_row (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal))
    (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal))
    (x0 x1 : FVec Ideal Cert.KernelIdeal.S6400x64 .bf16) (x2 : FVec Ideal Cert.KernelIdeal.S6400x5 .f32) (x3 x4 : FVec Ideal Cert.KernelIdeal.S64x64 .f32)
    (x5 : FVec Ideal Cert.KernelIdeal.S1x64 .f32) (x6 : FVec Ideal Cert.KernelIdeal.S2x64 .f32) (x7 : FVec Ideal Cert.KernelIdeal.S1x64 .f32) (x8 : FVec Ideal Cert.KernelIdeal.S64x64 .f32) (x9 : FVec Ideal Cert.KernelIdeal.S1x64 .f32)
    (p : Fin 6400) (e : Fin 800000)
    (h0 : ∀ k : Fin 64, x0 (ix2 p k) = Read.val_main_v28 (F := Ideal) a0 a2 (ix2 e k))
    (h1 : ∀ k : Fin 64, x1 (ix2 p k) = Read.val_main_v35 (F := Ideal) a0 a2 (ix2 e k))
    (h2d : ∀ k : Fin 3, x2 (ix2 p ⟨k.val, by omega⟩) = Read.val_main_v18 (F := Ideal) a1 a2 (ix2 e k))
    (h2a : ∀ k : Fin 2, x2 (ix2 p ⟨3 + k.val, by omega⟩) = a3 (ix2 e k))
    (h3 : ∀ k j : Fin 64, x3 (ix2 k j) = a4 (ix2 ⟨k.val, by omega⟩ j))
    (h4 : ∀ k j : Fin 64, x4 (ix2 k j) = a4 (ix2 ⟨64 + k.val, by omega⟩ j))
    (h5 : ∀ j : Fin 64, x5 (ix2 (0 : Fin 1) j) = a4 (ix2 ⟨128, by omega⟩ j))
    (h6 : ∀ (r : Fin 2) (j : Fin 64), x6 (ix2 r j) = a4 (ix2 ⟨129 + r.val, by omega⟩ j))
    (h7 : ∀ j : Fin 64, x7 (ix2 (0 : Fin 1) j) = a5 (ix1 j))
    (h8 : ∀ k j : Fin 64, x8 (ix2 k j) = a6 (ix2 k j)) (h9 : ∀ j : Fin 64, x9 (ix2 (0 : Fin 1) j) = a7 (ix1 j)) (j : Fin 64) :
    Cert.KernelIdeal.Gen.k0_pay6 (F := Ideal) (Cert.KernelIdeal.Gen.k0_pay3 x0 x1 x2 x3 x4 x5 x6) x7 x8 x9 (ix2 p j)
      = Read.val_main_v46 (F := Ideal) a0 a1 a2 a3 a4 a5 a6 a7 (ix2 e j) :=
  (pay6_at _ x7 x8 x9 (ix2 p j)).trans (feat_row a0 a1 a2 a3 a4 a5 a6 a7 x0 x1 x2 x3 x4 x5 x6 x7 x8 x9 p e h0 h1 h2d h2a h3 h4 h5 h6 h7 h8 h9 j)

/-- The coordinate head's hidden layer with silu, at (p, k), is the reference's stage %51 at (e, k). -/
theorem c1_row (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal))
    (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a12 : (⟨Cert.ReferenceIdeal.S64x64, .f32⟩ : BufTy).Contents (Elt Ideal)) (a13 : (⟨Cert.ReferenceIdeal.S64, .f32⟩ : BufTy).Contents (Elt Ideal))
    (x0 x1 : FVec Ideal Cert.KernelIdeal.S6400x64 .bf16) (x2 : FVec Ideal Cert.KernelIdeal.S6400x5 .f32) (x3 x4 : FVec Ideal Cert.KernelIdeal.S64x64 .f32)
    (x5 : FVec Ideal Cert.KernelIdeal.S1x64 .f32) (x6 : FVec Ideal Cert.KernelIdeal.S2x64 .f32) (x7 : FVec Ideal Cert.KernelIdeal.S1x64 .f32) (x8 : FVec Ideal Cert.KernelIdeal.S64x64 .f32) (x9 : FVec Ideal Cert.KernelIdeal.S1x64 .f32) (x10 : FVec Ideal Cert.KernelIdeal.S64x64 .f32) (x11 : FVec Ideal Cert.KernelIdeal.S1x64 .f32)
    (p : Fin 6400) (e : Fin 800000)
    (h0 : ∀ k : Fin 64, x0 (ix2 p k) = Read.val_main_v28 (F := Ideal) a0 a2 (ix2 e k))
    (h1 : ∀ k : Fin 64, x1 (ix2 p k) = Read.val_main_v35 (F := Ideal) a0 a2 (ix2 e k))
    (h2d : ∀ k : Fin 3, x2 (ix2 p ⟨k.val, by omega⟩) = Read.val_main_v18 (F := Ideal) a1 a2 (ix2 e k))
    (h2a : ∀ k : Fin 2, x2 (ix2 p ⟨3 + k.val, by omega⟩) = a3 (ix2 e k))
    (h3 : ∀ k j : Fin 64, x3 (ix2 k j) = a4 (ix2 ⟨k.val, by omega⟩ j))
    (h4 : ∀ k j : Fin 64, x4 (ix2 k j) = a4 (ix2 ⟨64 + k.val, by omega⟩ j))
    (h5 : ∀ j : Fin 64, x5 (ix2 (0 : Fin 1) j) = a4 (ix2 ⟨128, by omega⟩ j))
    (h6 : ∀ (r : Fin 2) (j : Fin 64), x6 (ix2 r j) = a4 (ix2 ⟨129 + r.val, by omega⟩ j))
    (h7 : ∀ j : Fin 64, x7 (ix2 (0 : Fin 1) j) = a5 (ix1 j))
    (h8 : ∀ k j : Fin 64, x8 (ix2 k j) = a6 (ix2 k j)) (h9 : ∀ j : Fin 64, x9 (ix2 (0 : Fin 1) j) = a7 (ix1 j))
    (h10 : ∀ k j : Fin 64, x10 (ix2 k j) = a12 (ix2 k j)) (h11 : ∀ j : Fin 64, x11 (ix2 (0 : Fin 1) j) = a13 (ix1 j)) (k : Fin 64) :
    silu ((∑ k' : Fin 64, Cert.KernelIdeal.Gen.k0_pay4 (F := Ideal) (Cert.KernelIdeal.Gen.k0_pay3 x0 x1 x2 x3 x4 x5 x6) x7 x8 x9 (ix2 p k') * x10 (ix2 k' k))
        + x11 (ix2 (0 : Fin 1) k))
      = Read.val_main_v51 (F := Ideal) a0 a1 a2 a3 a4 a5 a6 a7 a12 a13 (ix2 e k) := by
  rw [ref_silu51, ref_pre3, h11 k]
  simp only [feat_row a0 a1 a2 a3 a4 a5 a6 a7 x0 x1 x2 x3 x4 x5 x6 x7 x8 x9 p e h0 h1 h2d h2a h3 h4 h5 h6 h7 h8 h9, h10]

/-- The stored translation of row p is the reference's clamped translation of edge e. -/
theorem trans_row (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal))
    (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a12 : (⟨Cert.ReferenceIdeal.S64x64, .f32⟩ : BufTy).Contents (Elt Ideal)) (a13 : (⟨Cert.ReferenceIdeal.S64, .f32⟩ : BufTy).Contents (Elt Ideal)) (a14 : (⟨Cert.ReferenceIdeal.S64x1, .f32⟩ : BufTy).Contents (Elt Ideal))
    (x0 x1 : FVec Ideal Cert.KernelIdeal.S6400x64 .bf16) (x2 : FVec Ideal Cert.KernelIdeal.S6400x5 .f32) (x3 x4 : FVec Ideal Cert.KernelIdeal.S64x64 .f32)
    (x5 : FVec Ideal Cert.KernelIdeal.S1x64 .f32) (x6 : FVec Ideal Cert.KernelIdeal.S2x64 .f32) (x7 : FVec Ideal Cert.KernelIdeal.S1x64 .f32) (x8 : FVec Ideal Cert.KernelIdeal.S64x64 .f32) (x9 : FVec Ideal Cert.KernelIdeal.S1x64 .f32) (x10 : FVec Ideal Cert.KernelIdeal.S64x64 .f32) (x11 : FVec Ideal Cert.KernelIdeal.S1x64 .f32) (x12 : FVec Ideal Cert.KernelIdeal.S64x1 .f32)
    (p : Fin 6400) (e : Fin 800000)
    (h0 : ∀ k : Fin 64, x0 (ix2 p k) = Read.val_main_v28 (F := Ideal) a0 a2 (ix2 e k))
    (h1 : ∀ k : Fin 64, x1 (ix2 p k) = Read.val_main_v35 (F := Ideal) a0 a2 (ix2 e k))
    (h2d : ∀ k : Fin 3, x2 (ix2 p ⟨k.val, by omega⟩) = Read.val_main_v18 (F := Ideal) a1 a2 (ix2 e k))
    (h2a : ∀ k : Fin 2, x2 (ix2 p ⟨3 + k.val, by omega⟩) = a3 (ix2 e k))
    (h3 : ∀ k j : Fin 64, x3 (ix2 k j) = a4 (ix2 ⟨k.val, by omega⟩ j))
    (h4 : ∀ k j : Fin 64, x4 (ix2 k j) = a4 (ix2 ⟨64 + k.val, by omega⟩ j))
    (h5 : ∀ j : Fin 64, x5 (ix2 (0 : Fin 1) j) = a4 (ix2 ⟨128, by omega⟩ j))
    (h6 : ∀ (r : Fin 2) (j : Fin 64), x6 (ix2 r j) = a4 (ix2 ⟨129 + r.val, by omega⟩ j))
    (h7 : ∀ j : Fin 64, x7 (ix2 (0 : Fin 1) j) = a5 (ix1 j))
    (h8 : ∀ k j : Fin 64, x8 (ix2 k j) = a6 (ix2 k j)) (h9 : ∀ j : Fin 64, x9 (ix2 (0 : Fin 1) j) = a7 (ix1 j))
    (h10 : ∀ k j : Fin 64, x10 (ix2 k j) = a12 (ix2 k j)) (h11 : ∀ j : Fin 64, x11 (ix2 (0 : Fin 1) j) = a13 (ix1 j))
    (h12 : ∀ k : Fin 64, x12 (ix2 k (0 : Fin 1)) = a14 (ix2 k (0 : Fin 1))) (d : Fin 3) :
    Cert.KernelIdeal.Gen.k0_pay5 (F := Ideal) (Cert.KernelIdeal.Gen.k0_pay2 x2) (Cert.KernelIdeal.Gen.k0_pay3 x0 x1 x2 x3 x4 x5 x6) x7 x8 x9 x10 x11 x12 (ix2 p d)
      = Read.val_main_v55 (F := Ideal) a0 a1 a2 a3 a4 a5 a6 a7 a12 a13 a14 (ix2 e d) := by
  rw [pay5_at, ref_trans, pay2_at, h2d d]
  simp only [c1_row a0 a1 a2 a3 a4 a5 a6 a7 a12 a13 x0 x1 x2 x3 x4 x5 x6 x7 x8 x9 x10 x11 p e h0 h1 h2d h2a h3 h4 h5 h6 h7 h8 h9 h10 h11, h12]

end Cert.Val

end
-- ==== Proof.Val.EdgeArrays.lean ====
/-
  The edge kernel's two result arrays after its pipeline has run: block by block each write-back is the reference's
  stage restricted to the block (the body's payload row by row, the block's rows being rows 6400·t … 6400·t + 6399 of
  the edge arrays), and the blocks cover the arrays; so the edge-feature array ends holding the reference's second
  activation and the translation array the reference's clipped translations.
-/
import proofs.«177907_j11751030522785_2_alg».proof.Proof.KI.Edge
import proofs.«177907_j11751030522785_2_alg».proof.Proof.Val.Blocks
import proofs.«177907_j11751030522785_2_alg».proof.Proof.Val.Stages
import proofs.«177907_j11751030522785_2_alg».proof.Proof.Val.EdgeRow

set_option maxRecDepth 16384

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.Hand

variable (m : (ℓ : Loc nD τ sig) → Buf (Elt Ideal) ℓ) (c : Dev nD)

/-- The contents the edge kernel is entered from, read at the TensorCore's references. -/
abbrev V1 : (c : Dev nD) → (b : Ref sig .tc) → Buf (Elt Ideal) ((c : Thread nD τ).loc b) := fun c b => H0 m c b

theorem hz2 : (![0, 0] : Fin 2 → Nat) = fun _ => 0 := funext fun a => by fin_cases a <;> rfl

/-! ## The input blocks, entry by entry -/

section Blocks
variable (t : Fin cfg0.N) (p : Fin 6400) (he : 6400 * t.val + p.val < 800000)

theorem blk0_0 (k : Fin 64) : iblk0 (V1 m) c 0 t (ix2 p k) = Cert.ReferenceIdeal.Read.val_main_v28 (F := Ideal) (A0 m c) (A2 m c) (ix2 ⟨6400 * t.val + p.val, he⟩ k) :=
  (read0_0 t p k (H0 m c (Proc.devRef .tc main_v11)) he).trans (congrFun (stage_v11 m c) _)
theorem blk0_1 (k : Fin 64) : iblk0 (V1 m) c 1 t (ix2 p k) = Cert.ReferenceIdeal.Read.val_main_v35 (F := Ideal) (A0 m c) (A2 m c) (ix2 ⟨6400 * t.val + p.val, he⟩ k) :=
  (read0_1 t p k (H0 m c (Proc.devRef .tc main_v18)) he).trans (congrFun (stage_v18 m c) _)
theorem blk0_2d (k : Fin 3) : iblk0 (V1 m) c 2 t (ix2 p (⟨k.val, by omega⟩ : Fin 5)) = Cert.ReferenceIdeal.Read.val_main_v18 (F := Ideal) (A1 m c) (A2 m c) (ix2 ⟨6400 * t.val + p.val, he⟩ k) :=
  (read0_2 t p _ (H0 m c (Proc.devRef .tc main_v34)) he).trans (in_v34_diff m c _ k)
theorem blk0_2a (k : Fin 2) : iblk0 (V1 m) c 2 t (ix2 p (⟨3 + k.val, by omega⟩ : Fin 5)) = A3 m c (ix2 ⟨6400 * t.val + p.val, he⟩ k) :=
  (read0_2 t p _ (H0 m c (Proc.devRef .tc main_v34)) he).trans (in_v34_attr m c _ k)
end Blocks

section Resident
variable (t : Fin cfg0.N)
theorem blk0_3 (k j : Fin 64) : iblk0 (V1 m) c 3 t (ix2 k j) = A4 m c (ix2 (⟨k.val, by omega⟩ : Fin 131) j) :=
  (read0_3 t k j (H0 m c (Proc.devRef .tc main_v35))).trans (in_v35 m c k j)
theorem blk0_4 (k j : Fin 64) : iblk0 (V1 m) c 4 t (ix2 k j) = A4 m c (ix2 (⟨64 + k.val, by omega⟩ : Fin 131) j) :=
  (read0_4 t k j (H0 m c (Proc.devRef .tc main_v36))).trans (in_v36 m c k j)
theorem blk0_5 (j : Fin 64) : iblk0 (V1 m) c 5 t (ix2 (0 : Fin 1) j) = A4 m c (ix2 (⟨128, by omega⟩ : Fin 131) j) :=
  (read0_5 t 0 j (H0 m c (Proc.devRef .tc main_v37))).trans (in_v37 m c j)
theorem blk0_6 (r : Fin 2) (j : Fin 64) : iblk0 (V1 m) c 6 t (ix2 r j) = A4 m c (ix2 (⟨129 + r.val, by omega⟩ : Fin 131) j) :=
  (read0_6 t r j (H0 m c (Proc.devRef .tc main_v38))).trans (in_v38 m c r j)
theorem blk0_7 (j : Fin 64) : iblk0 (V1 m) c 7 t (ix2 (0 : Fin 1) j) = A5 m c (ix1 j) :=
  (read0_7 t 0 j (H0 m c (Proc.devRef .tc main_v39))).trans (in_v39 m c j)
theorem blk0_8 (k j : Fin 64) : iblk0 (V1 m) c 8 t (ix2 k j) = A6 m c (ix2 k j) :=
  (read0_8 t k j (H0 m c (Proc.devRef .tc main_arg6))).trans (congrFun (stage_arg6 m c) _)
theorem blk0_9 (j : Fin 64) : iblk0 (V1 m) c 9 t (ix2 (0 : Fin 1) j) = A7 m c (ix1 j) :=
  (read0_9 t 0 j (H0 m c (Proc.devRef .tc main_v40))).trans (in_v40 m c j)
theorem blk0_10 (k j : Fin 64) : iblk0 (V1 m) c 10 t (ix2 k j) = A12 m c (ix2 k j) :=
  (read0_10 t k j (H0 m c (Proc.devRef .tc main_arg12))).trans (congrFun (stage_arg12 m c) _)
theorem blk0_11 (j : Fin 64) : iblk0 (V1 m) c 11 t (ix2 (0 : Fin 1) j) = A13 m c (ix1 j) :=
  (read0_11 t 0 j (H0 m c (Proc.devRef .tc main_v41))).trans (in_v41 m c j)
theorem blk0_12 (k : Fin 64) : iblk0 (V1 m) c 12 t (ix2 k (0 : Fin 1)) = A14 m c (ix2 k (0 : Fin 1)) :=
  (read0_12 t k 0 (H0 m c (Proc.devRef .tc main_arg14))).trans (congrFun (stage_arg14 m c) _)
end Resident

/-! ## What each point writes back -/

/-- Point `t` writes back block `t` of the reference's edge features. -/
theorem flushed0_13 (t : Fin cfg0.N) :
    (dat0 (V1 m) c).flushed 13 t = ((cfg0.win 13).blk t).view.read (Elt Ideal)
      (Cert.ReferenceIdeal.Read.val_main_v46 (F := Ideal) (A0 m c) (A1 m c) (A2 m c) (A3 m c) (A4 m c) (A5 m c) (A6 m c) (A7 m c)) := by
  show (cfg0.win 13).cut (grid0.coords t) ((dat0 (V1 m) c).after 13 t) = _
  rw [after0_13]
  unfold out0_13
  rw [View.canon_unit_zero hz2]
  simp only [View.ld_unit_zero (S := S6400x64) hz2, View.ld_unit_zero (S := S6400x5) hz2, View.ld_unit_zero (S := S64x64) hz2,
    View.ld_unit_zero (S := S1x64) hz2, View.ld_unit_zero (S := S2x64) hz2]
  funext y
  obtain ⟨p, j, rfl⟩ : ∃ (p : Fin 6400) (j : Fin 64), y = ix2 p j := ⟨y 0, y 1, eq_ix2 y⟩
  have ht := lt0 t
  have he : 6400 * t.val + p.val < 800000 := by have := p.isLt; omega
  rw [read0_13 t p j _ he]
  exact edge_feat_row (A0 m c) (A1 m c) (A2 m c) (A3 m c) (A4 m c) (A5 m c) (A6 m c) (A7 m c) (iblk0 (V1 m) c 0 t) (iblk0 (V1 m) c 1 t) (iblk0 (V1 m) c 2 t) (iblk0 (V1 m) c 3 t)
    (iblk0 (V1 m) c 4 t) (iblk0 (V1 m) c 5 t) (iblk0 (V1 m) c 6 t) (iblk0 (V1 m) c 7 t) (iblk0 (V1 m) c 8 t) (iblk0 (V1 m) c 9 t)
    p ⟨6400 * t.val + p.val, he⟩ (blk0_0 m c t p he) (blk0_1 m c t p he) (blk0_2d m c t p he) (blk0_2a m c t p he)
    (blk0_3 m c t) (blk0_4 m c t) (blk0_5 m c t) (blk0_6 m c t) (blk0_7 m c t) (blk0_8 m c t) (blk0_9 m c t) j

/-- Point `t` writes back block `t` of the reference's clipped translations. -/
theorem flushed0_14 (t : Fin cfg0.N) :
    (dat0 (V1 m) c).flushed 14 t = ((cfg0.win 14).blk t).view.read (Elt Ideal)
      (Cert.ReferenceIdeal.Read.val_main_v55 (F := Ideal) (A0 m c) (A1 m c) (A2 m c) (A3 m c) (A4 m c) (A5 m c) (A6 m c) (A7 m c) (A12 m c) (A13 m c) (A14 m c)) := by
  show (cfg0.win 14).cut (grid0.coords t) ((dat0 (V1 m) c).after 14 t) = _
  rw [after0_14]
  unfold out0_14
  rw [View.canon_unit_zero hz2]
  simp only [View.ld_unit_zero (S := S6400x64) hz2, View.ld_unit_zero (S := S6400x5) hz2, View.ld_unit_zero (S := S64x64) hz2,
    View.ld_unit_zero (S := S1x64) hz2, View.ld_unit_zero (S := S2x64) hz2, View.ld_unit_zero (S := S64x1) hz2]
  funext y
  obtain ⟨p, d, rfl⟩ : ∃ (p : Fin 6400) (d : Fin 3), y = ix2 p d := ⟨y 0, y 1, eq_ix2 y⟩
  have ht := lt0 t
  have he : 6400 * t.val + p.val < 800000 := by have := p.isLt; omega
  rw [read0_14 t p d _ he]
  exact trans_row (A0 m c) (A1 m c) (A2 m c) (A3 m c) (A4 m c) (A5 m c) (A6 m c) (A7 m c) (A12 m c) (A13 m c) (A14 m c) (iblk0 (V1 m) c 0 t) (iblk0 (V1 m) c 1 t) (iblk0 (V1 m) c 2 t) (iblk0 (V1 m) c 3 t)
    (iblk0 (V1 m) c 4 t) (iblk0 (V1 m) c 5 t) (iblk0 (V1 m) c 6 t) (iblk0 (V1 m) c 7 t) (iblk0 (V1 m) c 8 t) (iblk0 (V1 m) c 9 t)
    (iblk0 (V1 m) c 10 t) (iblk0 (V1 m) c 11 t) (iblk0 (V1 m) c 12 t)
    p ⟨6400 * t.val + p.val, he⟩ (blk0_0 m c t p he) (blk0_1 m c t p he) (blk0_2d m c t p he) (blk0_2a m c t p he)
    (blk0_3 m c t) (blk0_4 m c t) (blk0_5 m c t) (blk0_6 m c t) (blk0_7 m c t) (blk0_8 m c t) (blk0_9 m c t)
    (blk0_10 m c t) (blk0_11 m c t) (blk0_12 m c t) d

/-! ## The arrays after the pipeline -/

/-- The edge-feature array after the edge kernel: the reference's edge features. -/
theorem edge_feat_array : (dat0 (V1 m) c).arrAt 13 cfg0.N = Cert.ReferenceIdeal.Read.val_main_v46 (F := Ideal) (A0 m c) (A1 m c) (A2 m c) (A3 m c) (A4 m c) (A5 m c) (A6 m c) (A7 m c) :=
  (dat0 (V1 m) c).arrAt_eq_of_cover 13 _ (fun t _ => flushed0_13 m c t) cover0_13
/-- The translation array after the edge kernel: the reference's clipped translations. -/
theorem trans_array : (dat0 (V1 m) c).arrAt 14 cfg0.N = Cert.ReferenceIdeal.Read.val_main_v55 (F := Ideal) (A0 m c) (A1 m c) (A2 m c) (A3 m c) (A4 m c) (A5 m c) (A6 m c) (A7 m c) (A12 m c) (A13 m c) (A14 m c) :=
  (dat0 (V1 m) c).arrAt_eq_of_cover 14 _ (fun t _ => flushed0_14 m c t) cover0_14

end Cert.Val

end
-- ==== Proof.LibScatterRows.lean ====
/-
  A scatter-add of ROWS, read at an entry. The operand is [N, C] (or [N]); update row e carries one scalar
  index idx[e, 0], read as a signed integer, and is added to operand row idx[e, 0] when that is a row of the
  operand (0 ≤ idx[e, 0] < N) and dropped otherwise. So entry (n, c) of the result is the operand's entry plus
  the sum over all update rows e of: the update's entry (e, c) if idx[e, 0] = n, else 0. The proof reads the
  dimension numbers once — where update index (e, c) lands — and then collapses the sum over update indices
  to the sum over update rows; nothing depends on the sizes N, C, E.
  Then: three arrays joined along the columns, read at a column of each piece.
-/
import Idealize.ShloMosaic.PureOps.Ideal.Laws
import Idealize.ShloMosaic.Lib.ValueIdx
import Idealize.ShloMosaic.Lib.Pipeline.Value
import Idealize.ShloMosaic.Lib.ValueLayout

noncomputable section
open scoped BigOperators
namespace Cert.Val
open Idealize.ShloMosaic Idealize.ShloMosaic.ValueIdx

/-! ## Rows of a rank-2 operand -/

/-- The dimension numbers of a row scatter: operand [N, C], indices [E, 1] with the index vector on axis 1 (one
    scalar per update row) naming operand axis 0, updates [E, C] whose axis 1 is the window (a whole row). -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis the window of update (e, c) starts at the index idx[e, 0], read signed. -/
theorem rowDims_start_zero (e : Fin E) (c : Fin C) (idx : IVec ⟨2, ![E, 1]⟩ w) :
    (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis the window starts at 0. -/
theorem rowDims_start_one (e : Fin E) (c : Fin C) (idx : IVec ⟨2, ![E, 1]⟩ w) :
    (rowDims N C E wf).start (ix2 e c) idx 1 = 0 := rfl

/-- The row axis is inserted: no window coordinate there. -/
theorem rowDims_window_zero (e : Fin E) (c : Fin C) :
    (rowDims N C E wf).window (ix2 e c) 0 = 0 := rfl

/-- On the column axis the window coordinate is the update's column. -/
theorem rowDims_window_one (e : Fin E) (c : Fin C) :
    (rowDims N C E wf).window (ix2 e c) 1 = c.val := rfl

/-- WHERE AN UPDATE LANDS: update (e, c) lands at operand entry (n, c') exactly when its row's index is n and
    the columns agree (an index outside [0, N) lands nowhere). -/
theorem rowDims_resultIdx?_eq_some_iff (e : Fin E) (c : Fin C) (n : Fin N) (c' : Fin C) (idx : IVec ⟨2, ![E, 1]⟩ w) :
    (rowDims N C E wf).resultIdx? (ix2 e c) idx = some (ix2 n c') ↔
      ((idx (ix2 e (0 : Fin 1))).toInt = (n.val : Int) ∧ c = c') := by
  have hs0 := rowDims_start_zero wf e c idx
  have hs1 := rowDims_start_one wf e c idx
  have hw0 := rowDims_window_zero wf e c
  have hw1 := rowDims_window_one wf e c
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      have f1 := congrArg Fin.val (congrFun hf 1)
      simp only [hs0, hw0, hs1, hw1] at f0 f1
      refine ⟨?_, Fin.ext ?_⟩
      · change (v + ((0 : Nat) : Int)).toNat = n.val at f0
        omega
      · change (((0 : Int) + (c.val : Int))).toNat = c'.val at f1
        omega
    · rintro ⟨hv, rfl⟩
      funext a
      refine Fin.ext ?_
      match a with
      | ⟨0, _⟩ =>
        show ((rowDims N C E wf).start (ix2 e c) idx 0 + ((rowDims N C E wf).window (ix2 e c) 0 : Int)).toNat = n.val
        rw [hs0, hw0]; omega
      | ⟨1, _⟩ =>
        show ((rowDims N C E wf).start (ix2 e c) idx 1 + ((rowDims N C E wf).window (ix2 e c) 1 : Int)).toNat = c.val
        rw [hs1, hw1]; omega
  · next h =>
    constructor
    · intro hf; exact absurd hf (by simp)
    · rintro ⟨hv, rfl⟩
      exfalso; apply h
      intro a
      match a with
      | ⟨0, _⟩ =>
        show 0 ≤ (rowDims N C E wf).start (ix2 e c) idx 0 + ((rowDims N C E wf).window (ix2 e c) 0 : Int) ∧
          (rowDims N C E wf).start (ix2 e c) idx 0 + ((rowDims N C E wf).window (ix2 e c) 0 : Int) < (N : Int)
        rw [hs0, hw0]; have := n.isLt; omega
      | ⟨1, _⟩ =>
        show 0 ≤ (rowDims N C E wf).start (ix2 e c) idx 1 + ((rowDims N C E wf).window (ix2 e c) 1 : Int) ∧
          (rowDims N C E wf).start (ix2 e c) idx 1 + ((rowDims N C E wf).window (ix2 e c) 1 : Int) < (C : Int)
        rw [hs1, hw1]; have := c.isLt; omega

/-- THE ROW SCATTER-ADD AT AN ENTRY: the operand's entry plus, over the update rows whose index is the entry's
    row, the update's entry in the same column. -/
theorem scatterAdd_rows_apply {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowDims N C E wf) x idx upd (ix2 n c) =
      x (ix2 n c) + ∑ e : Fin E, if (idx (ix2 e (0 : Fin 1))).toInt = (n.val : Int) then upd (ix2 e c) else 0 := by
  show x (ix2 n c) + ∑ j ∈ Finset.univ.filter (fun j => (rowDims N C E wf).resultIdx? j idx = some (ix2 n c)), upd j = _
  congr 1
  rw [Finset.sum_filter, sum_idx2]
  refine Finset.sum_congr rfl fun e _ => ?_
  simp only [rowDims_resultIdx?_eq_some_iff]
  by_cases hv : (idx (ix2 e (0 : Fin 1))).toInt = (n.val : Int)
  · simp only [hv, true_and, if_true]
    rw [Finset.sum_ite_eq' Finset.univ c]
    simp
  · simp only [hv, false_and, if_false]
    exact Finset.sum_const_zero

/-! ## The same for a rank-1 operand: one scalar update per index -/

/-- The dimension numbers of a scatter of scalars: operand [N], indices [E, 1], updates [E] (no window axis). -/
abbrev rowDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable (wf1 : ScatterDims.WF ⟨1, ![N]⟩ ⟨2, ![E, 1]⟩ ⟨1, ![E]⟩ [] [0] [0] 1)

/-- The window of update e starts at the index idx[e, 0], read signed. -/
theorem rowDims1_start_zero (e : Fin E) (idx : IVec ⟨2, ![E, 1]⟩ w) :
    (rowDims1 N E wf1).start (ix1 e) idx 0 = (idx (ix2 e (0 : Fin 1))).toInt := by
  unfold ScatterDims.start
  rw [dif_pos (show (0 : Fin 1) ∈ (rowDims1 N E wf1).scatterDimsToOperandDims from List.mem_singleton.mpr rfl)]
  have hsi : (rowDims1 N E wf1).siIdx (ix1 e) ⟨List.idxOf (0 : Fin 1) (rowDims1 N E wf1).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: no window coordinate. -/
theorem rowDims1_window_zero (e : Fin E) : (rowDims1 N E wf1).window (ix1 e) 0 = 0 := rfl

/-- Update e lands at operand entry n exactly when its index is n. -/
theorem rowDims1_resultIdx?_eq_some_iff (e : Fin E) (n : Fin N) (idx : IVec ⟨2, ![E, 1]⟩ w) :
    (rowDims1 N E wf1).resultIdx? (ix1 e) idx = some (ix1 n) ↔ (idx (ix2 e (0 : Fin 1))).toInt = (n.val : Int) := by
  have hs0 := rowDims1_start_zero wf1 e idx
  have hw0 := rowDims1_window_zero wf1 e
  generalize (idx (ix2 e (0 : Fin 1))).toInt = v at hs0 ⊢
  unfold ScatterDims.resultIdx?
  split
  · next h =>
    have h0 := h 0
    rw [hs0, hw0] at h0
    rw [Option.some.injEq]
    constructor
    · intro hf
      have f0 := congrArg Fin.val (congrFun hf 0)
      simp only [hs0, hw0] at f0
      change (v + ((0 : Nat) : Int)).toNat = n.val at f0
      omega
    · intro hv
      funext a
      refine Fin.ext ?_
      match a with
      | ⟨0, _⟩ =>
        show ((rowDims1 N E wf1).start (ix1 e) idx 0 + ((rowDims1 N E wf1).window (ix1 e) 0 : Int)).toNat = n.val
        rw [hs0, hw0]; omega
  · next h =>
    constructor
    · intro hf; exact absurd hf (by simp)
    · intro hv
      exfalso; apply h
      intro a
      match a with
      | ⟨0, _⟩ =>
        show 0 ≤ (rowDims1 N E wf1).start (ix1 e) idx 0 + ((rowDims1 N E wf1).window (ix1 e) 0 : Int) ∧
          (rowDims1 N E wf1).start (ix1 e) idx 0 + ((rowDims1 N E wf1).window (ix1 e) 0 : Int) < (N : Int)
        rw [hs0, hw0]; have := n.isLt; omega

/-- A rank-1 index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  refine (Fintype.sum_equiv (⟨fun i => i 0, fun a => ix1 a, fun i => (eq_ix1 i).symm, fun _ => rfl⟩ :
    (⟨1, ![n]⟩ : Shape).Idx ≃ Fin n) _ _ fun i => ?_)
  exact congrArg f (eq_ix1 i)

/-- THE SCALAR SCATTER-ADD AT AN ENTRY: the operand's entry plus the updates whose index is the entry. -/
theorem scatterAdd_rows1_apply {φ : FTy} (x : FVec Ideal ⟨1, ![N]⟩ φ) (idx : IVec ⟨2, ![E, 1]⟩ w)
    (upd : FVec Ideal ⟨1, ![E]⟩ φ) (n : Fin N) :
    Host.scatterAdd (F := Ideal) (rowDims1 N E wf1) x idx upd (ix1 n) =
      x (ix1 n) + ∑ e : Fin E, if (idx (ix2 e (0 : Fin 1))).toInt = (n.val : Int) then upd (ix1 e) else 0 := by
  show x (ix1 n) + ∑ j ∈ Finset.univ.filter (fun j => (rowDims1 N E wf1).resultIdx? j idx = some (ix1 n)), upd j = _
  congr 1
  rw [Finset.sum_filter, sum_idx1]
  refine Finset.sum_congr rfl fun e _ => ?_
  simp only [rowDims1_resultIdx?_eq_some_iff]

/-! ## Three arrays joined along the columns, read at a column of each -/

section Concat3
variable {α : Type} {R a b c t : Nat}
  (x₁ : (⟨2, ![R, a]⟩ : Shape).Idx → α) (x₂ : (⟨2, ![R, b]⟩ : Shape).Idx → α) (x₃ : (⟨2, ![R, c]⟩ : Shape).Idx → α)
  (h : Shape.Concatenates [⟨2, ![R, a]⟩, ⟨2, ![R, b]⟩, ⟨2, ![R, c]⟩] ⟨2, ![R, t]⟩ 1)

/-- A column of the first piece. -/
theorem concat3_cols_first (r : Fin R) (q : Fin a) (hq : q.val < t) :
    concatenate ⟨2, ![R, t]⟩ 1 [⟨⟨2, ![R, a]⟩, x₁⟩, ⟨⟨2, ![R, b]⟩, x₂⟩, ⟨⟨2, ![R, c]⟩, x₃⟩] h (ix2 r ⟨q.val, hq⟩) = x₁ (ix2 r q) :=
  concatenate_apply_piece 1 [⟨⟨2, ![R, a]⟩, x₁⟩, ⟨⟨2, ![R, b]⟩, x₂⟩, ⟨⟨2, ![R, c]⟩, x₃⟩] h (ix2 r ⟨q.val, hq⟩)
    0 (by simp) ⟨2, ![R, a]⟩ x₁ rfl rfl 0 rfl (ix2 r q)
    (fun ax hax => match ax with
      | ⟨0, _⟩ => rfl
      | ⟨1, _⟩ => absurd rfl hax)
    (by show 0 + q.val = q.val; omega)

/-- A column of the second piece: the first piece's width further on. -/
theorem concat3_cols_second (r : Fin R) (q : Fin b) (hq : a + q.val < t) :
    concatenate ⟨2, ![R, t]⟩ 1 [⟨⟨2, ![R, a]⟩, x₁⟩, ⟨⟨2, ![R, b]⟩, x₂⟩, ⟨⟨2, ![R, c]⟩, x₃⟩] h (ix2 r ⟨a + q.val, hq⟩) = x₂ (ix2 r q) :=
  concatenate_apply_piece 1 [⟨⟨2, ![R, a]⟩, x₁⟩, ⟨⟨2, ![R, b]⟩, x₂⟩, ⟨⟨2, ![R, c]⟩, x₃⟩] h (ix2 r ⟨a + q.val, hq⟩)
    1 (by simp) ⟨2, ![R, b]⟩ x₂ rfl rfl a (by simp) (ix2 r q)
    (fun ax hax => match ax with
      | ⟨0, _⟩ => rfl
      | ⟨1, _⟩ => absurd rfl hax)
    rfl

/-- A column of the third piece: the first two pieces' widths further on. -/
theorem concat3_cols_third (r : Fin R) (q : Fin c) (hq : a + b + q.val < t) :
    concatenate ⟨2, ![R, t]⟩ 1 [⟨⟨2, ![R, a]⟩, x₁⟩, ⟨⟨2, ![R, b]⟩, x₂⟩, ⟨⟨2, ![R, c]⟩, x₃⟩] h (ix2 r ⟨a + b + q.val, hq⟩) = x₃ (ix2 r q) :=
  concatenate_apply_piece 1 [⟨⟨2, ![R, a]⟩, x₁⟩, ⟨⟨2, ![R, b]⟩, x₂⟩, ⟨⟨2, ![R, c]⟩, x₃⟩] h (ix2 r ⟨a + b + q.val, hq⟩)
    2 (by simp) ⟨2, ![R, c]⟩ x₃ rfl rfl (a + b) (by simp) (ix2 r q)
    (fun ax hax => match ax with
      | ⟨0, _⟩ => rfl
      | ⟨1, _⟩ => absurd rfl hax)
    rfl

end Concat3

end Cert.Val
-- ==== Proof.Val.Scatter.lean ====
/-
  The fused scatter-add of the [E, 68] array [trans | 1 | edge_feat] into zeros [N, 68], read column by column:
  columns 0–2 are the scatter-add of trans into zeros [N, 3], column 3 is the scatter-add of ones into zeros [N]
  (the number of edges that point at the node), and columns 4–67 are the scatter-add of edge_feat into zeros
  [N, 64]. Every entry is the zero plus the sum, over the edges whose index is the node, of the update's entry
  in that column, and a column of the joined array is the column of the piece it falls in.
-/
import proofs.«177907_j11751030522785_2_alg».proof.KernelIdeal
import proofs.«177907_j11751030522785_2_alg».proof.ReferenceIdeal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«177907_j11751030522785_2_alg».proof.Proof.LibScatterRows

noncomputable section

open scoped BigOperators

namespace Cert.Val

open Idealize.ShloMosaic Idealize.ShloMosaic.ValueIdx

variable [Cert.KernelIdeal.Facts₀] [Cert.ReferenceIdeal.Facts₀]

/-! ## The operands, spelt as the two programs spell them -/

/-- Zeros [N, 68]: the fused scatter-add's operand. -/
abbrev Z68 : FVec Ideal Cert.KernelIdeal.S50000x68 .f32 :=
  broadcastInDim Cert.KernelIdeal.S50000x68 ![] Cert.KernelIdeal.Facts₀.bcast_S_S50000x68
    (constant (F := Ideal) Cert.KernelIdeal.S_ .f32 0x00000000#32)

/-- The column of ones [E, 1] that sits between trans and edge_feat. -/
abbrev OnesCol : FVec Ideal Cert.KernelIdeal.S800000x1 .f32 :=
  broadcastInDim Cert.KernelIdeal.S800000x1 ![] Cert.KernelIdeal.Facts₀.bcast_S_S800000x1
    (constant (F := Ideal) Cert.KernelIdeal.S_ .f32 0x3F800000#32)

/-- The fused update [trans | 1 | edge_feat] of shape [E, 68]. -/
abbrev U68 (T : FVec Ideal Cert.KernelIdeal.S800000x3 .f32) (Fe : FVec Ideal Cert.KernelIdeal.S800000x64 .f32) :
    FVec Ideal Cert.KernelIdeal.S800000x68 .f32 :=
  concatenate Cert.KernelIdeal.S800000x68 1
    [⟨Cert.KernelIdeal.S800000x3, T⟩, ⟨Cert.KernelIdeal.S800000x1, OnesCol⟩, ⟨Cert.KernelIdeal.S800000x64, Fe⟩]
    Cert.KernelIdeal.Facts₀.concatenates_S800000x3_S800000x1_S800000x64_S800000x68_d1

/-- Zeros [N, 3]: the operand of the reference's scatter-add of trans. -/
abbrev Z3 : FVec Ideal Cert.ReferenceIdeal.S50000x3 .f32 :=
  broadcastInDim Cert.ReferenceIdeal.S50000x3 ![] Cert.ReferenceIdeal.Facts₀.bcast_S_S50000x3
    (constant (F := Ideal) Cert.ReferenceIdeal.S_ .f32 0x00000000#32)

/-- Zeros [N]: the operand of the reference's edge count. -/
abbrev Z1 : FVec Ideal Cert.ReferenceIdeal.S50000 .f32 :=
  broadcastInDim Cert.ReferenceIdeal.S50000 ![] Cert.ReferenceIdeal.Facts₀.bcast_S_S50000
    (constant (F := Ideal) Cert.ReferenceIdeal.S_ .f32 0x00000000#32)

/-- Ones [E]: the updates of the reference's edge count. -/
abbrev Ones1 : FVec Ideal Cert.ReferenceIdeal.S800000 .f32 :=
  broadcastInDim Cert.ReferenceIdeal.S800000 ![] Cert.ReferenceIdeal.Facts₀.bcast_S_S800000
    (constant (F := Ideal) Cert.ReferenceIdeal.S_ .f32 0x3F800000#32)

/-- Zeros [N, 64]: the operand of the reference's scatter-add of edge_feat. -/
abbrev Z64 : FVec Ideal Cert.ReferenceIdeal.S50000x64 .f32 :=
  broadcastInDim Cert.ReferenceIdeal.S50000x64 ![] Cert.ReferenceIdeal.Facts₀.bcast_S_S50000x64
    (constant (F := Ideal) Cert.ReferenceIdeal.S_ .f32 0x00000000#32)

/-! ## The four dimension records are row scatters -/

theorem dK_eq : Cert.KernelIdeal.scatter_S50000x68_S800000x1_S800000x68_1_0_0_1 =
    rowDims 50000 68 800000 Cert.KernelIdeal.Facts₀.scatter_S50000x68_S800000x1_S800000x68_1_0_0_1_wf := rfl

theorem dR3_eq : Cert.ReferenceIdeal.scatter_S50000x3_S800000x1_S800000x3_1_0_0_1 =
    rowDims 50000 3 800000 Cert.ReferenceIdeal.Facts₀.scatter_S50000x3_S800000x1_S800000x3_1_0_0_1_wf := rfl

theorem dR1_eq : Cert.ReferenceIdeal.scatter_S50000_S800000x1_S800000_n_0_0_1 =
    rowDims1 50000 800000 Cert.ReferenceIdeal.Facts₀.scatter_S50000_S800000x1_S800000_n_0_0_1_wf := rfl

theorem dR64_eq : Cert.ReferenceIdeal.scatter_S50000x64_S800000x1_S800000x64_1_0_0_1 =
    rowDims 50000 64 800000 Cert.ReferenceIdeal.Facts₀.scatter_S50000x64_S800000x1_S800000x64_1_0_0_1_wf := rfl

/-! ## Column by column -/

/-- Columns 0–2 of the fused scatter-add are the scatter-add of trans. -/
theorem fused_col_trans (I : (⟨Cert.KernelIdeal.S800000x1, .i32⟩ : BufTy).Contents (Elt Ideal))
    (T : FVec Ideal Cert.KernelIdeal.S800000x3 .f32) (Fe : FVec Ideal Cert.KernelIdeal.S800000x64 .f32)
    (n : Fin 50000) (d : Fin 3) :
    Host.scatterAdd (F := Ideal) Cert.KernelIdeal.scatter_S50000x68_S800000x1_S800000x68_1_0_0_1 Z68 I (U68 T Fe)
        (ix2 n (⟨d.val, by omega⟩ : Fin 68)) =
      Host.scatterAdd (F := Ideal) Cert.ReferenceIdeal.scatter_S50000x3_S800000x1_S800000x3_1_0_0_1 Z3 I T (ix2 n d) := by
  rw [dK_eq, dR3_eq, scatterAdd_rows_apply, scatterAdd_rows_apply]
  refine congrArg₂ (· + ·) ((broadcastInDim_scalar_apply _ _ _).trans (broadcastInDim_scalar_apply _ _ _).symm) ?_
  refine Finset.sum_congr rfl fun e _ => ?_
  rw [show U68 T Fe (ix2 e (⟨d.val, by omega⟩ : Fin 68)) = T (ix2 e d) from concat3_cols_first T OnesCol Fe _ e d _]

/-- Column 3 of the fused scatter-add is the number of edges pointing at the node. -/
theorem fused_col_count (I : (⟨Cert.KernelIdeal.S800000x1, .i32⟩ : BufTy).Contents (Elt Ideal))
    (T : FVec Ideal Cert.KernelIdeal.S800000x3 .f32) (Fe : FVec Ideal Cert.KernelIdeal.S800000x64 .f32)
    (n : Fin 50000) :
    Host.scatterAdd (F := Ideal) Cert.KernelIdeal.scatter_S50000x68_S800000x1_S800000x68_1_0_0_1 Z68 I (U68 T Fe)
        (ix2 n (⟨3, by omega⟩ : Fin 68)) =
      Host.scatterAdd (F := Ideal) Cert.ReferenceIdeal.scatter_S50000_S800000x1_S800000_n_0_0_1 Z1 I Ones1 (ix1 n) := by
  rw [dK_eq, dR1_eq, scatterAdd_rows_apply, scatterAdd_rows1_apply]
  refine congrArg₂ (· + ·) ((broadcastInDim_scalar_apply _ _ _).trans (broadcastInDim_scalar_apply _ _ _).symm) ?_
  refine Finset.sum_congr rfl fun e _ => ?_
  rw [show U68 T Fe (ix2 e (⟨3, by omega⟩ : Fin 68)) = OnesCol (ix2 e (0 : Fin 1)) from
    concat3_cols_second T OnesCol Fe _ e (0 : Fin 1) (by decide)]
  rw [show OnesCol (ix2 e (0 : Fin 1)) = Ones1 (ix1 e) from
    (broadcastInDim_scalar_apply _ _ _).trans (broadcastInDim_scalar_apply _ _ _).symm]

/-- Columns 4–67 of the fused scatter-add are the scatter-add of edge_feat. -/
theorem fused_col_feat (I : (⟨Cert.KernelIdeal.S800000x1, .i32⟩ : BufTy).Contents (Elt Ideal))
    (T : FVec Ideal Cert.KernelIdeal.S800000x3 .f32) (Fe : FVec Ideal Cert.KernelIdeal.S800000x64 .f32)
    (n : Fin 50000) (k : Fin 64) :
    Host.scatterAdd (F := Ideal) Cert.KernelIdeal.scatter_S50000x68_S800000x1_S800000x68_1_0_0_1 Z68 I (U68 T Fe)
        (ix2 n (⟨4 + k.val, by omega⟩ : Fin 68)) =
      Host.scatterAdd (F := Ideal) Cert.ReferenceIdeal.scatter_S50000x64_S800000x1_S800000x64_1_0_0_1 Z64 I Fe (ix2 n k) := by
  rw [dK_eq, dR64_eq, scatterAdd_rows_apply, scatterAdd_rows_apply]
  refine congrArg₂ (· + ·) ((broadcastInDim_scalar_apply _ _ _).trans (broadcastInDim_scalar_apply _ _ _).symm) ?_
  refine Finset.sum_congr rfl fun e _ => ?_
  rw [show U68 T Fe (ix2 e (⟨4 + k.val, by omega⟩ : Fin 68)) = Fe (ix2 e k) from
    concat3_cols_third T OnesCol Fe _ e k (by omega)]

end Cert.Val
-- ==== Proof.Val.Tail.lean ====
/-
  The host operations between the two kernels, read off any contents `Wx` they start from: the node kernel's
  aggregate operand is the scatter-add, along the edges' row indices into zeros [N, 68], of the rows
  [ trans | 1 | edge_feat ], and its two bias operands are the bias vectors laid out as rows. Column by column
  the aggregate is the reference's three scatter-adds: of trans (columns 0–2), of ones (column 3, the number of
  edges pointing at the node) and of edge_feat (columns 4–67), once the edge kernel's two outputs and the row
  indices are the reference's arrays.
-/
import proofs.«177907_j11751030522785_2_alg».proof.Proof.KI.LaunchP
import proofs.«177907_j11751030522785_2_alg».proof.Proof.Gen.ReferenceIdeal.Read
import proofs.«177907_j11751030522785_2_alg».proof.Proof.Val.Scatter
import Idealize.ShloMosaic.Lib.StableHlo.Run
import Idealize.ShloMosaic.Lib.Pipeline.Value
import Idealize.ShloMosaic.Lib.ValueIdx

noncomputable section

namespace Cert.Val

open Idealize.ShloMosaic Idealize.ShloMosaic.TcCoe Idealize.ShloMosaic.ValueIdx Idealize.SL.Sem Idealize.ShloMosaic.StableHlo
open Cert.KernelIdeal Cert.KernelIdeal.Gen Cert.KernelIdeal.GenP

section
variable {nD : Nat} {τ : Topo} {sig : RefSig} {Val : EltTy → Type}
/-- The result of a host operation over a literal family of three operand references, each operand's contents read at
    its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end

/-- The library's result-by-result rewriting, with the three-operand form tried first. -/
macro "tail_results" : tactic =>
  `(tactic| (simp only [after_cons, after_nil]
             repeat (first
               | rw [nary3_result]
               | rw [nullary_result] | rw [unary_result] | rw [binary_result] | rw [ternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (Wx : Valuation τ sig (Elt Ideal))

/-- The node kernel's aggregate operand: the fused scatter-add. -/
theorem tail_v48 :
    StableHlo.after (hostOps1 (F := Ideal)) Wx (Proc.devRef .tc main_v48)
      = Host.scatterAdd (F := Ideal) scatter_S50000x68_S800000x1_S800000x68_1_0_0_1 Z68
          (broadcastInDim S800000x1 ![0] bcast_S800000_S800000x1_0 (Wx (Proc.devRef .tc main_v1)))
          (U68 (Wx (Proc.devRef .tc main_v42_1))
            (extf (F := Ideal) .f32 (Wx (Proc.devRef .tc main_v42_0) : FVec Ideal S800000x64 .bf16) bitsLt_bf16_f32)) := by
  tail_results
  rfl

/-- The node kernel's first bias operand: the bias vector as a row. -/
theorem tail_v49 :
    StableHlo.after (hostOps1 (F := Ideal)) Wx (Proc.devRef .tc main_v49)
      = shapeCast S1x64 (Wx (Proc.devRef .tc main_arg9)) shapeCasts_S64_S1x64 := by
  tail_results
  rfl

/-- The node kernel's second bias operand: the bias vector as a row. -/
theorem tail_v50 :
    StableHlo.after (hostOps1 (F := Ideal)) Wx (Proc.devRef .tc main_v50)
      = shapeCast S1x64 (Wx (Proc.devRef .tc main_arg11)) shapeCasts_S64_S1x64 := by
  tail_results
  rfl

/-- A buffer none of the ten operations writes keeps its contents. -/
theorem tail_keep (b : Ref sig .tc)
    (hb : b ∉ [main_v43, main_cst, main_v44, main_v45, main_cst_7, main_v46, main_v47, main_v48, main_v49, main_v50]) :
    StableHlo.after (hostOps1 (F := Ideal)) Wx (Proc.devRef .tc b) = Wx (Proc.devRef .tc b) := by
  simp only [List.mem_cons, List.not_mem_nil, or_false, not_or] at hb
  obtain ⟨h1, h2, h3, h4, h5, h6, h7, h8, h9, h10⟩ := hb
  simp only [after_cons, after_nil]
  repeat (first
    | (rw [nullary_result_ne]; rotate_left; assumption)
    | (rw [unary_result_ne]; rotate_left; assumption)
    | (rw [ternary_result_ne]; rotate_left; assumption)
    | (rw [reshape_result_ne]; rotate_left; assumption)
    | (rw [nary_result_ne]; rotate_left; assumption))

/-! ## The aggregate's columns against the reference's three scatter-adds -/

/-- Columns 0–2: the reference's scatter-add of trans. -/
theorem agg_trans (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a12 : (⟨Cert.ReferenceIdeal.S64x64, .f32⟩ : BufTy).Contents (Elt Ideal)) (a13 : (⟨Cert.ReferenceIdeal.S64, .f32⟩ : BufTy).Contents (Elt Ideal)) (a14 : (⟨Cert.ReferenceIdeal.S64x1, .f32⟩ : BufTy).Contents (Elt Ideal))
    (hI : Wx (Proc.devRef .tc main_v1) = Cert.ReferenceIdeal.Read.val_main_v1 (F := Ideal) a2)
    (hT : ∀ i, Wx (Proc.devRef .tc main_v42_1) i = Cert.ReferenceIdeal.Read.val_main_v55 (F := Ideal) a0 a1 a2 a3 a4 a5 a6 a7 a12 a13 a14 i)
    (n : Fin 50000) (d : Fin 3) :
    StableHlo.after (hostOps1 (F := Ideal)) Wx (Proc.devRef .tc main_v48) (ix2 n (⟨d.val, by omega⟩ : Fin 68))
      = Cert.ReferenceIdeal.Read.val_main_v58 (F := Ideal) a0 a1 a2 a3 a4 a5 a6 a7 a12 a13 a14 (ix2 n d) := by
  have hT' : Wx (Proc.devRef .tc main_v42_1) = Cert.ReferenceIdeal.Read.val_main_v55 (F := Ideal) a0 a1 a2 a3 a4 a5 a6 a7 a12 a13 a14 := funext hT
  rw [tail_v48 Wx, fused_col_trans, hT', hI]
  rfl

/-- Column 3: the reference's edge count. -/
theorem agg_count (a2 : (⟨Cert.ReferenceIdeal.S2x800000, .i32⟩ : BufTy).Contents (Elt Ideal))
    (hI : Wx (Proc.devRef .tc main_v1) = Cert.ReferenceIdeal.Read.val_main_v1 (F := Ideal) a2)
    (n : Fin 50000) :
    StableHlo.after (hostOps1 (F := Ideal)) Wx (Proc.devRef .tc main_v48) (ix2 n (⟨3, by omega⟩ : Fin 68))
      = Cert.ReferenceIdeal.Read.val_main_v62 (F := Ideal) a2 (ix1 n) := by
  rw [tail_v48 Wx, fused_col_count, hI]
  rfl

/-- Columns 4–67: the reference's scatter-add of edge_feat. -/
theorem agg_feat (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal))
    (hI : Wx (Proc.devRef .tc main_v1) = Cert.ReferenceIdeal.Read.val_main_v1 (F := Ideal) a2)
    (hF : ∀ i, Wx (Proc.devRef .tc main_v42_0) i = Cert.ReferenceIdeal.Read.val_main_v46 (F := Ideal) a0 a1 a2 a3 a4 a5 a6 a7 i)
    (n : Fin 50000) (k : Fin 64) :
    StableHlo.after (hostOps1 (F := Ideal)) Wx (Proc.devRef .tc main_v48) (ix2 n (⟨4 + k.val, by omega⟩ : Fin 68))
      = Cert.ReferenceIdeal.Read.val_main_v70 (F := Ideal) a0 a1 a2 a3 a4 a5 a6 a7 (ix2 n k) := by
  have hF' : (extf (F := Ideal) .f32 (Wx (Proc.devRef .tc main_v42_0) : FVec Ideal S800000x64 .bf16) bitsLt_bf16_f32 : FVec Ideal S800000x64 .f32)
      = Cert.ReferenceIdeal.Read.val_main_v46 (F := Ideal) a0 a1 a2 a3 a4 a5 a6 a7 := funext hF
  rw [tail_v48 Wx, fused_col_feat, hF', hI]
  rfl

end Cert.Val

end
-- ==== Proof.Val.NodeRow.lean ====
/-
  One row of the node kernel's two stored blocks against the reference's two results at the corresponding node.

  Features: h_out[n, j] = h[n, j] + (Σ_{k<64} silu(x[k]) · W₂[k, j] + b₂[j]) with x[k] = Σ_{q<128} row[q] · W₁[q, k] + b₁[k]
  and row = [h[n, :] | agg_h[n, :]]. The kernel joins its feature block with columns 4..67 of its aggregate block and
  multiplies once into a zero accumulator; the reference joins the feature array with the aggregated messages and
  contracts once. Both are stated as the same function of node n's rows, so no sum is regrouped. silu is x · logistic x
  in the kernel and x · (1 / (1 + exp(−x))) on the host: one function at the ideal values.

  Coordinates: coord_out[n, d] = coord[n, d] + agg_c[n, d] / max(1, cnt[n]), with agg_c columns 0..2 and cnt column 3 of
  the aggregate block; both sides take the maximum with the operands in the same order.
-/
import proofs.«177907_j11751030522785_2_alg».proof.Proof.Gen.KernelIdeal.Skeleton
import proofs.«177907_j11751030522785_2_alg».proof.Proof.Gen.ReferenceIdeal.Read
import proofs.«177907_j11751030522785_2_alg».proof.Proof.LibMatmulSum
import proofs.«177907_j11751030522785_2_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

namespace Cert.Val

open Idealize.ShloMosaic Idealize.ShloMosaic.ValueIdx

/-! ## The node update as functions of one node's rows -/

/-- The 128-wide input row of a node: its 64 features, then its 64 aggregated messages. -/
def nodeJoin (u w : Fin 64 → EReal) (q : Fin 128) : EReal :=
  if h : q.val < 64 then u ⟨q.val, h⟩ else w ⟨q.val - 64, by have := q.isLt; omega⟩

/-- silu x = x · logistic x. -/
def nodeSilu (x : EReal) : EReal := x * Ideal.logistic x

/-- The first layer before its activation: row · W₁ + b₁, at output column k. -/
def nodePre (row : Fin 128 → EReal) (W1 : Fin 128 → Fin 64 → EReal) (b1 : Fin 64 → EReal) (k : Fin 64) : EReal :=
  (∑ q : Fin 128, row q * W1 q k) + b1 k

/-- The updated feature j of a node: h + (silu(row · W₁ + b₁) · W₂ + b₂). -/
def nodeHOut (h0 : EReal) (row : Fin 128 → EReal) (W1 : Fin 128 → Fin 64 → EReal) (b1 : Fin 64 → EReal)
    (W2 : Fin 64 → Fin 64 → EReal) (b2 : Fin 64 → EReal) (j : Fin 64) : EReal :=
  h0 + ((∑ k : Fin 64, nodeSilu (nodePre row W1 b1 k) * W2 k j) + b2 j)

/-- The updated coordinate of a node: x + agg / max(1, cnt). -/
def nodeCoordOut (c0 agg cnt : EReal) : EReal :=
  c0 + Ideal.div agg (max (Ideal.ofBits .f32 0x3F800000#32) cnt)

/-- The single-precision pattern of 1.0 is the extended real one. -/
theorem node_one_f32 : Ideal.ofBits .f32 0x3F800000#32 = 1 := by
  rw [show (1 : EReal) = ((1 : ℝ) : EReal) by norm_cast]
  simp [Ideal.ofBits, Ideal.ieee, -EReal.coe_mul]; norm_num

/-- The host's expansion x · (1 / (1 + exp(−x))) is silu. -/
theorem node_silu_host (x : Ideal .f32) :
    FloatOps.mulf x (FloatOps.hostDivf (FloatOps.ofBits .f32 0x3F800000#32)
      (FloatOps.addf (FloatOps.ofBits .f32 0x3F800000#32) (FloatOps.hostUnary .exp (FloatOps.hostNegf x)))) = nodeSilu x := by
  show x * Ideal.div (Ideal.ofBits .f32 0x3F800000#32) (Ideal.ofBits .f32 0x3F800000#32 + Ideal.exp (-x)) = x * Ideal.div 1 (1 + Ideal.exp (-x))
  rw [node_one_f32]

/-- The kernel's x · logistic x is silu. -/
theorem node_silu_kernel (x : Ideal .f32) : FloatOps.mulf x (FloatOps.logistic x) = nodeSilu x := rfl

/-! ## Two blocks joined along the columns, read at an index -/

variable {α : Type}

/-- A column in the first block reads the first operand. -/
theorem concat_cols_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1)
    (p : Fin n) (q : Fin c) (k : Fin a) (hk : k.val = q.val) :
    concatenate ⟨2, ![n, c]⟩ 1 [⟨⟨2, ![n, a]⟩, x₁⟩, ⟨⟨2, ![n, b]⟩, x₂⟩] h (ix2 p q) = x₁ (ix2 p k) :=
  concatenate_pair_apply_left 1 x₁ x₂ h (ix2 p q) rfl (ix2 p k) (fun bb => by
    match bb with
    | ⟨0, _⟩ => rfl
    | ⟨1, _⟩ => exact hk)

/-- A column past the first block reads the second operand, the first block's width less. -/
theorem concat_cols_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1)
    (p : Fin n) (q : Fin c) (k : Fin b) (hk : k.val + a = q.val) :
    concatenate ⟨2, ![n, c]⟩ 1 [⟨⟨2, ![n, a]⟩, x₁⟩, ⟨⟨2, ![n, b]⟩, x₂⟩] h (ix2 p q) = x₂ (ix2 p k) :=
  concatenate_pair_apply_right 1 x₁ x₂ h (ix2 p q) rfl rfl (ix2 p k) (fun bb hb => by
    match bb, hb with
    | ⟨0, _⟩, _ => rfl
    | ⟨1, _⟩, hb => exact absurd rfl hb) hk

/-- Two 64-wide blocks joined: the row of the joined block is the two rows joined. -/
theorem concat_cols_join {n : ℕ} (x₁ x₂ : (⟨2, ![n, 64]⟩ : Shape).Idx → EReal)
    (h : Shape.Concatenates [(⟨2, ![n, 64]⟩ : Shape), ⟨2, ![n, 64]⟩] ⟨2, ![n, 128]⟩ 1) (p : Fin n) (q : Fin 128) :
    concatenate ⟨2, ![n, 128]⟩ 1 [⟨⟨2, ![n, 64]⟩, x₁⟩, ⟨⟨2, ![n, 64]⟩, x₂⟩] h (ix2 p q)
      = nodeJoin (fun k => x₁ (ix2 p k)) (fun k => x₂ (ix2 p k)) q := by
  unfold nodeJoin
  by_cases hq : q.val < 64
  · rw [dif_pos hq]
    exact concat_cols_left x₁ x₂ h p q ⟨q.val, hq⟩ rfl
  · rw [dif_neg hq]
    exact concat_cols_right x₁ x₂ h p q ⟨q.val - 64, by have := q.isLt; omega⟩ (by show q.val - 64 + 64 = q.val; omega)

/-! ## The node kernel's two payloads at one row -/

/-- The first product of the node update, [5000, 128] by [128, 64], is a plain product. -/
theorem node_plain1 : Cert.LibMatmulSum.Plain Cert.KernelIdeal.dot_S5000x128_S128x64_S5000x64_1_0_0_1_n_n where
  rank := rfl
  size := rfl
  l0 := fun i q => by
    unfold DotDims.lhsIdx
    rw [dif_neg (show ¬(0 : Fin 2) ∈ Cert.KernelIdeal.dot_S5000x128_S128x64_S5000x64_1_0_0_1_n_n.lhsBatch by decide),
      dif_pos (show (0 : Fin 2) ∈ Cert.KernelIdeal.dot_S5000x128_S128x64_S5000x64_1_0_0_1_n_n.lhsNonContracting by decide)]
    rfl
  l1 := fun i q => Cert.KernelIdeal.dot_S5000x128_S128x64_S5000x64_1_0_0_1_n_n.lhsIdx_val_of_single rfl i q
  r0 := fun i q => Cert.KernelIdeal.dot_S5000x128_S128x64_S5000x64_1_0_0_1_n_n.rhsIdx_val_of_single rfl i q
  r1 := fun i q => by
    unfold DotDims.rhsIdx
    rw [dif_neg (show ¬(1 : Fin 2) ∈ Cert.KernelIdeal.dot_S5000x128_S128x64_S5000x64_1_0_0_1_n_n.rhsBatch by decide),
      dif_pos (show (1 : Fin 2) ∈ Cert.KernelIdeal.dot_S5000x128_S128x64_S5000x64_1_0_0_1_n_n.rhsNonContracting by decide)]
    rfl

/-- The second product of the node update, [5000, 64] by [64, 64], is a plain product. -/
theorem node_plain2 : Cert.LibMatmulSum.Plain Cert.KernelIdeal.dot_S5000x64_S64x64_S5000x64_1_0_0_1_n_n where
  rank := rfl
  size := rfl
  l0 := fun i q => by
    unfold DotDims.lhsIdx
    rw [dif_neg (show ¬(0 : Fin 2) ∈ Cert.KernelIdeal.dot_S5000x64_S64x64_S5000x64_1_0_0_1_n_n.lhsBatch by decide),
      dif_pos (show (0 : Fin 2) ∈ Cert.KernelIdeal.dot_S5000x64_S64x64_S5000x64_1_0_0_1_n_n.lhsNonContracting by decide)]
    rfl
  l1 := fun i q => Cert.KernelIdeal.dot_S5000x64_S64x64_S5000x64_1_0_0_1_n_n.lhsIdx_val_of_single rfl i q
  r0 := fun i q => Cert.KernelIdeal.dot_S5000x64_S64x64_S5000x64_1_0_0_1_n_n.rhsIdx_val_of_single rfl i q
  r1 := fun i q => by
    unfold DotDims.rhsIdx
    rw [dif_neg (show ¬(1 : Fin 2) ∈ Cert.KernelIdeal.dot_S5000x64_S64x64_S5000x64_1_0_0_1_n_n.rhsBatch by decide),
      dif_pos (show (1 : Fin 2) ∈ Cert.KernelIdeal.dot_S5000x64_S64x64_S5000x64_1_0_0_1_n_n.rhsNonContracting by decide)]
    rfl

/-- Row p of the kernel's feature payload is the node update of row p of its blocks: the joined row is the feature block's
    row followed by columns 4..67 of the aggregate block's row. -/
theorem node_k_hout (y0 : Vec Ideal Cert.KernelIdeal.S5000x64 .f32) (y1 : Vec Ideal Cert.KernelIdeal.S5000x68 .f32)
    (y3 : Vec Ideal Cert.KernelIdeal.S128x64 .f32) (y4 : Vec Ideal Cert.KernelIdeal.S1x64 .f32)
    (y5 : Vec Ideal Cert.KernelIdeal.S64x64 .f32) (y6 : Vec Ideal Cert.KernelIdeal.S1x64 .f32) (p : Fin 5000) (j : Fin 64) :
    Cert.KernelIdeal.Gen.k1_pay2 (F := Ideal) y0 y1 y3 y4 y5 y6 (ix2 p j)
      = nodeHOut (y0 (ix2 p j))
          (nodeJoin (fun k => y0 (ix2 p k)) (fun k => y1 (ix2 p ⟨4 + k.val, by omega⟩)))
          (fun q k => y3 (ix2 q k)) (fun k => y4 (ix2 (0 : Fin 1) k))
          (fun k j => y5 (ix2 k j)) (fun j => y6 (ix2 (0 : Fin 1) j)) j := by
  unfold Cert.KernelIdeal.Gen.k1_pay2 Cert.KernelIdeal.Gen.k1_pay1 nodeHOut
  dsimp only
  refine congrArg₂ (· + ·) rfl (congrArg₂ (· + ·) ?_ ?_)
  · refine (Cert.LibMatmulSum.matmul_zero_at node_plain2 none _ _ p j).trans (Finset.sum_congr rfl fun k _ => ?_)
    refine congrArg₂ (· * ·) ?_ rfl
    refine (node_silu_kernel _).trans (congrArg nodeSilu ?_)
    unfold nodePre
    refine congrArg₂ (· + ·) ?_ ?_
    · refine (Cert.LibMatmulSum.matmul_zero_at node_plain1 none _ _ p k).trans (Finset.sum_congr rfl fun q _ => ?_)
      refine congrArg₂ (· * ·) ?_ rfl
      refine (concat_cols_join y0 _ Cert.KernelIdeal.Gen.concatenates_S5000x64_S5000x64_S5000x128_d1 p q).trans ?_
      refine congrArg (fun w => nodeJoin (fun k => y0 (ix2 p k)) w q) (funext fun k' => ?_)
      exact (slice2_axis1_apply 4 _ _ p k' (⟨4 + k'.val, by omega⟩ : Fin 68) rfl).trans (congrFun (shapeCast_self y1 _) _)
    · exact (broadcastTo_1b_ab_apply _ _ p k).trans (congrFun (shapeCast_self y4 _) _)
  · exact (broadcastTo_1b_ab_apply _ _ p j).trans (congrFun (shapeCast_self y6 _) _)

/-- Row p of the kernel's coordinate payload: the coordinate plus columns 0..2 of the aggregate block's row over
    max(1, column 3). -/
theorem node_k_coord (y1 : Vec Ideal Cert.KernelIdeal.S5000x68 .f32) (y2 : Vec Ideal Cert.KernelIdeal.S5000x3 .f32)
    (p : Fin 5000) (d : Fin 3) :
    Cert.KernelIdeal.Gen.k1_pay3 (F := Ideal) y1 y2 (ix2 p d)
      = nodeCoordOut (y2 (ix2 p d)) (y1 (ix2 p ⟨d.val, by omega⟩)) (y1 (ix2 p ⟨3, by omega⟩)) := by
  unfold Cert.KernelIdeal.Gen.k1_pay3 Cert.KernelIdeal.Gen.k1_pay1 nodeCoordOut
  dsimp only
  refine congrArg₂ (· + ·) rfl (congrArg₂ Ideal.div ?_ ?_)
  · exact (slice2_axis1_apply 0 _ _ p d (⟨d.val, by omega⟩ : Fin 68) (Nat.zero_add _).symm).trans (congrFun (shapeCast_self y1 _) _)
  · refine (broadcastTo_a1_ab_apply _ _ p d).trans (congrArg₂ max rfl ?_)
    exact (slice2_axis1_apply 3 _ _ p (0 : Fin 1) (⟨3, by omega⟩ : Fin 68) rfl).trans (congrFun (shapeCast_self y1 _) _)

/-! ## The reference's two results at one node -/

open Cert.ReferenceIdeal.Read in
/-- The reference's first layer at node n, column k, over the joined row of n: its features, then its aggregated messages. -/
theorem node_r_pre (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a8 : (⟨Cert.ReferenceIdeal.S128x64, .f32⟩ : BufTy).Contents (Elt Ideal)) (a9 : (⟨Cert.ReferenceIdeal.S64, .f32⟩ : BufTy).Contents (Elt Ideal)) (n : Fin 50000) (k : Fin 64) :
    val_main_v75 (F := Ideal) a0 a1 a2 a3 a4 a5 a6 a7 a8 a9 (ix2 n k)
      = nodePre (nodeJoin (fun k => a0 (ix2 n k)) (fun k => val_main_v70 (F := Ideal) a0 a1 a2 a3 a4 a5 a6 a7 (ix2 n k)))
          (fun q k => a8 (ix2 q k)) (fun k => a9 (ix1 k)) k := by
  rw [val_main_v75_apply, val_main_v72_apply, val_main_v74_apply, val_main_v73_apply]
  unfold nodePre
  refine congrArg₂ (· + ·) (Finset.sum_congr rfl fun q _ => congrArg₂ (· * ·) ?_ ?_) ?_
  · have el : lidx_main_v72 (ix2 n k) q = ix2 n q := funext fun a => by match a with | ⟨0, _⟩ => rfl | ⟨1, _⟩ => rfl
    rw [el]
    unfold val_main_v71
    exact concat_cols_join a0 _ _ n q
  · exact congrArg a8 (funext fun a => by match a with | ⟨0, _⟩ => rfl | ⟨1, _⟩ => rfl)
  · exact congrArg a9 (funext fun a => by match a with | ⟨0, _⟩ => rfl)

open Cert.ReferenceIdeal.Read in
/-- The reference's activation at node n, column k, is silu of its first layer there. -/
theorem node_r_act (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a8 : (⟨Cert.ReferenceIdeal.S128x64, .f32⟩ : BufTy).Contents (Elt Ideal)) (a9 : (⟨Cert.ReferenceIdeal.S64, .f32⟩ : BufTy).Contents (Elt Ideal)) (n : Fin 50000) (k : Fin 64) :
    val_main_v76 (F := Ideal) a0 a1 a2 a3 a4 a5 a6 a7 a8 a9 (ix2 n k) = nodeSilu (val_main_v75 (F := Ideal) a0 a1 a2 a3 a4 a5 a6 a7 a8 a9 (ix2 n k)) := by
  rw [val_main_v76_apply, val_main_call5_v5_apply, val_main_call5_v4_apply, val_main_call5_cst_0_apply,
    val_main_call5_v3_apply, val_main_call5_v2_apply, val_main_call5_cst_apply, val_main_call5_v1_apply,
    val_main_call5_v0_apply]
  exact node_silu_host _

open Cert.ReferenceIdeal.Read in
/-- The reference's updated features at node n are the node update of n's rows. -/
theorem node_r_hout (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a8 : (⟨Cert.ReferenceIdeal.S128x64, .f32⟩ : BufTy).Contents (Elt Ideal)) (a9 : (⟨Cert.ReferenceIdeal.S64, .f32⟩ : BufTy).Contents (Elt Ideal)) (a10 : (⟨Cert.ReferenceIdeal.S64x64, .f32⟩ : BufTy).Contents (Elt Ideal)) (a11 : (⟨Cert.ReferenceIdeal.S64, .f32⟩ : BufTy).Contents (Elt Ideal)) (n : Fin 50000) (j : Fin 64) :
    val_main_v81 (F := Ideal) a0 a1 a2 a3 a4 a5 a6 a7 a8 a9 a10 a11 (ix2 n j)
      = nodeHOut (a0 (ix2 n j))
          (nodeJoin (fun k => a0 (ix2 n k)) (fun k => val_main_v70 (F := Ideal) a0 a1 a2 a3 a4 a5 a6 a7 (ix2 n k)))
          (fun q k => a8 (ix2 q k)) (fun k => a9 (ix1 k)) (fun k j => a10 (ix2 k j)) (fun j => a11 (ix1 j)) j := by
  rw [val_main_v81_apply, val_main_v80_apply, val_main_v77_apply, val_main_v79_apply, val_main_v78_apply]
  unfold nodeHOut
  refine congrArg₂ (· + ·) rfl (congrArg₂ (· + ·) (Finset.sum_congr rfl fun k _ => congrArg₂ (· * ·) ?_ ?_) ?_)
  · have el : lidx_main_v77 (ix2 n j) k = ix2 n k := funext fun a => by match a with | ⟨0, _⟩ => rfl | ⟨1, _⟩ => rfl
    rw [el, node_r_act, node_r_pre]
  · exact congrArg a10 (funext fun a => by match a with | ⟨0, _⟩ => rfl | ⟨1, _⟩ => rfl)
  · exact congrArg a11 (funext fun a => by match a with | ⟨0, _⟩ => rfl)

open Cert.ReferenceIdeal.Read in
/-- The reference's updated coordinates at node n: the coordinate plus the aggregated translation over max(1, count). -/
theorem node_r_coord (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a12 : (⟨Cert.ReferenceIdeal.S64x64, .f32⟩ : BufTy).Contents (Elt Ideal)) (a13 : (⟨Cert.ReferenceIdeal.S64, .f32⟩ : BufTy).Contents (Elt Ideal)) (a14 : (⟨Cert.ReferenceIdeal.S64x1, .f32⟩ : BufTy).Contents (Elt Ideal)) (n : Fin 50000) (d : Fin 3) :
    val_main_v67 (F := Ideal) a0 a1 a2 a3 a4 a5 a6 a7 a12 a13 a14 (ix2 n d)
      = nodeCoordOut (a1 (ix2 n d)) (val_main_v58 (F := Ideal) a0 a1 a2 a3 a4 a5 a6 a7 a12 a13 a14 (ix2 n d)) (val_main_v62 (F := Ideal) a2 (ix1 n)) := by
  rw [val_main_v67_apply, val_main_v66_apply, val_main_v65_apply, val_main_v64_apply, val_main_v63_apply,
    val_main_call4_v1_apply, val_main_call4_v0_apply, val_main_cst_12_apply]
  have e : idx_main_v64 (idx_main_v65 (ix2 n d)) = ix1 n := funext fun a => by match a with | ⟨0, _⟩ => rfl
  rw [e]
  rfl

/-! ## One row of the node kernel against the reference -/

open Cert.ReferenceIdeal.Read in
/-- Row p of the kernel's feature payload is the reference's updated features at node n, when row p of each moving block
    is node n's row of the array it stages and the resident blocks are the weight and bias arrays. Both sides form the
    same 128-wide row and the same two products; silu is one function at the ideal values. -/
theorem h_out_row (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a8 : (⟨Cert.ReferenceIdeal.S128x64, .f32⟩ : BufTy).Contents (Elt Ideal)) (a9 : (⟨Cert.ReferenceIdeal.S64, .f32⟩ : BufTy).Contents (Elt Ideal)) (a10 : (⟨Cert.ReferenceIdeal.S64x64, .f32⟩ : BufTy).Contents (Elt Ideal)) (a11 : (⟨Cert.ReferenceIdeal.S64, .f32⟩ : BufTy).Contents (Elt Ideal))
    (y0 : Vec Ideal Cert.KernelIdeal.S5000x64 .f32) (y1 : Vec Ideal Cert.KernelIdeal.S5000x68 .f32) (y3 : Vec Ideal Cert.KernelIdeal.S128x64 .f32)
    (y4 : Vec Ideal Cert.KernelIdeal.S1x64 .f32) (y5 : Vec Ideal Cert.KernelIdeal.S64x64 .f32) (y6 : Vec Ideal Cert.KernelIdeal.S1x64 .f32)
    (p : Fin 5000) (n : Fin 50000)
    (g0 : ∀ k : Fin 64, y0 (ix2 p k) = a0 (ix2 n k))
    (g1h : ∀ k : Fin 64, y1 (ix2 p ⟨4 + k.val, by omega⟩) = val_main_v70 (F := Ideal) a0 a1 a2 a3 a4 a5 a6 a7 (ix2 n k))
    (g3 : ∀ (q : Fin 128) (k : Fin 64), y3 (ix2 q k) = a8 (ix2 q k))
    (g4 : ∀ k : Fin 64, y4 (ix2 (0 : Fin 1) k) = a9 (ix1 k))
    (g5 : ∀ k j : Fin 64, y5 (ix2 k j) = a10 (ix2 k j))
    (g6 : ∀ j : Fin 64, y6 (ix2 (0 : Fin 1) j) = a11 (ix1 j)) (j : Fin 64) :
    Cert.KernelIdeal.Gen.k1_pay2 (F := Ideal) y0 y1 y3 y4 y5 y6 (ix2 p j)
      = val_main_v81 (F := Ideal) a0 a1 a2 a3 a4 a5 a6 a7 a8 a9 a10 a11 (ix2 n j) := by
  rw [node_k_hout, node_r_hout]
  simp only [g0, g1h, g3, g4, g5, g6]

open Cert.ReferenceIdeal.Read in
/-- Row p of the kernel's coordinate payload is the reference's updated coordinates at node n, when columns 0..2 and
    column 3 of the aggregate block's row p are node n's aggregated translation and count. -/
theorem coord_out_row (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a12 : (⟨Cert.ReferenceIdeal.S64x64, .f32⟩ : BufTy).Contents (Elt Ideal)) (a13 : (⟨Cert.ReferenceIdeal.S64, .f32⟩ : BufTy).Contents (Elt Ideal)) (a14 : (⟨Cert.ReferenceIdeal.S64x1, .f32⟩ : BufTy).Contents (Elt Ideal))
    (y1 : Vec Ideal Cert.KernelIdeal.S5000x68 .f32) (y2 : Vec Ideal Cert.KernelIdeal.S5000x3 .f32) (p : Fin 5000) (n : Fin 50000)
    (g1c : ∀ d : Fin 3, y1 (ix2 p ⟨d.val, by omega⟩) = val_main_v58 (F := Ideal) a0 a1 a2 a3 a4 a5 a6 a7 a12 a13 a14 (ix2 n d))
    (g1n : y1 (ix2 p ⟨3, by omega⟩) = val_main_v62 (F := Ideal) a2 (ix1 n))
    (g2 : ∀ d : Fin 3, y2 (ix2 p d) = a1 (ix2 n d)) (d : Fin 3) :
    Cert.KernelIdeal.Gen.k1_pay3 (F := Ideal) y1 y2 (ix2 p d)
      = val_main_v67 (F := Ideal) a0 a1 a2 a3 a4 a5 a6 a7 a12 a13 a14 (ix2 n d) := by
  rw [node_k_coord, node_r_coord, g1c d, g1n, g2 d]

end Cert.Val

end
-- ==== Proof.Val.NodeArrays.lean ====
/-
  The node kernel's two result arrays after its pipeline has run. Point t of the ten works on rows 5000·t … 5000·t + 4999
  of the node arrays and on the whole of the weight and bias arrays; what it writes back is, row by row, the body's
  payload of its blocks' rows, which is the reference's result at the node the row belongs to. The ten blocks cover
  the arrays, so the feature array ends holding the reference's updated features and the coordinate array the
  reference's updated coordinates — for any contents the region is entered with whose arrays hold the reference's
  arguments and aggregates.
-/
import proofs.«177907_j11751030522785_2_alg».proof.Proof.KI.Node
import proofs.«177907_j11751030522785_2_alg».proof.Proof.Val.Blocks
import proofs.«177907_j11751030522785_2_alg».proof.Proof.Gen.ReferenceIdeal.Read
import proofs.«177907_j11751030522785_2_alg».proof.Proof.Val.NodeRow

set_option maxRecDepth 16384

noncomputable section

namespace Cert.Val

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.KernelIdeal.Hand

-- the core's buffer contents when the node region is entered
variable (V : (c : Dev nD) → (b : Ref sig .tc) → Buf (Elt Ideal) ((c : Thread nD τ).loc b)) (c : Dev nD)

theorem node_hz : (![0, 0] : Fin 2 → Nat) = fun _ => 0 := funext fun a => by fin_cases a <;> rfl

/-! ## The input blocks, entry by entry -/

section Rows
variable (t : Fin cfg1.N) (p : Fin 5000) (he : 5000 * t.val + p.val < 50000)

/-- Row p of the feature block at point t is row 5000·t + p of the feature array. -/
theorem nblk1_0 (k : Fin 64) : iblk1 V c 0 t (ix2 p k) = V c main_arg0 (ix2 ⟨5000 * t.val + p.val, he⟩ k) :=
  read1_0 t p k (V c main_arg0) he
/-- Row p of the aggregate block at point t is row 5000·t + p of the aggregate array. -/
theorem nblk1_1 (k : Fin 68) : iblk1 V c 1 t (ix2 p k) = V c main_v48 (ix2 ⟨5000 * t.val + p.val, he⟩ k) :=
  read1_1 t p k (V c main_v48) he
/-- Row p of the coordinate block at point t is row 5000·t + p of the coordinate array. -/
theorem nblk1_2 (k : Fin 3) : iblk1 V c 2 t (ix2 p k) = V c main_arg1 (ix2 ⟨5000 * t.val + p.val, he⟩ k) :=
  read1_2 t p k (V c main_arg1) he
end Rows

section Resident
variable (t : Fin cfg1.N)
/-- The weight and bias blocks are their arrays at every point. -/
theorem nblk1_3 (q : Fin 128) (k : Fin 64) : iblk1 V c 3 t (ix2 q k) = V c main_arg8 (ix2 q k) := read1_3 t q k (V c main_arg8)
theorem nblk1_4 (j : Fin 64) : iblk1 V c 4 t (ix2 (0 : Fin 1) j) = V c main_v49 (ix2 (0 : Fin 1) j) := read1_4 t 0 j (V c main_v49)
theorem nblk1_5 (k j : Fin 64) : iblk1 V c 5 t (ix2 k j) = V c main_arg10 (ix2 k j) := read1_5 t k j (V c main_arg10)
theorem nblk1_6 (j : Fin 64) : iblk1 V c 6 t (ix2 (0 : Fin 1) j) = V c main_v50 (ix2 (0 : Fin 1) j) := read1_6 t 0 j (V c main_v50)
end Resident

/-! ## What each point writes back -/

open Cert.ReferenceIdeal.Read in
/-- Point t writes back block t of the reference's updated features. -/
theorem flushed1_7 (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a8 : (⟨Cert.ReferenceIdeal.S128x64, .f32⟩ : BufTy).Contents (Elt Ideal)) (a9 : (⟨Cert.ReferenceIdeal.S64, .f32⟩ : BufTy).Contents (Elt Ideal)) (a10 : (⟨Cert.ReferenceIdeal.S64x64, .f32⟩ : BufTy).Contents (Elt Ideal)) (a11 : (⟨Cert.ReferenceIdeal.S64, .f32⟩ : BufTy).Contents (Elt Ideal))
    (q0 : ∀ i, V c main_arg0 i = a0 i)
    (q1h : ∀ (n : Fin 50000) (k : Fin 64), V c main_v48 (ix2 n (⟨4 + k.val, by omega⟩ : Fin 68)) = val_main_v70 (F := Ideal) a0 a1 a2 a3 a4 a5 a6 a7 (ix2 n k))
    (q3 : ∀ i, V c main_arg8 i = a8 i) (q4 : ∀ j : Fin 64, V c main_v49 (ix2 (0 : Fin 1) j) = a9 (ix1 j))
    (q5 : ∀ i, V c main_arg10 i = a10 i) (q6 : ∀ j : Fin 64, V c main_v50 (ix2 (0 : Fin 1) j) = a11 (ix1 j)) (t : Fin cfg1.N) :
    (dat1 V c).flushed 7 t = ((cfg1.win 7).blk t).view.read (Elt Ideal) (val_main_v81 (F := Ideal) a0 a1 a2 a3 a4 a5 a6 a7 a8 a9 a10 a11) := by
  show (cfg1.win 7).cut (grid1.coords t) ((dat1 V c).after 7 t) = _
  rw [after1_7]
  unfold out1_7
  rw [View.canon_unit_zero node_hz]
  simp only [View.ld_unit_zero (S := S5000x64) node_hz, View.ld_unit_zero (S := S5000x68) node_hz, View.ld_unit_zero (S := S128x64) node_hz,
    View.ld_unit_zero (S := S1x64) node_hz, View.ld_unit_zero (S := S64x64) node_hz]
  funext y
  obtain ⟨p, j, rfl⟩ : ∃ (p : Fin 5000) (j : Fin 64), y = ix2 p j := ⟨y 0, y 1, eq_ix2 y⟩
  have ht := lt1 t
  have he : 5000 * t.val + p.val < 50000 := by have := p.isLt; omega
  rw [read1_7 t p j _ he]
  exact h_out_row a0 a1 a2 a3 a4 a5 a6 a7 a8 a9 a10 a11 (iblk1 V c 0 t) (iblk1 V c 1 t) (iblk1 V c 3 t) (iblk1 V c 4 t) (iblk1 V c 5 t) (iblk1 V c 6 t)
    p ⟨5000 * t.val + p.val, he⟩
    (fun k => (nblk1_0 V c t p he k).trans (q0 _))
    (fun k => (nblk1_1 V c t p he _).trans (q1h _ k))
    (fun q k => (nblk1_3 V c t q k).trans (q3 _))
    (fun k => (nblk1_4 V c t k).trans (q4 k))
    (fun k j => (nblk1_5 V c t k j).trans (q5 _))
    (fun j => (nblk1_6 V c t j).trans (q6 j)) j

open Cert.ReferenceIdeal.Read in
/-- Point t writes back block t of the reference's updated coordinates. -/
theorem flushed1_8 (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a12 : (⟨Cert.ReferenceIdeal.S64x64, .f32⟩ : BufTy).Contents (Elt Ideal)) (a13 : (⟨Cert.ReferenceIdeal.S64, .f32⟩ : BufTy).Contents (Elt Ideal)) (a14 : (⟨Cert.ReferenceIdeal.S64x1, .f32⟩ : BufTy).Contents (Elt Ideal))
    (q1c : ∀ (n : Fin 50000) (d : Fin 3), V c main_v48 (ix2 n (⟨d.val, by omega⟩ : Fin 68)) = val_main_v58 (F := Ideal) a0 a1 a2 a3 a4 a5 a6 a7 a12 a13 a14 (ix2 n d))
    (q1n : ∀ n : Fin 50000, V c main_v48 (ix2 n (⟨3, by omega⟩ : Fin 68)) = val_main_v62 (F := Ideal) a2 (ix1 n))
    (q2 : ∀ i, V c main_arg1 i = a1 i) (t : Fin cfg1.N) :
    (dat1 V c).flushed 8 t = ((cfg1.win 8).blk t).view.read (Elt Ideal) (val_main_v67 (F := Ideal) a0 a1 a2 a3 a4 a5 a6 a7 a12 a13 a14) := by
  show (cfg1.win 8).cut (grid1.coords t) ((dat1 V c).after 8 t) = _
  rw [after1_8]
  unfold out1_8
  rw [View.canon_unit_zero node_hz]
  simp only [View.ld_unit_zero (S := S5000x68) node_hz, View.ld_unit_zero (S := S5000x3) node_hz]
  funext y
  obtain ⟨p, d, rfl⟩ : ∃ (p : Fin 5000) (d : Fin 3), y = ix2 p d := ⟨y 0, y 1, eq_ix2 y⟩
  have ht := lt1 t
  have he : 5000 * t.val + p.val < 50000 := by have := p.isLt; omega
  rw [read1_8 t p d _ he]
  exact coord_out_row a0 a1 a2 a3 a4 a5 a6 a7 a12 a13 a14 (iblk1 V c 1 t) (iblk1 V c 2 t) p ⟨5000 * t.val + p.val, he⟩
    (fun d' => (nblk1_1 V c t p he _).trans (q1c _ d'))
    ((nblk1_1 V c t p he _).trans (q1n _))
    (fun d' => (nblk1_2 V c t p he d').trans (q2 _)) d

/-! ## The arrays after the pipeline -/

open Cert.ReferenceIdeal.Read in
/-- The feature array after the node kernel: the reference's updated features. -/
theorem h_out_array (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a8 : (⟨Cert.ReferenceIdeal.S128x64, .f32⟩ : BufTy).Contents (Elt Ideal)) (a9 : (⟨Cert.ReferenceIdeal.S64, .f32⟩ : BufTy).Contents (Elt Ideal)) (a10 : (⟨Cert.ReferenceIdeal.S64x64, .f32⟩ : BufTy).Contents (Elt Ideal)) (a11 : (⟨Cert.ReferenceIdeal.S64, .f32⟩ : BufTy).Contents (Elt Ideal))
    (q0 : ∀ i, V c main_arg0 i = a0 i)
    (q1h : ∀ (n : Fin 50000) (k : Fin 64), V c main_v48 (ix2 n (⟨4 + k.val, by omega⟩ : Fin 68)) = val_main_v70 (F := Ideal) a0 a1 a2 a3 a4 a5 a6 a7 (ix2 n k))
    (q3 : ∀ i, V c main_arg8 i = a8 i) (q4 : ∀ j : Fin 64, V c main_v49 (ix2 (0 : Fin 1) j) = a9 (ix1 j))
    (q5 : ∀ i, V c main_arg10 i = a10 i) (q6 : ∀ j : Fin 64, V c main_v50 (ix2 (0 : Fin 1) j) = a11 (ix1 j)) :
    (dat1 V c).arrAt 7 cfg1.N = val_main_v81 (F := Ideal) a0 a1 a2 a3 a4 a5 a6 a7 a8 a9 a10 a11 :=
  (dat1 V c).arrAt_eq_of_cover 7 _ (fun t _ => flushed1_7 V c a0 a1 a2 a3 a4 a5 a6 a7 a8 a9 a10 a11 q0 q1h q3 q4 q5 q6 t) Cert.Val.cover1_7

open Cert.ReferenceIdeal.Read in
/-- The coordinate array after the node kernel: the reference's updated coordinates. -/
theorem coord_out_array (a0 : (⟨Cert.ReferenceIdeal.S50000x64, .f32⟩ : BufTy).Contents (Elt Ideal)) (a1 : (⟨Cert.ReferenceIdeal.S50000x3, .f32⟩ : BufTy).Contents (Elt Ideal)) (a2 : (⟨Cert.ReferenceIdeal.S2x800000, .i32⟩ : BufTy).Contents (Elt Ideal)) (a3 : (⟨Cert.ReferenceIdeal.S800000x2, .f32⟩ : BufTy).Contents (Elt Ideal)) (a4 : (⟨Cert.ReferenceIdeal.S131x64, .f32⟩ : BufTy).Contents (Elt Ideal)) (a5 : (⟨Cert.ReferenceIdeal.S64, .f32⟩ : BufTy).Contents (Elt Ideal)) (a6 : (⟨Cert.ReferenceIdeal.S64x64, .f32⟩ : BufTy).Contents (Elt Ideal)) (a7 : (⟨Cert.ReferenceIdeal.S64, .f32⟩ : BufTy).Contents (Elt Ideal)) (a12 : (⟨Cert.ReferenceIdeal.S64x64, .f32⟩ : BufTy).Contents (Elt Ideal)) (a13 : (⟨Cert.ReferenceIdeal.S64, .f32⟩ : BufTy).Contents (Elt Ideal)) (a14 : (⟨Cert.ReferenceIdeal.S64x1, .f32⟩ : BufTy).Contents (Elt Ideal))
    (q1c : ∀ (n : Fin 50000) (d : Fin 3), V c main_v48 (ix2 n (⟨d.val, by omega⟩ : Fin 68)) = val_main_v58 (F := Ideal) a0 a1 a2 a3 a4 a5 a6 a7 a12 a13 a14 (ix2 n d))
    (q1n : ∀ n : Fin 50000, V c main_v48 (ix2 n (⟨3, by omega⟩ : Fin 68)) = val_main_v62 (F := Ideal) a2 (ix1 n))
    (q2 : ∀ i, V c main_arg1 i = a1 i) :
    (dat1 V c).arrAt 8 cfg1.N = val_main_v67 (F := Ideal) a0 a1 a2 a3 a4 a5 a6 a7 a12 a13 a14 :=
  (dat1 V c).arrAt_eq_of_cover 8 _ (fun t _ => flushed1_8 V c a0 a1 a2 a3 a4 a5 a6 a7 a12 a13 a14 q1c q1n q2 t) Cert.Val.cover1_8

end Cert.Val

end
-- ==== Proof.Val.Final.lean ====
/-
  The two result arrays of the kernel program as functions of the launch memory.  After the edge kernel the
  edge-feature and translation arrays hold the reference's stages; the host operations in between scatter them, with a
  column of ones, into the node aggregate, whose columns are the reference's three scatter results; the node kernel
  then leaves the reference's two results in its output arrays.  Every other buffer the node kernel reads is an
  argument array, or a bias vector laid out as a row, untouched since launch.
-/
import proofs.«177907_j11751030522785_2_alg».proof.Proof.KI.Run
import proofs.«177907_j11751030522785_2_alg».proof.Proof.Val.EdgeArrays
import proofs.«177907_j11751030522785_2_alg».proof.Proof.Val.Tail
import proofs.«177907_j11751030522785_2_alg».proof.Proof.Val.NodeArrays

set_option maxRecDepth 16384

noncomputable section

namespace Cert.Val

open Idealize.ShloMosaic Idealize.ShloMosaic.TcCoe Idealize.ShloMosaic.ValueIdx Idealize.SL.Sem
open Cert.KernelIdeal Cert.KernelIdeal.Gen Cert.KernelIdeal.GenP Cert.KernelIdeal.Hand

variable (m : (ℓ : Loc nD τ sig) → Buf (Elt Ideal) ℓ) (c : Dev nD)

/-! ## After the edge kernel -/

/-- A buffer no host operation before the edge kernel writes and the edge kernel does not write back still holds its
    launch contents after the edge kernel. -/
theorem W2_launch (b : Ref sig .tc) (h0 : b ∉ Hand.hostOps0_W)
    (hin0 : ∀ w, Pipeline.arrRef spec0 w = b → (cfg0.win w).isOut = false) :
    W2 m c (Proc.devRef .tc b) = m ((c : Thread nD τ).loc b) :=
  (W2_keep m c b hin0).trans ((StableHlo.after_of_writes_sub hostOps0 _ hostOps0_writes h0).trans rfl)

theorem W2_rows : W2 m c (Proc.devRef .tc main_v1) = Cert.ReferenceIdeal.Read.val_main_v1 (F := Ideal) (A2 m c) :=
  (W2_of_ne m c main_v1 (by decide)).trans (stage_v1 m c)
theorem W2_trans (i) : W2 m c (Proc.devRef .tc main_v42_1) i = Cert.ReferenceIdeal.Read.val_main_v55 (F := Ideal) (A0 m c) (A1 m c) (A2 m c) (A3 m c) (A4 m c) (A5 m c) (A6 m c) (A7 m c) (A12 m c) (A13 m c) (A14 m c) i :=
  congrFun ((W2_arr m c 14).trans (trans_array m c)) i
theorem W2_feat (i) : W2 m c (Proc.devRef .tc main_v42_0) i = Cert.ReferenceIdeal.Read.val_main_v46 (F := Ideal) (A0 m c) (A1 m c) (A2 m c) (A3 m c) (A4 m c) (A5 m c) (A6 m c) (A7 m c) i :=
  congrFun ((W2_arr m c 13).trans (edge_feat_array m c)) i

/-! ## When the node kernel is entered -/

/-- An argument array is untouched when the node kernel is entered. -/
theorem U3_launch (b : Ref sig .tc) (h0 : b ∉ Hand.hostOps0_W) (h1 : b ∉ Hand.hostOps1_W)
    (hin0 : ∀ w, Pipeline.arrRef spec0 w = b → (cfg0.win w).isOut = false) :
    U3 m c b = m ((c : Thread nD τ).loc b) :=
  (StableHlo.after_of_writes_sub hostOps1 _ hostOps1_writes h1).trans (W2_launch m c b h0 hin0)

theorem U3_agg_c (n : Fin 50000) (d : Fin 3) :
    U3 m c main_v48 (ix2 n (⟨d.val, by omega⟩ : Fin 68)) = Cert.ReferenceIdeal.Read.val_main_v58 (F := Ideal) (A0 m c) (A1 m c) (A2 m c) (A3 m c) (A4 m c) (A5 m c) (A6 m c) (A7 m c) (A12 m c) (A13 m c) (A14 m c) (ix2 n d) :=
  agg_trans (W2 m c) (A0 m c) (A1 m c) (A2 m c) (A3 m c) (A4 m c) (A5 m c) (A6 m c) (A7 m c) (A12 m c) (A13 m c) (A14 m c) (W2_rows m c) (W2_trans m c) n d
theorem U3_cnt (n : Fin 50000) :
    U3 m c main_v48 (ix2 n (⟨3, by omega⟩ : Fin 68)) = Cert.ReferenceIdeal.Read.val_main_v62 (F := Ideal) (A2 m c) (ix1 n) :=
  agg_count (W2 m c) (A2 m c) (W2_rows m c) n
theorem U3_agg_h (n : Fin 50000) (k : Fin 64) :
    U3 m c main_v48 (ix2 n (⟨4 + k.val, by omega⟩ : Fin 68)) = Cert.ReferenceIdeal.Read.val_main_v70 (F := Ideal) (A0 m c) (A1 m c) (A2 m c) (A3 m c) (A4 m c) (A5 m c) (A6 m c) (A7 m c) (ix2 n k) :=
  agg_feat (W2 m c) (A0 m c) (A1 m c) (A2 m c) (A3 m c) (A4 m c) (A5 m c) (A6 m c) (A7 m c) (W2_rows m c) (W2_feat m c) n k
theorem U3_b1 (j : Fin 64) : U3 m c main_v49 (ix2 (0 : Fin 1) j) = A9 m c (ix1 j) :=
  (congrFun (tail_v49 (W2 m c)) _).trans ((shapeCast_a_1a_apply _ shapeCasts_S64_S1x64 0 j).trans
    (congrFun (W2_launch m c main_arg9 (by decide) (by decide)) _))
theorem U3_b2 (j : Fin 64) : U3 m c main_v50 (ix2 (0 : Fin 1) j) = A11 m c (ix1 j) :=
  (congrFun (tail_v50 (W2 m c)) _).trans ((shapeCast_a_1a_apply _ shapeCasts_S64_S1x64 0 j).trans
    (congrFun (W2_launch m c main_arg11 (by decide) (by decide)) _))

/-! ## The results -/

/-- The node features the kernel program returns are the reference's. -/
theorem res_h : W4 m c (Proc.devRef .tc main_v51_0) = Cert.ReferenceIdeal.Read.val_main_v81 (F := Ideal) (A0 m c) (A1 m c) (A2 m c) (A3 m c) (A4 m c) (A5 m c) (A6 m c) (A7 m c) (A8 m c) (A9 m c) (A10 m c) (A11 m c) :=
  (W4_arr m c 7).trans (h_out_array (U3 m) c (A0 m c) (A1 m c) (A2 m c) (A3 m c) (A4 m c) (A5 m c) (A6 m c) (A7 m c) (A8 m c) (A9 m c) (A10 m c) (A11 m c)
    (fun i => congrFun (U3_launch m c main_arg0 (by decide) (by decide) (by decide)) i)
    (U3_agg_h m c)
    (fun i => congrFun (U3_launch m c main_arg8 (by decide) (by decide) (by decide)) i)
    (U3_b1 m c)
    (fun i => congrFun (U3_launch m c main_arg10 (by decide) (by decide) (by decide)) i)
    (U3_b2 m c))
/-- The coordinates the kernel program returns are the reference's. -/
theorem res_c : W4 m c (Proc.devRef .tc main_v51_1) = Cert.ReferenceIdeal.Read.val_main_v67 (F := Ideal) (A0 m c) (A1 m c) (A2 m c) (A3 m c) (A4 m c) (A5 m c) (A6 m c) (A7 m c) (A12 m c) (A13 m c) (A14 m c) :=
  (W4_arr m c 8).trans (coord_out_array (U3 m) c (A0 m c) (A1 m c) (A2 m c) (A3 m c) (A4 m c) (A5 m c) (A6 m c) (A7 m c) (A12 m c) (A13 m c) (A14 m c)
    (U3_agg_c m c) (U3_cnt m c)
    (fun i => congrFun (U3_launch m c main_arg1 (by decide) (by decide) (by decide)) i))

/-- The kernel program at the ideal values: every execution terminates without a fault, its two results are the
    reference's functions of the argument arrays, and the argument arrays are unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v51_0) = Cert.ReferenceIdeal.Read.val_main_v81 (F := Ideal) (A0 m c) (A1 m c) (A2 m c) (A3 m c) (A4 m c) (A5 m c) (A6 m c) (A7 m c) (A8 m c) (A9 m c) (A10 m c) (A11 m c)
      ∧ r.2.mem ((c.tc : Thread nD τ).loc main_v51_1) = Cert.ReferenceIdeal.Read.val_main_v67 (F := Ideal) (A0 m c) (A1 m c) (A2 m c) (A3 m c) (A4 m c) (A5 m c) (A6 m c) (A7 m c) (A12 m c) (A13 m c) (A14 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c main_v51_0 (by decide)).trans (res_h m c), (h c main_v51_1 (by decide)).trans (res_c m c),
    (h c main_arg0 (by decide)).trans (W4_launch m c main_arg0 (by decide) (by decide) (by decide) (by decide)),
    (h c main_arg1 (by decide)).trans (W4_launch m c main_arg1 (by decide) (by decide) (by decide) (by decide)),
    (h c main_arg2 (by decide)).trans (W4_launch m c main_arg2 (by decide) (by decide) (by decide) (by decide)),
    (h c main_arg3 (by decide)).trans (W4_launch m c main_arg3 (by decide) (by decide) (by decide) (by decide)),
    (h c main_arg4 (by decide)).trans (W4_launch m c main_arg4 (by decide) (by decide) (by decide) (by decide)),
    (h c main_arg5 (by decide)).trans (W4_launch m c main_arg5 (by decide) (by decide) (by decide) (by decide)),
    (h c main_arg6 (by decide)).trans (W4_launch m c main_arg6 (by decide) (by decide) (by decide) (by decide)),
    (h c main_arg7 (by decide)).trans (W4_launch m c main_arg7 (by decide) (by decide) (by decide) (by decide)),
    (h c main_arg8 (by decide)).trans (W4_launch m c main_arg8 (by decide) (by decide) (by decide) (by decide)),
    (h c main_arg9 (by decide)).trans (W4_launch m c main_arg9 (by decide) (by decide) (by decide) (by decide)),
    (h c main_arg10 (by decide)).trans (W4_launch m c main_arg10 (by decide) (by decide) (by decide) (by decide)),
    (h c main_arg11 (by decide)).trans (W4_launch m c main_arg11 (by decide) (by decide) (by decide) (by decide)),
    (h c main_arg12 (by decide)).trans (W4_launch m c main_arg12 (by decide) (by decide) (by decide) (by decide)),
    (h c main_arg13 (by decide)).trans (W4_launch m c main_arg13 (by decide) (by decide) (by decide) (by decide)),
    (h c main_arg14 (by decide)).trans (W4_launch m c main_arg14 (by decide) (by decide) (by decide) (by decide))⟩)
    (run_read (F := Ideal) m ρ)

end Cert.Val

end
-- ==== Proof.lean ====
/- One layer of an E(n)-equivariant graph network on 50000 nodes (64 features h, 3 coordinates x) and 800000 edges
   (row r(e), column c(e), 2 attributes a_e), computed by two programs.

   For every edge e:   d_e = x_r(e) - x_c(e),   rho_e = |d_e|^2,
     m_e = silu (silu ([h_r(e) | h_c(e) | rho_e | a_e] W_e1 + b_e1) W_e2 + b_e2)          (64 features),
     t_e = clip (d_e * (silu (m_e W_c1 + b_c1) W_c2), -100, 100)                           (3 coordinates).
   For every node n, with the sums over the edges whose row is n and k_n their number:
     h'_n = h_n + silu ([h_n | sum m_e] W_n1 + b_n1) W_n2 + b_n2,      x'_n = x_n + (sum t_e) / max (k_n, 1).

   The reference computes exactly this. The kernel program differs in four ways, none of which changes a value at
   the ideal instance, where floats are extended reals and every operation is exact:
   - it rounds to a narrower format in several places (the node features before they are gathered, both operands of
     every matrix product, the edge features it stores): a change of format is the identity on extended reals;
   - it splits the 131-wide product [h_r | h_c | rho | a] W_e1 along the rows of W_e1 into 64 + 64 + 1 + 2: a finite
     sum regrouped, and sums of extended reals are commutative and associative;
   - it does one scatter-add of the 68-wide rows [t_e | 1 | m_e] where the reference does three: column by column the
     same sums over the same edges;
   - silu x is x times the logistic function of x in both, spelt by different operations that are one function.
   Both programs normalise the edge indices by the same integer operations and gather with the same index arrays.

   The three frame claims: each kernel program's run (word level and ideal) is assembled from the two kernels' body
   obligations; the reference is a straight line of host operations whose run leaves the arguments as they were.
   The ideal pass rewrote nothing, so the preservation claim is trivial. The algebraic claim: both results of both
   programs are the reference's last stages, as functions of the argument arrays, and the arguments agree. -/
import proofs.«177907_j11751030522785_2_alg».proof.Defs
import proofs.«177907_j11751030522785_2_alg».proof.Proof.Gen.Kernel
import proofs.«177907_j11751030522785_2_alg».proof.Proof.Gen.KernelIdeal
import proofs.«177907_j11751030522785_2_alg».proof.Proof.Gen.ReferenceIdeal
import proofs.«177907_j11751030522785_2_alg».proof.Proof.Gen.Pre_finite_inputs
import proofs.«177907_j11751030522785_2_alg».proof.Proof.Gen.ReferenceIdeal.Run
import proofs.«177907_j11751030522785_2_alg».proof.Proof.Gen.ReferenceIdeal.Read
import proofs.«177907_j11751030522785_2_alg».proof.Proof.K.Run
import proofs.«177907_j11751030522785_2_alg».proof.Proof.KI.Run
import proofs.«177907_j11751030522785_2_alg».proof.Proof.Val.Final
import Idealize.ShloMosaic.Adequacy
import Idealize.ShloMosaic.Init

noncomputable section

namespace Cert.Proof

open Idealize.ShloMosaic Idealize.SL.Sem

/-- The word-level kernel program terminates without a fault and leaves its fifteen argument arrays unchanged. -/
theorem frame_k : Cert.frame_Kernel := fun m ρ _ => Cert.Kernel.Hand.frame (F := Bits) m ρ

/-- The same for the kernel program at the ideal values. -/
theorem frame_ki : Cert.frame_KernelIdeal := fun m ρ _ => Cert.KernelIdeal.Hand.frame (F := Ideal) m ρ

/-- The reference: its run gives both results and the unchanged arguments; the frame claim is the second part. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's first result from a memory m' that agrees with m on the arguments is the last stage of the
    node features, as a function of m's argument arrays. -/
theorem ref_features
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (h0 : m' ((c.tc : Thread Cert.ReferenceIdeal.nD Cert.ReferenceIdeal.τ).loc Cert.ReferenceIdeal.main_arg0) = Cert.Val.A0 m c)
    (h1 : m' ((c.tc : Thread Cert.ReferenceIdeal.nD Cert.ReferenceIdeal.τ).loc Cert.ReferenceIdeal.main_arg1) = Cert.Val.A1 m c)
    (h2 : m' ((c.tc : Thread Cert.ReferenceIdeal.nD Cert.ReferenceIdeal.τ).loc Cert.ReferenceIdeal.main_arg2) = Cert.Val.A2 m c)
    (h3 : m' ((c.tc : Thread Cert.ReferenceIdeal.nD Cert.ReferenceIdeal.τ).loc Cert.ReferenceIdeal.main_arg3) = Cert.Val.A3 m c)
    (h4 : m' ((c.tc : Thread Cert.ReferenceIdeal.nD Cert.ReferenceIdeal.τ).loc Cert.ReferenceIdeal.main_arg4) = Cert.Val.A4 m c)
    (h5 : m' ((c.tc : Thread Cert.ReferenceIdeal.nD Cert.ReferenceIdeal.τ).loc Cert.ReferenceIdeal.main_arg5) = Cert.Val.A5 m c)
    (h6 : m' ((c.tc : Thread Cert.ReferenceIdeal.nD Cert.ReferenceIdeal.τ).loc Cert.ReferenceIdeal.main_arg6) = Cert.Val.A6 m c)
    (h7 : m' ((c.tc : Thread Cert.ReferenceIdeal.nD Cert.ReferenceIdeal.τ).loc Cert.ReferenceIdeal.main_arg7) = Cert.Val.A7 m c)
    (h8 : m' ((c.tc : Thread Cert.ReferenceIdeal.nD Cert.ReferenceIdeal.τ).loc Cert.ReferenceIdeal.main_arg8) = Cert.Val.A8 m c)
    (h9 : m' ((c.tc : Thread Cert.ReferenceIdeal.nD Cert.ReferenceIdeal.τ).loc Cert.ReferenceIdeal.main_arg9) = Cert.Val.A9 m c)
    (h10 : m' ((c.tc : Thread Cert.ReferenceIdeal.nD Cert.ReferenceIdeal.τ).loc Cert.ReferenceIdeal.main_arg10) = Cert.Val.A10 m c)
    (h11 : m' ((c.tc : Thread Cert.ReferenceIdeal.nD Cert.ReferenceIdeal.τ).loc Cert.ReferenceIdeal.main_arg11) = Cert.Val.A11 m c) :
    Cert.ReferenceIdeal.Value.res_main_v81 m' c
      = Cert.ReferenceIdeal.Read.val_main_v81 (F := Ideal) (Cert.Val.A0 m c) (Cert.Val.A1 m c) (Cert.Val.A2 m c) (Cert.Val.A3 m c)
          (Cert.Val.A4 m c) (Cert.Val.A5 m c) (Cert.Val.A6 m c) (Cert.Val.A7 m c) (Cert.Val.A8 m c) (Cert.Val.A9 m c)
          (Cert.Val.A10 m c) (Cert.Val.A11 m c) := by
  rw [Cert.ReferenceIdeal.Read.val_main_v81_eq, h0, h1, h2, h3, h4, h5, h6, h7, h8, h9, h10, h11]

/-- The reference's second result, likewise: the last stage of the coordinates. -/
theorem ref_coordinates
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.ReferenceIdeal.nD)
    (h0 : m' ((c.tc : Thread Cert.ReferenceIdeal.nD Cert.ReferenceIdeal.τ).loc Cert.ReferenceIdeal.main_arg0) = Cert.Val.A0 m c)
    (h1 : m' ((c.tc : Thread Cert.ReferenceIdeal.nD Cert.ReferenceIdeal.τ).loc Cert.ReferenceIdeal.main_arg1) = Cert.Val.A1 m c)
    (h2 : m' ((c.tc : Thread Cert.ReferenceIdeal.nD Cert.ReferenceIdeal.τ).loc Cert.ReferenceIdeal.main_arg2) = Cert.Val.A2 m c)
    (h3 : m' ((c.tc : Thread Cert.ReferenceIdeal.nD Cert.ReferenceIdeal.τ).loc Cert.ReferenceIdeal.main_arg3) = Cert.Val.A3 m c)
    (h4 : m' ((c.tc : Thread Cert.ReferenceIdeal.nD Cert.ReferenceIdeal.τ).loc Cert.ReferenceIdeal.main_arg4) = Cert.Val.A4 m c)
    (h5 : m' ((c.tc : Thread Cert.ReferenceIdeal.nD Cert.ReferenceIdeal.τ).loc Cert.ReferenceIdeal.main_arg5) = Cert.Val.A5 m c)
    (h6 : m' ((c.tc : Thread Cert.ReferenceIdeal.nD Cert.ReferenceIdeal.τ).loc Cert.ReferenceIdeal.main_arg6) = Cert.Val.A6 m c)
    (h7 : m' ((c.tc : Thread Cert.ReferenceIdeal.nD Cert.ReferenceIdeal.τ).loc Cert.ReferenceIdeal.main_arg7) = Cert.Val.A7 m c)
    (h12 : m' ((c.tc : Thread Cert.ReferenceIdeal.nD Cert.ReferenceIdeal.τ).loc Cert.ReferenceIdeal.main_arg12) = Cert.Val.A12 m c)
    (h13 : m' ((c.tc : Thread Cert.ReferenceIdeal.nD Cert.ReferenceIdeal.τ).loc Cert.ReferenceIdeal.main_arg13) = Cert.Val.A13 m c)
    (h14 : m' ((c.tc : Thread Cert.ReferenceIdeal.nD Cert.ReferenceIdeal.τ).loc Cert.ReferenceIdeal.main_arg14) = Cert.Val.A14 m c) :
    Cert.ReferenceIdeal.Value.res_main_v67 m' c
      = Cert.ReferenceIdeal.Read.val_main_v67 (F := Ideal) (Cert.Val.A0 m c) (Cert.Val.A1 m c) (Cert.Val.A2 m c) (Cert.Val.A3 m c)
          (Cert.Val.A4 m c) (Cert.Val.A5 m c) (Cert.Val.A6 m c) (Cert.Val.A7 m c) (Cert.Val.A12 m c) (Cert.Val.A13 m c)
          (Cert.Val.A14 m c) := by
  rw [Cert.ReferenceIdeal.Read.val_main_v67_eq, h0, h1, h2, h3, h4, h5, h6, h7, h12, h13, h14]

/-- At the ideal values, from memories that agree on the arguments, both programs end with the same two results:
    the kernel program's run leaves them at the reference's last stages of its own arguments, the reference's run at
    the same stages of its arguments, and the arguments agree. -/
theorem algebraic : Cert.algebraic_KernelIdeal_ReferenceIdeal := by
  intro m ρ m' ρ' _ hagree
  refine ⟨fun c => Cert.ReferenceIdeal.Read.val_main_v81 (F := Ideal) (Cert.Val.A0 m c) (Cert.Val.A1 m c) (Cert.Val.A2 m c)
      (Cert.Val.A3 m c) (Cert.Val.A4 m c) (Cert.Val.A5 m c) (Cert.Val.A6 m c) (Cert.Val.A7 m c) (Cert.Val.A8 m c) (Cert.Val.A9 m c)
      (Cert.Val.A10 m c) (Cert.Val.A11 m c),
    fun c => Cert.ReferenceIdeal.Read.val_main_v67 (F := Ideal) (Cert.Val.A0 m c) (Cert.Val.A1 m c) (Cert.Val.A2 m c)
      (Cert.Val.A3 m c) (Cert.Val.A4 m c) (Cert.Val.A5 m c) (Cert.Val.A6 m c) (Cert.Val.A7 m c) (Cert.Val.A12 m c) (Cert.Val.A13 m c)
      (Cert.Val.A14 m c),
    Cert.Val.kernel_run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  exact ⟨(h c).1.trans (ref_features m m' c a0 a1 a2 a3 a4 a5 a6 a7 a8 a9 a10 a11),
    (h c).2.1.trans (ref_coordinates m m' c a0 a1 a2 a3 a4 a5 a6 a7 a12 a13 a14), (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
